-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v71_1)) (v1 : (c : Dev Cert.KernelIdeal.nD) → Buf (Elt Ideal) ((c.tc : Thread Cert.KernelIdeal.nD Cert.KernelIdeal.τ).loc Cert.KernelIdeal.main_v71_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_1) = v0 c
          ∧ r.2.mem ((c.tc : Thread Cert.KernelIdeal.nD Cert.KernelIdeal.τ).loc Cert.KernelIdeal.main_v71_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S64x128 .f32) (main_arg13 : FVec F S64 .f32) (main_arg14 : FVec F S128 .f32) (main_arg15 : FVec F S128 .f32) (main_arg16 : FVec F S128 .f32) (main_arg17 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S64x128 .f32) (main_arg11 : FVec F S64 .f32) (main_arg12 : FVec F S64x128 .f32) (main_arg13 : FVec F S64 .f32) (main_arg14 : FVec F S128 .f32) (main_arg15 : FVec F S128 .f32) (main_arg16 : FVec F S128 .f32) (main_arg17 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) (main_arg12 : FVec F S64x128 .f32) (main_arg13 : FVec F S64 .f32) (main_arg14 : FVec F S128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) (main_arg12 : FVec F S64x128 .f32) (main_arg13 : FVec F S64 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S5000x128 : Shape := ⟨2, ![5000, 128]⟩
abbrev S1 : Shape := ⟨1, ![1]⟩
abbrev S1x1 : Shape := ⟨2, ![1, 1]⟩
abbrev S850000x128 : Shape := ⟨2, ![850000, 128]⟩
abbrev S50000x1 : Shape := ⟨2, ![50000, 1]⟩
abbrev S5000x1 : Shape := ⟨2, ![5000, 1]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S850000x64 : Shape := ⟨2, ![850000, 64]⟩
abbrev S5000 : Shape := ⟨1, ![5000]⟩

abbrev nBuf : Space → Nat
  | .hbm => 173
  | .vmem => 64
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S64x128, .f32⟩
  | 11 => ⟨S64, .f32⟩
  | 12 => ⟨S64x128, .f32⟩
  | 13 => ⟨S64, .f32⟩
  | 14 => ⟨S128, .f32⟩
  | 15 => ⟨S128, .f32⟩
  | 16 => ⟨S128, .f32⟩
  | 17 => ⟨S128, .f32⟩
  | 18 => ⟨S1x800000, .i32⟩
  | 19 => ⟨S800000, .i32⟩
  | 20 => ⟨S1x800000, .i32⟩
  | 21 => ⟨S800000, .i32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S128x128, .f32⟩
  | 32 => ⟨S128x128, .f32⟩
  | 33 => ⟨S1x128, .f32⟩
  | 34 => ⟨S1x128, .f32⟩
  | 35 => ⟨S50000x128, .f32⟩
  | 36 => ⟨S50000x128, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S1, .i32⟩
  | 46 => ⟨S_, .i32⟩
  | 47 => ⟨S850000x1, .i32⟩
  | 48 => ⟨S850000x1, .i1⟩
  | 49 => ⟨S1x1, .i32⟩
  | 50 => ⟨S850000x1, .i32⟩
  | 51 => ⟨S850000x1, .i1⟩
  | 52 => ⟨S850000x1, .i1⟩
  | 53 => ⟨S_, .i1⟩
  | 54 => ⟨S850000, .i1⟩
  | 55 => ⟨S850000x128, .f32⟩
  | 56 => ⟨S850000x128, .i1⟩
  | 57 => ⟨S_, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S50000x1, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S128x128, .f32⟩
  | 81 => ⟨S128x128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S50000x128, .f32⟩
  | 89 => ⟨S50000x128, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S1, .i32⟩
  | 99 => ⟨S_, .i32⟩
  | 100 => ⟨S850000x1, .i32⟩
  | 101 => ⟨S850000x1, .i1⟩
  | 102 => ⟨S1x1, .i32⟩
  | 103 => ⟨S850000x1, .i32⟩
  | 104 => ⟨S850000x1, .i1⟩
  | 105 => ⟨S850000x1, .i1⟩
  | 106 => ⟨S_, .i1⟩
  | 107 => ⟨S850000, .i1⟩
  | 108 => ⟨S850000x128, .f32⟩
  | 109 => ⟨S850000x128, .i1⟩
  | 110 => ⟨S_, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S50000x1, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S128x64, .f32⟩
  | 6 => ⟨S128x64, .f32⟩
  | 7 => ⟨S1x64, .f32⟩
  | 8 => ⟨S1x64, .f32⟩
  | 9 => ⟨S1x128, .f32⟩
  | 10 => ⟨S1x128, .f32⟩
  | 11 => ⟨S1x128, .f32⟩
  | 12 => ⟨S1x128, .f32⟩
  | 13 => ⟨S50000x64, .f32⟩
  | 14 => ⟨S50000x64, .f32⟩
  | 15 => ⟨S_, .i32⟩
  | 16 => ⟨S850000, .i32⟩
  | 17 => ⟨S850000, .i1⟩
  | 18 => ⟨S_, .i32⟩
  | 19 => ⟨S850000, .i32⟩
  | 20 => ⟨S850000, .i32⟩
  | 21 => ⟨S850000, .i32⟩
  | 22 => ⟨S850000x1, .i32⟩
  | 23 => ⟨S1, .i32⟩
  | 24 => ⟨S_, .i32⟩
  | 25 => ⟨S850000x1, .i32⟩
  | 26 => ⟨S850000x1, .i1⟩
  | 27 => ⟨S1x1, .i32⟩
  | 28 => ⟨S850000x1, .i32⟩
  | 29 => ⟨S850000x1, .i1⟩
  | 30 => ⟨S850000x1, .i1⟩
  | 31 => ⟨S_, .i1⟩
  | 32 => ⟨S850000, .i1⟩
  | 33 => ⟨S850000x64, .f32⟩
  | 34 => ⟨S850000x64, .i1⟩
  | 35 => ⟨S_, .f32⟩
  | 36 => ⟨S850000x64, .f32⟩
  | 37 => ⟨S850000x64, .f32⟩
  | 38 => ⟨S_, .f32⟩
  | 39 => ⟨S50000x64, .f32⟩
  | 40 => ⟨S850000x1, .i32⟩
  | 41 => ⟨S50000x64, .f32⟩
  | 42 => ⟨S50000x1, .f32⟩
  | 43 => ⟨S50000x64, .f32⟩
  | 44 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S128x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x1, .f32⟩
  | .local _ .vmem, ⟨57, _⟩ => ⟨S5000x1, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v16 : Ref sig .tc := ⟨.hbm, 59, rfl⟩
abbrev main_cst_1 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_2 : Ref sig .tc := ⟨.hbm, 66, rfl⟩
abbrev main_v22 : Ref sig .tc := ⟨.hbm, 67, rfl⟩
abbrev main_cst_3 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_4 : Ref sig .tc := ⟨.hbm, 75, rfl⟩
abbrev main_v29 : Ref sig .tc := ⟨.hbm, 76, rfl⟩
abbrev main_cst_5 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40_0 : Ref sig .tc := ⟨.hbm, 88, rfl⟩
abbrev main_v40_1 : Ref sig .tc := ⟨.hbm, 89, rfl⟩
abbrev main_call1_c : Ref sig .tc := ⟨.hbm, 90, rfl⟩
abbrev main_call1_v0 : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_c_1 : Ref sig .tc := ⟨.hbm, 98, rfl⟩
abbrev main_call1_c_2 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_3 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_cst : Ref sig .tc := ⟨.hbm, 110, rfl⟩
abbrev main_call1_v15 : Ref sig .tc := ⟨.hbm, 111, rfl⟩
abbrev main_v41 : Ref sig .tc := ⟨.hbm, 112, rfl⟩
abbrev main_cst_6 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_cst_7 : Ref sig .tc := ⟨.hbm, 119, rfl⟩
abbrev main_v47 : Ref sig .tc := ⟨.hbm, 120, rfl⟩
abbrev main_cst_8 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_cst_9 : Ref sig .tc := ⟨.hbm, 128, rfl⟩
abbrev main_v54 : Ref sig .tc := ⟨.hbm, 129, rfl⟩
abbrev main_cst_10 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65_0 : Ref sig .tc := ⟨.hbm, 141, rfl⟩
abbrev main_v65_1 : Ref sig .tc := ⟨.hbm, 142, rfl⟩
abbrev main_call2_c : Ref sig .tc := ⟨.hbm, 143, rfl⟩
abbrev main_call2_v0 : Ref sig .tc := ⟨.hbm, 144, rfl⟩
abbrev main_call2_v1 : Ref sig .tc := ⟨.hbm, 145, rfl⟩
abbrev main_call2_c_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_c_1 : Ref sig .tc := ⟨.hbm, 151, rfl⟩
abbrev main_call2_c_2 : Ref sig .tc := ⟨.hbm, 152, rfl⟩
abbrev main_call2_v6 : Ref sig .tc := ⟨.hbm, 153, rfl⟩
abbrev main_call2_v7 : Ref sig .tc := ⟨.hbm, 154, rfl⟩
abbrev main_call2_v8 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_c_3 : Ref sig .tc := ⟨.hbm, 159, rfl⟩
abbrev main_call2_v12 : Ref sig .tc := ⟨.hbm, 160, rfl⟩
abbrev main_call2_v13 : Ref sig .tc := ⟨.hbm, 161, rfl⟩
abbrev main_call2_v14 : Ref sig .tc := ⟨.hbm, 162, rfl⟩
abbrev main_call2_cst : Ref sig .tc := ⟨.hbm, 163, rfl⟩
abbrev main_call2_v15 : Ref sig .tc := ⟨.hbm, 164, rfl⟩
abbrev main_v66 : Ref sig .tc := ⟨.hbm, 165, rfl⟩
abbrev main_cst_11 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71_0 : Ref sig .tc := ⟨.hbm, 171, rfl⟩
abbrev main_v71_1 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg8_0 : Ref sig .tc := ⟨.vmem, 49, rfl⟩
abbrev cc4_stg9_0 : Ref sig .tc := ⟨.vmem, 50, rfl⟩
abbrev cc4_stg9_1 : Ref sig .tc := ⟨.vmem, 51, rfl⟩
abbrev cc4_stg10_0 : Ref sig .tc := ⟨.vmem, 52, rfl⟩
abbrev cc4_stg10_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg2_1 : Ref sig .tc := ⟨.vmem, 59, rfl⟩
abbrev cc5_stg3_0 : Ref sig .tc := ⟨.vmem, 60, rfl⟩
abbrev cc5_stg3_1 : Ref sig .tc := ⟨.vmem, 61, rfl⟩
abbrev cc5_stg4_0 : Ref sig .tc := ⟨.vmem, 62, rfl⟩
abbrev cc5_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem8_0 : DmaSem sig := 49
abbrev cc4_sem9_0 : DmaSem sig := 50
abbrev cc4_sem9_1 : DmaSem sig := 51
abbrev cc4_sem10_0 : DmaSem sig := 52
abbrev cc4_sem10_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem2_1 : DmaSem sig := 59
abbrev cc5_sem3_0 : DmaSem sig := 60
abbrev cc5_sem3_1 : DmaSem sig := 61
abbrev cc5_sem4_0 : DmaSem sig := 62
abbrev cc5_sem4_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x64 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S5000x64 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S_S50000x128 : S_.BroadcastsInDim S50000x128 (![] : Fin 0 → Fin S50000x128.rank)
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  reduces_S5000x64_S5000 : S5000x64.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x64.size a ≤ S50000x64.size a
  hwx4_9 : ∀ i : grid4.Coords, EltTy.bits .f32 = 32 ∨ (Rect.block (s := S50000x64) S5000x64.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S5000x64.size a ≤ S50000x64.size a
  hwx4_10 : ∀ i : grid4.Coords, EltTy.bits .f32 = 32 ∨ (Rect.block (s := S50000x64) S5000x64.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v33) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v35) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v40_0) S5000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v40_1) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40_1) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v57) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v59) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v58) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v60) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v65_0) S5000x64.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v65_1) S5000x64.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v69) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65_1) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71_0) S5000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v71_1) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S1x128 : Shape := ⟨2, ![1, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1 : Shape := ⟨1, ![1]⟩
abbrev S1x1 : Shape := ⟨2, ![1, 1]⟩
abbrev S850000x128 : Shape := ⟨2, ![850000, 128]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩
abbrev S850000x64 : Shape := ⟨2, ![850000, 64]⟩

abbrev nBuf : Space → Nat
  | .hbm => 247
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S64x128, .f32⟩
  | 11 => ⟨S64, .f32⟩
  | 12 => ⟨S64x128, .f32⟩
  | 13 => ⟨S64, .f32⟩
  | 14 => ⟨S128, .f32⟩
  | 15 => ⟨S128, .f32⟩
  | 16 => ⟨S128, .f32⟩
  | 17 => ⟨S128, .f32⟩
  | 18 => ⟨S1x800000, .i32⟩
  | 19 => ⟨S800000, .i32⟩
  | 20 => ⟨S1x800000, .i32⟩
  | 21 => ⟨S800000, .i32⟩
  | 22 => ⟨S128x128, .f32⟩
  | 23 => ⟨S50000x128, .f32⟩
  | 24 => ⟨S1x128, .f32⟩
  | 25 => ⟨S50000x128, .f32⟩
  | 26 => ⟨S50000x128, .f32⟩
  | 27 => ⟨S128x128, .f32⟩
  | 28 => ⟨S50000x128, .f32⟩
  | 29 => ⟨S1x128, .f32⟩
  | 30 => ⟨S50000x128, .f32⟩
  | 31 => ⟨S50000x128, .f32⟩
  | 32 => ⟨S50000, .i32⟩
  | 33 => ⟨S850000, .i32⟩
  | 34 => ⟨S850000, .i32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S1, .i32⟩
  | 44 => ⟨S_, .i32⟩
  | 45 => ⟨S850000x1, .i32⟩
  | 46 => ⟨S850000x1, .i1⟩
  | 47 => ⟨S1x1, .i32⟩
  | 48 => ⟨S850000x1, .i32⟩
  | 49 => ⟨S850000x1, .i1⟩
  | 50 => ⟨S850000x1, .i1⟩
  | 51 => ⟨S_, .i1⟩
  | 52 => ⟨S850000, .i1⟩
  | 53 => ⟨S850000x128, .f32⟩
  | 54 => ⟨S850000x128, .i1⟩
  | 55 => ⟨S_, .f32⟩
  | 56 => ⟨S850000x128, .f32⟩
  | 57 => ⟨S850000x128, .f32⟩
  | 58 => ⟨S_, .f32⟩
  | 59 => ⟨S50000x128, .f32⟩
  | 60 => ⟨S850000x1, .i32⟩
  | 61 => ⟨S50000x128, .f32⟩
  | 62 => ⟨S_, .f32⟩
  | 63 => ⟨S850000, .f32⟩
  | 64 => ⟨S_, .f32⟩
  | 65 => ⟨S50000, .f32⟩
  | 66 => ⟨S850000x1, .i32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S128x128, .f32⟩
  | 103 => ⟨S50000x128, .f32⟩
  | 104 => ⟨S1x128, .f32⟩
  | 105 => ⟨S50000x128, .f32⟩
  | 106 => ⟨S50000x128, .f32⟩
  | 107 => ⟨S128x128, .f32⟩
  | 108 => ⟨S50000x128, .f32⟩
  | 109 => ⟨S1x128, .f32⟩
  | 110 => ⟨S50000x128, .f32⟩
  | 111 => ⟨S50000x128, .f32⟩
  | 112 => ⟨S50000, .i32⟩
  | 113 => ⟨S850000, .i32⟩
  | 114 => ⟨S850000, .i32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S1, .i32⟩
  | 124 => ⟨S_, .i32⟩
  | 125 => ⟨S850000x1, .i32⟩
  | 126 => ⟨S850000x1, .i1⟩
  | 127 => ⟨S1x1, .i32⟩
  | _ => ⟨S50000x128, .f32⟩

abbrev hbmTy0_1 (i : Nat) : BufTy := match i % 128 with
  | 0 => ⟨S850000x1, .i32⟩
  | 1 => ⟨S850000x1, .i1⟩
  | 2 => ⟨S850000x1, .i1⟩
  | 3 => ⟨S_, .i1⟩
  | 4 => ⟨S850000, .i1⟩
  | 5 => ⟨S850000x128, .f32⟩
  | 6 => ⟨S850000x128, .i1⟩
  | 7 => ⟨S_, .f32⟩
  | 8 => ⟨S850000x128, .f32⟩
  | 9 => ⟨S850000x128, .f32⟩
  | 10 => ⟨S_, .f32⟩
  | 11 => ⟨S50000x128, .f32⟩
  | 12 => ⟨S850000x1, .i32⟩
  | 13 => ⟨S50000x128, .f32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S50000x1, .f32⟩
  | 21 => ⟨S50000x128, .f32⟩
  | 22 => ⟨S50000x128, .f32⟩
  | 23 => ⟨S50000x128, .f32⟩
  | 24 => ⟨S_, .f32⟩
  | 25 => ⟨S128, .f32⟩
  | 26 => ⟨S_, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S128x64, .f32⟩
  | 55 => ⟨S50000x64, .f32⟩
  | 56 => ⟨S1x64, .f32⟩
  | 57 => ⟨S50000x64, .f32⟩
  | 58 => ⟨S50000x64, .f32⟩
  | 59 => ⟨S128x64, .f32⟩
  | 60 => ⟨S50000x64, .f32⟩
  | 61 => ⟨S1x64, .f32⟩
  | 62 => ⟨S50000x64, .f32⟩
  | 63 => ⟨S50000x64, .f32⟩
  | 64 => ⟨S50000, .i32⟩
  | 65 => ⟨S850000, .i32⟩
  | 66 => ⟨S850000, .i32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S1, .i32⟩
  | 76 => ⟨S_, .i32⟩
  | 77 => ⟨S850000x1, .i32⟩
  | 78 => ⟨S850000x1, .i1⟩
  | 79 => ⟨S1x1, .i32⟩
  | 80 => ⟨S850000x1, .i32⟩
  | 81 => ⟨S850000x1, .i1⟩
  | 82 => ⟨S850000x1, .i1⟩
  | 83 => ⟨S_, .i1⟩
  | 84 => ⟨S850000, .i1⟩
  | 85 => ⟨S850000x64, .f32⟩
  | 86 => ⟨S850000x64, .i1⟩
  | 87 => ⟨S_, .f32⟩
  | 88 => ⟨S850000x64, .f32⟩
  | 89 => ⟨S850000x64, .f32⟩
  | 90 => ⟨S_, .f32⟩
  | 91 => ⟨S50000x64, .f32⟩
  | 92 => ⟨S850000x1, .i32⟩
  | 93 => ⟨S50000x64, .f32⟩
  | 94 => ⟨S_, .f32⟩
  | 95 => ⟨S850000, .f32⟩
  | 96 => ⟨S_, .f32⟩
  | 97 => ⟨S50000, .f32⟩
  | 98 => ⟨S850000x1, .i32⟩
  | 99 => ⟨S50000, .f32⟩
  | 100 => ⟨S50000x1, .f32⟩
  | 101 => ⟨S50000x64, .f32⟩
  | 102 => ⟨S50000x64, .f32⟩
  | 103 => ⟨S50000x64, .f32⟩
  | 104 => ⟨S_, .f32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S_, .f32⟩
  | 114 => ⟨S50000, .f32⟩
  | 115 => ⟨S50000x1, .f32⟩
  | 116 => ⟨S50000x1, .f32⟩
  | 117 => ⟨S50000x64, .f32⟩
  | 118 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v17 : Ref sig .tc := ⟨.hbm, 57, rfl⟩
abbrev main_cst : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_0 : Ref sig .tc := ⟨.hbm, 62, rfl⟩
abbrev main_v21 : Ref sig .tc := ⟨.hbm, 63, rfl⟩
abbrev main_cst_1 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_2 : Ref sig .tc := ⟨.hbm, 72, rfl⟩
abbrev main_v29 : Ref sig .tc := ⟨.hbm, 73, rfl⟩
abbrev main_cst_3 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_4 : Ref sig .tc := ⟨.hbm, 81, rfl⟩
abbrev main_v36 : Ref sig .tc := ⟨.hbm, 82, rfl⟩
abbrev main_cst_5 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_6 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_call1_c : Ref sig .tc := ⟨.hbm, 115, rfl⟩
abbrev main_call1_v0 : Ref sig .tc := ⟨.hbm, 116, rfl⟩
abbrev main_call1_v1 : Ref sig .tc := ⟨.hbm, 117, rfl⟩
abbrev main_call1_c_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_c_1 : Ref sig .tc := ⟨.hbm, 123, rfl⟩
abbrev main_call1_c_2 : Ref sig .tc := ⟨.hbm, 124, rfl⟩
abbrev main_call1_v6 : Ref sig .tc := ⟨.hbm, 125, rfl⟩
abbrev main_call1_v7 : Ref sig .tc := ⟨.hbm, 126, rfl⟩
abbrev main_call1_v8 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_c_3 : Ref sig .tc := ⟨.hbm, 131, rfl⟩
abbrev main_call1_v12 : Ref sig .tc := ⟨.hbm, 132, rfl⟩
abbrev main_call1_v13 : Ref sig .tc := ⟨.hbm, 133, rfl⟩
abbrev main_call1_v14 : Ref sig .tc := ⟨.hbm, 134, rfl⟩
abbrev main_call1_cst : Ref sig .tc := ⟨.hbm, 135, rfl⟩
abbrev main_call1_v15 : Ref sig .tc := ⟨.hbm, 136, rfl⟩
abbrev main_v67 : Ref sig .tc := ⟨.hbm, 137, rfl⟩
abbrev main_cst_7 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_8 : Ref sig .tc := ⟨.hbm, 142, rfl⟩
abbrev main_v71 : Ref sig .tc := ⟨.hbm, 143, rfl⟩
abbrev main_cst_9 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_cst_10 : Ref sig .tc := ⟨.hbm, 152, rfl⟩
abbrev main_v79 : Ref sig .tc := ⟨.hbm, 153, rfl⟩
abbrev main_cst_11 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_12 : Ref sig .tc := ⟨.hbm, 161, rfl⟩
abbrev main_v86 : Ref sig .tc := ⟨.hbm, 162, rfl⟩
abbrev main_cst_13 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_cst_14 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_call2_c : Ref sig .tc := ⟨.hbm, 195, rfl⟩
abbrev main_call2_v0 : Ref sig .tc := ⟨.hbm, 196, rfl⟩
abbrev main_call2_v1 : Ref sig .tc := ⟨.hbm, 197, rfl⟩
abbrev main_call2_c_0 : Ref sig .tc := ⟨.hbm, 198, rfl⟩
abbrev main_call2_v2 : Ref sig .tc := ⟨.hbm, 199, rfl⟩
abbrev main_call2_v3 : Ref sig .tc := ⟨.hbm, 200, rfl⟩
abbrev main_call2_v4 : Ref sig .tc := ⟨.hbm, 201, rfl⟩
abbrev main_call2_v5 : Ref sig .tc := ⟨.hbm, 202, rfl⟩
abbrev main_call2_c_1 : Ref sig .tc := ⟨.hbm, 203, rfl⟩
abbrev main_call2_c_2 : Ref sig .tc := ⟨.hbm, 204, rfl⟩
abbrev main_call2_v6 : Ref sig .tc := ⟨.hbm, 205, rfl⟩
abbrev main_call2_v7 : Ref sig .tc := ⟨.hbm, 206, rfl⟩
abbrev main_call2_v8 : Ref sig .tc := ⟨.hbm, 207, rfl⟩
abbrev main_call2_v9 : Ref sig .tc := ⟨.hbm, 208, rfl⟩
abbrev main_call2_v10 : Ref sig .tc := ⟨.hbm, 209, rfl⟩
abbrev main_call2_v11 : Ref sig .tc := ⟨.hbm, 210, rfl⟩
abbrev main_call2_c_3 : Ref sig .tc := ⟨.hbm, 211, rfl⟩
abbrev main_call2_v12 : Ref sig .tc := ⟨.hbm, 212, rfl⟩
abbrev main_call2_v13 : Ref sig .tc := ⟨.hbm, 213, rfl⟩
abbrev main_call2_v14 : Ref sig .tc := ⟨.hbm, 214, rfl⟩
abbrev main_call2_cst : Ref sig .tc := ⟨.hbm, 215, rfl⟩
abbrev main_call2_v15 : Ref sig .tc := ⟨.hbm, 216, rfl⟩
abbrev main_v117 : Ref sig .tc := ⟨.hbm, 217, rfl⟩
abbrev main_cst_15 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_cst_16 : Ref sig .tc := ⟨.hbm, 222, rfl⟩
abbrev main_v121 : Ref sig .tc := ⟨.hbm, 223, rfl⟩
abbrev main_cst_17 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_call3_cst : Ref sig .tc := ⟨.hbm, 232, rfl⟩
abbrev main_call3_v0 : Ref sig .tc := ⟨.hbm, 233, rfl⟩
abbrev main_call3_cst_0 : Ref sig .tc := ⟨.hbm, 234, rfl⟩
abbrev main_call3_v1 : Ref sig .tc := ⟨.hbm, 235, rfl⟩
abbrev main_call3_v2 : Ref sig .tc := ⟨.hbm, 236, rfl⟩
abbrev main_call3_v3 : Ref sig .tc := ⟨.hbm, 237, rfl⟩
abbrev main_call3_v4 : Ref sig .tc := ⟨.hbm, 238, rfl⟩
abbrev main_call3_v5 : Ref sig .tc := ⟨.hbm, 239, rfl⟩
abbrev main_call3_v6 : Ref sig .tc := ⟨.hbm, 240, rfl⟩
abbrev main_call3_cst_1 : Ref sig .tc := ⟨.hbm, 241, rfl⟩
abbrev main_call3_v7 : Ref sig .tc := ⟨.hbm, 242, rfl⟩
abbrev main_call3_v8 : Ref sig .tc := ⟨.hbm, 243, rfl⟩
abbrev main_call3_v9 : Ref sig .tc := ⟨.hbm, 244, rfl⟩
abbrev main_call3_v10 : Ref sig .tc := ⟨.hbm, 245, rfl⟩
abbrev main_v129 : Ref sig .tc := ⟨.hbm, 246, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000_S50000_S850000_d0 : Shape.Concatenates [S800000, S50000] S850000 0
  bcast_S_S850000 : S_.BroadcastsInDim S850000 (![] : Fin 0 → Fin S850000.rank)
  bcast_S850000_S850000x1_0 : S850000.BroadcastsInDim S850000x1 (![0] : Fin 1 → Fin S850000x1.rank)
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000_S850000x64_0 : S850000.BroadcastsInDim S850000x64 (![0] : Fin 1 → Fin S850000x64.rank)
  bcast_S_S850000x64 : S_.BroadcastsInDim S850000x64 (![] : Fin 0 → Fin S850000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S50000x64_S50000_d1 : S50000x64.ReducesTo [1] S50000
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S850000x1_S850000_n_0_0_1_wf : ScatterDims.WF S50000 S850000x1 S850000 [] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its two results NAMED: every weakly fair execution of @main terminates without a
  fault, each result buffer then holds what the fold of @main's segments (host stretches and the six blocked
  regions) leaves there, and the eighteen arguments are unchanged.
-/
import proofs.«139878_j75204877353213_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run, its post strengthened by the two result buffers read off the last thread state: each holds the
    final boundary's contents `W15`. -/
theorem run_values : θ_run defs (onTc (τ := τ) (main (F := F))) ⟨m, fun _ => 0, ρ⟩ (fun r => ∀ c : Dev nD,
      r.2.mem ((c.tc : Thread nD τ).loc main_v71_1) = W15 m ρ c (Proc.devRef .tc main_v71_1)
      ∧ r.2.mem ((c.tc : Thread nD τ).loc main_v71_0) = W15 m ρ c (Proc.devRef .tc main_v71_0)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v71_1 (by decide)), h c _ (mem_uc main_v71_0 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.KernelIdeal.RunValues

end
-- ==== Proof.RefOps.lean ====
/-
  The reference network's stages as functions of arrays, over the extended reals: each body is the composition of
  the host operations the reference program performs for that stage, written once and never unfolded by its users.
  A 3-layer mean-aggregating graph convolution on 50000 nodes and 800000 edges (plus one self loop per node):
  per layer two dense maps, a gather of the source rows, a scatter-add into the destination rows, the division by
  the in-degree; between layers a batch normalisation over the nodes; at the end a row-wise log-softmax.
-/
import proofs.«139878_j75204877353213_2_alg».proof.ReferenceIdeal
import proofs.«139878_j75204877353213_2_alg».proof.Proof.Gen.ReferenceIdeal
import Idealize.ShloMosaic.PureOps.Ideal

noncomputable section

namespace Cert.ReferenceIdeal.RefRun

open Cert.ReferenceIdeal Cert.ReferenceIdeal.Gen Idealize.ShloMosaic

/-! ## The edge list -/

/-- Row 0 of the edge list (the sources), as a vector. -/
def srcRow (ei : IVec S2x800000 32) : IVec S800000 32 :=
  shapeCast S800000 (extractStridedSlice S1x800000 ![0, 0] ei slices_S2x800000_S1x800000_0_0) shapeCasts_S1x800000_S800000

/-- Row 1 of the edge list (the destinations), as a vector. -/
def dstRow (ei : IVec S2x800000 32) : IVec S800000 32 :=
  shapeCast S800000 (extractStridedSlice S1x800000 ![1, 0] ei slices_S2x800000_S1x800000_1_0) shapeCasts_S1x800000_S800000

/-- An edge row followed by the self loops `0, 1, …, 49999`. -/
def withLoops (r : IVec S800000 32) : IVec S850000 32 :=
  concatenate S850000 0 [⟨S800000, r⟩, ⟨S50000, iotaInDim S50000 32 0⟩] concatenates_S800000_S50000_S850000_d0

/-- The 850000 source indices. -/
def sIdx (ei : IVec S2x800000 32) : IVec S850000 32 := withLoops (srcRow ei)

/-- The 850000 destination indices. -/
def dIdx (ei : IVec S2x800000 32) : IVec S850000 32 := withLoops (dstRow ei)

/-! ## Gathering rows -/

/-- An index vector with its negative entries moved up by 50000, as a column. -/
def wrapIdx (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Which entries of an index column lie in `[0, 49999]`. -/
def inBounds (i : IVec S850000x1 32) : IVec S850000 1 :=
  Host.reduce IntOp.andi
    (andi (cmpi .sge i (broadcastInDim S850000x1 ![] bcast_S_S850000x1 (constantI S_ 32 0#32)))
      (cmpi .sle i (broadcastInDim S850000x1 ![0, 1] bcast_S1x1_S850000x1_0_1
        (broadcastInDim S1x1 ![1] bcast_S1_S1x1_1 (constantI S1 32 49999#32)))))
    (constantI S_ 1 1#1) reducesTo_S850000x1_S850000_d1 h_S_

/-- The rows of `xl` at the indices `s` (128 features): the gather, a NaN row where the index is out of range. -/
def take128 (xl : FVec Ideal S50000x128 .f32) (s : IVec S850000 32) : FVec Ideal S850000x128 .f32 :=
  select (broadcastInDim S850000x128 ![0] bcast_S850000_S850000x128_0 (inBounds (wrapIdx s)))
    (Host.gather gather_S50000x128_S850000x1_S850000x128_1_0_n_n_0_1_1128 xl (wrapIdx s))
    (broadcastInDim S850000x128 ![] bcast_S_S850000x128 (constant (F := Ideal) S_ .f32 0x7FC00000#32))

/-- The same at 64 features. -/
def take64 (xl : FVec Ideal S50000x64 .f32) (s : IVec S850000 32) : FVec Ideal S850000x64 .f32 :=
  select (broadcastInDim S850000x64 ![0] bcast_S850000_S850000x64_0 (inBounds (wrapIdx s)))
    (Host.gather gather_S50000x64_S850000x1_S850000x64_1_0_n_n_0_1_164 xl (wrapIdx s))
    (broadcastInDim S850000x64 ![] bcast_S_S850000x64 (constant (F := Ideal) S_ .f32 0x7FC00000#32))

/-! ## Scattering rows -/

/-- The sum, per destination node, of the message rows sent to it (128 features). -/
def scat128 (d : IVec S850000 32) (msgs : FVec Ideal S850000x128 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 d) msgs

/-- The same at 64 features. -/
def scat64 (d : IVec S850000 32) (msgs : FVec Ideal S850000x64 .f32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 d) msgs

/-- The in-degree of each node: a one added per message. -/
def cnt (d : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-! ## Dense maps -/

/-- A per-feature vector as a row repeated down the 50000 nodes (128 features). -/
def bcastRow128 (v : FVec Ideal S128 .f32) : FVec Ideal S50000x128 .f32 :=
  broadcastInDim S50000x128 ![0, 1] bcast_S1x128_S50000x128_0_1 (broadcastInDim S1x128 ![1] bcast_S128_S1x128_1 v)

/-- The same at 64 features. -/
def bcastRow64 (v : FVec Ideal S64 .f32) : FVec Ideal S50000x64 .f32 :=
  broadcastInDim S50000x64 ![0, 1] bcast_S1x64_S50000x64_0_1 (broadcastInDim S1x64 ![1] bcast_S64_S1x64_1 v)

/-- `x · Wᵀ + b`, 128 features to 128. -/
def refLin128 (x : FVec Ideal S50000x128 .f32) (W : FVec Ideal S128x128 .f32) (b : FVec Ideal S128 .f32) :
    FVec Ideal S50000x128 .f32 :=
  addf (F := Ideal)
    (Host.dotGeneral (F := Ideal) dot_S50000x128_S128x128_S50000x128_1_0_0_1_n_n none x (transpose S128x128 [1, 0] W transposes_S128x128_S128x128_1_0))
    (bcastRow128 b)

/-- `x · Wᵀ + b`, 128 features to 64. -/
def refLin64 (x : FVec Ideal S50000x128 .f32) (W : FVec Ideal S64x128 .f32) (b : FVec Ideal S64 .f32) :
    FVec Ideal S50000x64 .f32 :=
  addf (F := Ideal)
    (Host.dotGeneral (F := Ideal) dot_S50000x128_S128x64_S50000x64_1_0_0_1_n_n none x (transpose S128x64 [1, 0] W transposes_S64x128_S128x64_1_0))
    (bcastRow64 b)

/-! ## The mean aggregation -/

/-- `agg / cn + xr`, the count one per node (128 features). -/
def refComb128 (agg : FVec Ideal S50000x128 .f32) (cn : FVec Ideal S50000 .f32) (xr : FVec Ideal S50000x128 .f32) :
    FVec Ideal S50000x128 .f32 :=
  addf (F := Ideal)
    (Host.divf (F := Ideal) agg (broadcastInDim S50000x128 ![0, 1] bcast_S50000x1_S50000x128_0_1
      (broadcastInDim S50000x1 ![0] bcast_S50000_S50000x1_0 cn))) xr

/-- The same at 64 features. -/
def refComb64 (agg : FVec Ideal S50000x64 .f32) (cn : FVec Ideal S50000 .f32) (xr : FVec Ideal S50000x64 .f32) :
    FVec Ideal S50000x64 .f32 :=
  addf (F := Ideal)
    (Host.divf (F := Ideal) agg (broadcastInDim S50000x64 ![0, 1] bcast_S50000x1_S50000x64_0_1
      (broadcastInDim S50000x1 ![0] bcast_S50000_S50000x1_0 cn))) xr

/-- One layer, 128 features to 128. -/
def layer128 (x : FVec Ideal S50000x128 .f32) (s d : IVec S850000 32)
    (Wl : FVec Ideal S128x128 .f32) (bl : FVec Ideal S128 .f32) (Wr : FVec Ideal S128x128 .f32) (br : FVec Ideal S128 .f32) :
    FVec Ideal S50000x128 .f32 :=
  refComb128 (scat128 d (take128 (refLin128 x Wl bl) s)) (cnt d) (refLin128 x Wr br)

/-- The last layer, 128 features to 64. -/
def layer64 (x : FVec Ideal S50000x128 .f32) (s d : IVec S850000 32)
    (Wl : FVec Ideal S64x128 .f32) (bl : FVec Ideal S64 .f32) (Wr : FVec Ideal S64x128 .f32) (br : FVec Ideal S64 .f32) :
    FVec Ideal S50000x64 .f32 :=
  refComb64 (scat64 d (take64 (refLin64 x Wl bl) s)) (cnt d) (refLin64 x Wr br)

/-! ## The batch normalisation -/

/-- The number of nodes, per feature. -/
def nNodes : FVec Ideal S128 .f32 := broadcastInDim S128 ![] bcast_S_S128 (constant (F := Ideal) S_ .f32 0x47435000#32)

/-- The sum over the nodes, per feature. -/
def colSum (h : FVec Ideal S50000x128 .f32) : FVec Ideal S128 .f32 :=
  Host.reduceAdd (F := Ideal) h (constant (F := Ideal) S_ .f32 0x00000000#32) reducesTo_S50000x128_S128_d0 h_S_

/-- The mean over the nodes, per feature. -/
def mean (h : FVec Ideal S50000x128 .f32) : FVec Ideal S128 .f32 := Host.divf (F := Ideal) (colSum h) nNodes

/-- `h - μ`, the mean one per feature. -/
def centered (h : FVec Ideal S50000x128 .f32) (mu : FVec Ideal S128 .f32) : FVec Ideal S50000x128 .f32 :=
  subf (F := Ideal) h (bcastRow128 mu)

/-- The (biased) variance over the nodes, per feature. -/
def var (h : FVec Ideal S50000x128 .f32) (mu : FVec Ideal S128 .f32) : FVec Ideal S128 .f32 :=
  Host.divf (F := Ideal) (colSum (mulf (F := Ideal) (centered h mu) (centered h mu))) nNodes

/-- `(h - μ) · rsqrt (σ² + ε) · γ`: the normalisation before the shift. -/
def bnScaled (h : FVec Ideal S50000x128 .f32) (mu vr g : FVec Ideal S128 .f32) : FVec Ideal S50000x128 .f32 :=
  mulf (F := Ideal)
    (mulf (F := Ideal) (centered h mu)
      (bcastRow128 (Host.rsqrt (F := Ideal)
        (addf (F := Ideal) vr (broadcastInDim S128 ![] bcast_S_S128 (constant (F := Ideal) S_ .f32 0x3727C5AC#32))))))
    (bcastRow128 g)

/-- `(h - μ) · rsqrt (σ² + ε) · γ + β`. -/
def refBn (h : FVec Ideal S50000x128 .f32) (mu vr g be : FVec Ideal S128 .f32) : FVec Ideal S50000x128 .f32 :=
  addf (F := Ideal) (bnScaled h mu vr g) (bcastRow128 be)

/-! ## The log-softmax -/

/-- A per-node vector as a column repeated across the 64 features. -/
def bcastCol64 (v : FVec Ideal S50000x1 .f32) : FVec Ideal S50000x64 .f32 :=
  broadcastInDim S50000x64 ![0, 1] bcast_S50000x1_S50000x64_0_1 v

/-- `h` minus its row maximum. -/
def lsmShift (h : FVec Ideal S50000x64 .f32) : FVec Ideal S50000x64 .f32 :=
  subf (F := Ideal) h (bcastCol64 (broadcastInDim S50000x1 ![0] bcast_S50000_S50000x1_0
    (maximumf (F := Ideal) (broadcastInDim S50000 ![] bcast_S_S50000 (constant (F := Ideal) S_ .f32 0xFF800000#32))
      (Host.reduce (FloatOps.maximumf (F := Ideal)) h (constant (F := Ideal) S_ .f32 0xFF800000#32) reducesTo_S50000x64_S50000_d1 h_S_))))

/-- The row-wise log-softmax: the shifted rows minus the logarithm of the sum of their exponentials. -/
def refLsm (h : FVec Ideal S50000x64 .f32) : FVec Ideal S50000x64 .f32 :=
  subf (F := Ideal) (lsmShift h)
    (bcastCol64 (Host.log (F := Ideal) (broadcastInDim S50000x1 ![0] bcast_S50000_S50000x1_0
      (Host.reduceAdd (F := Ideal) (Host.exp (F := Ideal) (lsmShift h)) (constant (F := Ideal) S_ .f32 0x00000000#32)
        reducesTo_S50000x64_S50000_d1 h_S_))))

/-! ## The network -/

/-- A layer's output normalised with its own statistics. -/
def norm (h : FVec Ideal S50000x128 .f32) (g be : FVec Ideal S128 .f32) : FVec Ideal S50000x128 .f32 :=
  refBn h (mean h) (var h (mean h)) g be

/-- The first layer's output. -/
def h0 (a0 : FVec Ideal S50000x128 .f32) (a1 : IVec S2x800000 32) (a2 : FVec Ideal S128x128 .f32) (a3 : FVec Ideal S128 .f32)
    (a4 : FVec Ideal S128x128 .f32) (a5 : FVec Ideal S128 .f32) : FVec Ideal S50000x128 .f32 :=
  layer128 a0 (sIdx a1) (dIdx a1) a2 a3 a4 a5

/-- The second layer's output. -/
def h1 (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a14 a15 : FVec Ideal S128 .f32) : FVec Ideal S50000x128 .f32 :=
  layer128 (norm (h0 a0 a1 a2 a3 a4 a5) a14 a15) (sIdx a1) (dIdx a1) a6 a7 a8 a9

/-- The network's second result: the last layer's output. -/
def outH (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S64x128 .f32) (a11 : FVec Ideal S64 .f32)
    (a12 : FVec Ideal S64x128 .f32) (a13 : FVec Ideal S64 .f32) (a14 a15 a16 a17 : FVec Ideal S128 .f32) : FVec Ideal S50000x64 .f32 :=
  layer64 (norm (h1 a0 a1 a2 a3 a4 a5 a6 a7 a8 a9 a14 a15) a16 a17) (sIdx a1) (dIdx a1) a10 a11 a12 a13

/-- The network's first result: the log-softmax of the last layer's output. -/
def outLogp (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S64x128 .f32) (a11 : FVec Ideal S64 .f32)
    (a12 : FVec Ideal S64x128 .f32) (a13 : FVec Ideal S64 .f32) (a14 a15 a16 a17 : FVec Ideal S128 .f32) : FVec Ideal S50000x64 .f32 :=
  refLsm (outH a0 a1 a2 a3 a4 a5 a6 a7 a8 a9 a10 a11 a12 a13 a14 a15 a16 a17)

end Cert.ReferenceIdeal.RefRun

end
-- ==== Proof.Spec.lean ====
/-
  The mathematics both programs compute, index by index over the extended reals, for a 3-layer mean-aggregating
  graph convolution network on 50000 nodes.  Nothing here mentions a program.

  * `lin128` / `lin64`: a dense layer `x · Wᵀ + b` (row `p`, output feature `q`: the sum over the 128 input
    features `k` of `x[p,k] · W[q,k]`, plus `b[q]`).
  * `comb128` / `comb64`: the mean aggregation's last step, `agg[p,q] / cnt[p] + xr[p,q]`.
  * `bn`: the batch normalisation's affine step `(h - μ) · (σ² + ε)^(-1/2) · γ + β` per feature (the statistics
    `μ`, `σ²` are inputs here).
  * `lsm`: the row-wise log-softmax, `(h - M) - log Σ_j exp (h[p,j] - M)` with `M` the row's maximum.
-/
import Idealize.ShloMosaic.PureOps.Ideal
import Idealize.ShloMosaic.Lib.ValueIdx

noncomputable section

namespace Cert.Spec

open Idealize.ShloMosaic Idealize.ShloMosaic.ValueIdx
open scoped BigOperators

abbrev SN128 : Shape := ⟨2, ![50000, 128]⟩
abbrev SN64 : Shape := ⟨2, ![50000, 64]⟩
abbrev SN : Shape := ⟨1, ![50000]⟩
abbrev S128x128 : Shape := ⟨2, ![128, 128]⟩
abbrev S64x128 : Shape := ⟨2, ![64, 128]⟩
abbrev S128 : Shape := ⟨1, ![128]⟩
abbrev S64 : Shape := ⟨1, ![64]⟩

/-- The batch normalisation's ε: the f32 nearest 1e-5, as an extended real. -/
def eps : EReal := Ideal.ofBits .f32 0x3727C5AC#32

/-- Row `p`, output feature `q` of `x · Wᵀ + b` (128 → 128). -/
def linAt128 (x : SN128.Idx → EReal) (W : S128x128.Idx → EReal) (b : S128.Idx → EReal) (p : Fin 50000) (q : Fin 128) : EReal :=
  (∑ k : Fin 128, x (ix2 p k) * W (ix2 q k)) + b (ix1 q)

def lin128 (x : SN128.Idx → EReal) (W : S128x128.Idx → EReal) (b : S128.Idx → EReal) : SN128.Idx → EReal :=
  fun i => linAt128 x W b (i 0) (i 1)

/-- Row `p`, output feature `q` of `x · Wᵀ + b` (128 → 64). -/
def linAt64 (x : SN128.Idx → EReal) (W : S64x128.Idx → EReal) (b : S64.Idx → EReal) (p : Fin 50000) (q : Fin 64) : EReal :=
  (∑ k : Fin 128, x (ix2 p k) * W (ix2 q k)) + b (ix1 q)

def lin64 (x : SN128.Idx → EReal) (W : S64x128.Idx → EReal) (b : S64.Idx → EReal) : SN64.Idx → EReal :=
  fun i => linAt64 x W b (i 0) (i 1)

/-- `agg / cnt + xr`, the count one per row. -/
def comb128 (agg : SN128.Idx → EReal) (cnt : SN.Idx → EReal) (xr : SN128.Idx → EReal) : SN128.Idx → EReal :=
  fun i => Ideal.div (agg i) (cnt (ix1 (i 0))) + xr i

def comb64 (agg : SN64.Idx → EReal) (cnt : SN.Idx → EReal) (xr : SN64.Idx → EReal) : SN64.Idx → EReal :=
  fun i => Ideal.div (agg i) (cnt (ix1 (i 0))) + xr i

/-- `(h - μ) · rsqrt (σ² + ε) · γ + β`, the statistics and the affine parameters one per feature. -/
def bn (h : SN128.Idx → EReal) (mu var g be : S128.Idx → EReal) : SN128.Idx → EReal :=
  fun i => (h i - mu (ix1 (i 1))) * Ideal.rsqrt (var (ix1 (i 1)) + eps) * g (ix1 (i 1)) + be (ix1 (i 1))

/-- A row's maximum over its 64 entries (the fold of `max` from `-∞`). -/
def rowMax (h : SN64.Idx → EReal) (p : Fin 50000) : EReal :=
  (Finset.univ : Finset (Fin 64)).fold max ⊥ (fun j => h (ix2 p j))

/-- The row-wise log-softmax. -/
def lsm (h : SN64.Idx → EReal) : SN64.Idx → EReal :=
  fun i => (h i - rowMax h (i 0)) - Ideal.log (∑ j : Fin 64, Ideal.exp (h (ix2 (i 0) j) - rowMax h (i 0)))

theorem lin128_apply (x : SN128.Idx → EReal) (W : S128x128.Idx → EReal) (b : S128.Idx → EReal) (p : Fin 50000) (q : Fin 128) :
    lin128 x W b (ix2 p q) = linAt128 x W b p q := rfl

theorem lin64_apply (x : SN128.Idx → EReal) (W : S64x128.Idx → EReal) (b : S64.Idx → EReal) (p : Fin 50000) (q : Fin 64) :
    lin64 x W b (ix2 p q) = linAt64 x W b p q := rfl

theorem comb128_apply (agg : SN128.Idx → EReal) (cnt : SN.Idx → EReal) (xr : SN128.Idx → EReal) (p : Fin 50000) (q : Fin 128) :
    comb128 agg cnt xr (ix2 p q) = Ideal.div (agg (ix2 p q)) (cnt (ix1 p)) + xr (ix2 p q) := rfl

theorem comb64_apply (agg : SN64.Idx → EReal) (cnt : SN.Idx → EReal) (xr : SN64.Idx → EReal) (p : Fin 50000) (q : Fin 64) :
    comb64 agg cnt xr (ix2 p q) = Ideal.div (agg (ix2 p q)) (cnt (ix1 p)) + xr (ix2 p q) := rfl

theorem bn_apply (h : SN128.Idx → EReal) (mu var g be : S128.Idx → EReal) (p : Fin 50000) (q : Fin 128) :
    bn h mu var g be (ix2 p q) = (h (ix2 p q) - mu (ix1 q)) * Ideal.rsqrt (var (ix1 q) + eps) * g (ix1 q) + be (ix1 q) := rfl

theorem lsm_apply (h : SN64.Idx → EReal) (p : Fin 50000) (q : Fin 64) :
    lsm h (ix2 p q) = (h (ix2 p q) - rowMax h p) - Ideal.log (∑ j : Fin 64, Ideal.exp (h (ix2 p j) - rowMax h p)) := rfl

/-! ## The same functions from operands laid out as the blocked program holds them

The weight already transposed (`[in, out]`), a per-feature vector as a `[1, d]` row, the count as a `[50000, 1]` column. -/

abbrev S1x128 : Shape := ⟨2, ![1, 128]⟩
abbrev S1x64 : Shape := ⟨2, ![1, 64]⟩
abbrev SN1 : Shape := ⟨2, ![50000, 1]⟩
abbrev S128x64 : Shape := ⟨2, ![128, 64]⟩

def linT128 (x : SN128.Idx → EReal) (wt : S128x128.Idx → EReal) (b2 : S1x128.Idx → EReal) : SN128.Idx → EReal :=
  fun i => (∑ k : Fin 128, x (ix2 (i 0) k) * wt (ix2 k (i 1))) + b2 (ix2 0 (i 1))

def linT64 (x : SN128.Idx → EReal) (wt : S128x64.Idx → EReal) (b2 : S1x64.Idx → EReal) : SN64.Idx → EReal :=
  fun i => (∑ k : Fin 128, x (ix2 (i 0) k) * wt (ix2 k (i 1))) + b2 (ix2 0 (i 1))

def bnT (h : SN128.Idx → EReal) (mu2 var2 g2 be2 : S1x128.Idx → EReal) : SN128.Idx → EReal :=
  fun i => (h i - mu2 (ix2 0 (i 1))) * Ideal.rsqrt (var2 (ix2 0 (i 1)) + eps) * g2 (ix2 0 (i 1)) + be2 (ix2 0 (i 1))

def combT128 (agg : SN128.Idx → EReal) (cnt2 : SN1.Idx → EReal) (xr : SN128.Idx → EReal) : SN128.Idx → EReal :=
  fun i => Ideal.div (agg i) (cnt2 (ix2 (i 0) 0)) + xr i

def combT64 (agg : SN64.Idx → EReal) (cnt2 : SN1.Idx → EReal) (xr : SN64.Idx → EReal) : SN64.Idx → EReal :=
  fun i => Ideal.div (agg i) (cnt2 (ix2 (i 0) 0)) + xr i

theorem linT128_apply (x : SN128.Idx → EReal) (wt : S128x128.Idx → EReal) (b2 : S1x128.Idx → EReal) (p : Fin 50000) (q : Fin 128) :
    linT128 x wt b2 (ix2 p q) = (∑ k : Fin 128, x (ix2 p k) * wt (ix2 k q)) + b2 (ix2 0 q) := rfl

theorem linT64_apply (x : SN128.Idx → EReal) (wt : S128x64.Idx → EReal) (b2 : S1x64.Idx → EReal) (p : Fin 50000) (q : Fin 64) :
    linT64 x wt b2 (ix2 p q) = (∑ k : Fin 128, x (ix2 p k) * wt (ix2 k q)) + b2 (ix2 0 q) := rfl

theorem bnT_apply (h : SN128.Idx → EReal) (mu2 var2 g2 be2 : S1x128.Idx → EReal) (p : Fin 50000) (q : Fin 128) :
    bnT h mu2 var2 g2 be2 (ix2 p q)
      = (h (ix2 p q) - mu2 (ix2 0 q)) * Ideal.rsqrt (var2 (ix2 0 q) + eps) * g2 (ix2 0 q) + be2 (ix2 0 q) := rfl

theorem combT128_apply (agg : SN128.Idx → EReal) (cnt2 : SN1.Idx → EReal) (xr : SN128.Idx → EReal) (p : Fin 50000) (q : Fin 128) :
    combT128 agg cnt2 xr (ix2 p q) = Ideal.div (agg (ix2 p q)) (cnt2 (ix2 p 0)) + xr (ix2 p q) := rfl

theorem combT64_apply (agg : SN64.Idx → EReal) (cnt2 : SN1.Idx → EReal) (xr : SN64.Idx → EReal) (p : Fin 50000) (q : Fin 64) :
    combT64 agg cnt2 xr (ix2 p q) = Ideal.div (agg (ix2 p q)) (cnt2 (ix2 p 0)) + xr (ix2 p q) := rfl

end Cert.Spec

end
-- ==== Proof.Assemble.lean ====
/-
  The two programs compute one function of the eighteen argument arrays.

  The blocked program ends with its second result the network `K` of its arguments, entry by entry over the extended
  reals, and its first result the row-wise log-softmax of that (`he_h`, `he_logp`: what the last of its segments
  leaves). The reference ends with its two results `outLogp` and `outH` of its own arguments (`href`). The two
  launches agree on the arguments, `outH` is `K` and `outLogp` is the log-softmax of `K` (`hH`, `hL`): so both runs
  end with the same two arrays, and neither changes an argument.
-/
import proofs.«139878_j75204877353213_2_alg».proof.Defs
import proofs.«139878_j75204877353213_2_alg».proof.Proof.Gen.Pre_finite_inputs
import proofs.«139878_j75204877353213_2_alg».proof.Proof.Gen.Kernel.Frame
import proofs.«139878_j75204877353213_2_alg».proof.Proof.KernelRun
import proofs.«139878_j75204877353213_2_alg».proof.Proof.RefOps
import proofs.«139878_j75204877353213_2_alg».proof.Proof.Spec

noncomputable section

namespace Cert.Proof.Assemble

open Idealize.ShloMosaic Idealize.SL.Sem
open Cert.KernelIdeal

/-- The network as a function of the eighteen arguments: the node features, the edge list, six weight matrices with
    their biases, and the two normalisations' scales and shifts. -/
abbrev Net : Type :=
  FVec Ideal S50000x128 .f32 → IVec S2x800000 32 → FVec Ideal S128x128 .f32 → FVec Ideal S128 .f32 → FVec Ideal S128x128 .f32 → FVec Ideal S128 .f32 → FVec Ideal S128x128 .f32 → FVec Ideal S128 .f32 → FVec Ideal S128x128 .f32 → FVec Ideal S128 .f32 → FVec Ideal S64x128 .f32 → FVec Ideal S64 .f32 → FVec Ideal S64x128 .f32 → FVec Ideal S64 .f32 → FVec Ideal S128 .f32 → FVec Ideal S128 .f32 → FVec Ideal S128 .f32 → FVec Ideal S128 .f32 → FVec Ideal S50000x64 .f32

/-- THE CLAIM, from its five parts: the blocked program's last boundary holds `K` and its log-softmax in the two
    result buffers; the reference's run ends with `outLogp` and `outH` of its arguments; and those are the log-softmax
    of `K` and `K`. -/
theorem algebraic_of (K : Net)
    (he_logp : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      Cert.KernelIdeal.Gen.W15 m ρ c (Proc.devRef .tc Cert.KernelIdeal.main_v71_1)
        = Cert.Spec.lsm (K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))))
    (he_h : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      Cert.KernelIdeal.Gen.W15 m ρ c (Proc.devRef .tc Cert.KernelIdeal.main_v71_0)
        = K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))
    (href : ∀ (m' : (ℓ : Loc Cert.ReferenceIdeal.nD Cert.ReferenceIdeal.τ Cert.ReferenceIdeal.sig) → Buf (Elt Ideal) ℓ)
        (ρ' : Dev Cert.ReferenceIdeal.nD → PrngReg),
      θ_run (Cert.ReferenceIdeal.defs (F := Ideal)) (onTc (τ := Cert.ReferenceIdeal.τ) (Cert.ReferenceIdeal.main (F := Ideal)))
        ⟨m', fun _ => 0, ρ'⟩ (fun r => ∀ c : Dev Cert.ReferenceIdeal.nD,
      r.2.mem ((c.tc : Thread Cert.ReferenceIdeal.nD Cert.ReferenceIdeal.τ).loc Cert.ReferenceIdeal.main_v129)
          = Cert.ReferenceIdeal.RefRun.outLogp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_v128)
          = Cert.ReferenceIdeal.RefRun.outH (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)))
    (hH : ∀ (a0 : FVec Ideal S50000x128 .f32) (a1 : IVec S2x800000 32) (a2 : FVec Ideal S128x128 .f32) (a3 : FVec Ideal S128 .f32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S64x128 .f32) (a11 : FVec Ideal S64 .f32) (a12 : FVec Ideal S64x128 .f32) (a13 : FVec Ideal S64 .f32) (a14 : FVec Ideal S128 .f32) (a15 : FVec Ideal S128 .f32) (a16 : FVec Ideal S128 .f32) (a17 : FVec Ideal S128 .f32),
      Cert.ReferenceIdeal.RefRun.outH a0 a1 a2 a3 a4 a5 a6 a7 a8 a9 a10 a11 a12 a13 a14 a15 a16 a17 = K a0 a1 a2 a3 a4 a5 a6 a7 a8 a9 a10 a11 a12 a13 a14 a15 a16 a17)
    (hL : ∀ (a0 : FVec Ideal S50000x128 .f32) (a1 : IVec S2x800000 32) (a2 : FVec Ideal S128x128 .f32) (a3 : FVec Ideal S128 .f32) (a4 : FVec Ideal S128x128 .f32) (a5 : FVec Ideal S128 .f32) (a6 : FVec Ideal S128x128 .f32) (a7 : FVec Ideal S128 .f32) (a8 : FVec Ideal S128x128 .f32) (a9 : FVec Ideal S128 .f32) (a10 : FVec Ideal S64x128 .f32) (a11 : FVec Ideal S64 .f32) (a12 : FVec Ideal S64x128 .f32) (a13 : FVec Ideal S64 .f32) (a14 : FVec Ideal S128 .f32) (a15 : FVec Ideal S128 .f32) (a16 : FVec Ideal S128 .f32) (a17 : FVec Ideal S128 .f32),
      Cert.ReferenceIdeal.RefRun.outLogp a0 a1 a2 a3 a4 a5 a6 a7 a8 a9 a10 a11 a12 a13 a14 a15 a16 a17 = Cert.Spec.lsm (K a0 a1 a2 a3 a4 a5 a6 a7 a8 a9 a10 a11 a12 a13 a14 a15 a16 a17)) :
    Cert.algebraic_KernelIdeal_ReferenceIdeal := by
  intro m ρ m' ρ' _ hagree
  refine ⟨fun c => Cert.Spec.lsm (K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))),
    fun c => K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run (Cert.KernelIdeal.defs (F := Ideal)) _ _).mono (fun r h c => ?_)
      (Cert.KernelIdeal.RunValues.run_values (F := Ideal) m ρ)
    obtain ⟨h1, h0, hargs⟩ := h c
    exact ⟨h1.trans (he_logp m ρ c), h0.trans (he_h m ρ c), hargs⟩
  · refine (θ_run (Cert.ReferenceIdeal.defs (F := Ideal)) _ _).mono (fun r h c => ?_) (href m' ρ')
    obtain ⟨h1, h0, hargs⟩ := h c
    obtain ⟨e0, e1, e2, e3, e4, e5, e6, e7, e8, e9, e10, e11, e12, e13, e14, e15, e16, e17⟩ := hagree c
    refine ⟨h1.trans ?_, h0.trans ?_, hargs⟩
    · rw [e0, e1, e2, e3, e4, e5, e6, e7, e8, e9, e10, e11, e12, e13, e14, e15, e16, e17]
      exact hL _ _ _ _ _ _ _ _ _ _ _ _ _ _ _ _ _ _
    · rw [e0, e1, e2, e3, e4, e5, e6, e7, e8, e9, e10, e11, e12, e13, e14, e15, e16, e17]
      exact hH _ _ _ _ _ _ _ _ _ _ _ _ _ _ _ _ _ _

/-- ALL FIVE CLAIMS from the two that are not read off a generated frame: the blocked program's two frames are the
    generated ones, and its idealization rewrote no operation. -/
theorem claim_of (hri : Cert.frame_ReferenceIdeal) (halg : Cert.algebraic_KernelIdeal_ReferenceIdeal) : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, hri, trivial, halg⟩

end Cert.Proof.Assemble

end
-- ==== Proof.ChainDefs.lean ====
/-
  The shared host-side functions of the network, as the idealized kernel's program spells them: the edge lists with
  self loops appended, the in-degree count, the gather of the source nodes' rows (an index below zero wrapped once,
  a row whose index is then still out of range filled with the not-a-number word), the scatter-add of messages onto
  destinations, and a feature's mean and (biased) variance over the 50000 nodes.
-/
import proofs.«139878_j75204877353213_2_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

/-- Source node of every edge, then every node once (the self loops). -/
def kS (ei : IVec S2x800000 32) : IVec S850000 32 :=
  concatenate S850000 0
    [⟨S800000, shapeCast S800000 (extractStridedSlice S1x800000 ![0, 0] ei slices_S2x800000_S1x800000_0_0)
        shapeCasts_S1x800000_S800000⟩,
     ⟨S50000, iotaInDim S50000 32 0⟩]
    concatenates_S800000_S50000_S850000_d0

/-- Destination node of every edge, then every node once. -/
def kD (ei : IVec S2x800000 32) : IVec S850000 32 :=
  concatenate S850000 0
    [⟨S800000, shapeCast S800000 (extractStridedSlice S1x800000 ![1, 0] ei slices_S2x800000_S1x800000_1_0)
        shapeCasts_S1x800000_S800000⟩,
     ⟨S50000, iotaInDim S50000 32 0⟩]
    concatenates_S800000_S50000_S850000_d0

/-- How many messages each node receives: ones scatter-added at the destinations. -/
def kCnt (d : IVec S850000 32) : FVec Ideal S50000 .f32 :=
  Host.scatterAdd scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-- The messages summed per destination node (128 features). -/
def kScat128 (d : IVec S850000 32) (u : FVec Ideal S850000x128 .f32) : FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 d) u

/-- The messages summed per destination node (64 features). -/
def kScat64 (d : IVec S850000 32) (u : FVec Ideal S850000x64 .f32) : FVec Ideal S50000x64 .f32 :=
  Host.scatterAdd scatter_S50000x64_S850000x1_S850000x64_1_0_0_1
    (broadcastInDim S50000x64 ![] bcast_S_S50000x64 (constant (F := Ideal) S_ .f32 0x00000000#32))
    (broadcastInDim S850000x1 ![0] bcast_S850000_S850000x1_0 d) u

/-- A row index with a negative one wrapped once: below zero, 50000 is added. -/
def kIdx (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- The wrapped indices as a one-column matrix, the form the gather reads its start indices in. -/
def kIdx2 (s : IVec S850000 32) : IVec S850000x1 32 :=
  broadcastInDim S850000x1 ![0] bcast_S850000_S850000x1_0 (kIdx s)

/-- Which wrapped indices are in range: at least 0 and at most 49999 (the conjunction along the unit column). -/
def kOk (s : IVec S850000 32) : IVec S850000 1 :=
  Host.reduce IntOp.andi
    (andi
      (cmpi .sge (kIdx2 s) (broadcastInDim S850000x1 ![] bcast_S_S850000x1 (constantI S_ 32 0#32)))
      (cmpi .sle (kIdx2 s) (broadcastInDim S850000x1 ![0, 1] bcast_S1x1_S850000x1_0_1
        (broadcastInDim S1x1 ![1] bcast_S1_S1x1_1 (constantI S1 32 49999#32)))))
    (constantI S_ 1 1#1) reducesTo_S850000x1_S850000_d1 h_S_

/-- The rows of x at the wrapped indices, a row whose index is out of range filled with the not-a-number word
    (128 features). -/
def kTake128 (x : FVec Ideal S50000x128 .f32) (s : IVec S850000 32) : FVec Ideal S850000x128 .f32 :=
  select (broadcastInDim S850000x128 ![0] bcast_S850000_S850000x128_0 (kOk s))
    (Host.gather gather_S50000x128_S850000x1_S850000x128_1_0_n_n_0_1_1128 x (kIdx2 s))
    (broadcastInDim S850000x128 ![] bcast_S_S850000x128 (constant (F := Ideal) S_ .f32 0x7FC00000#32))

/-- The rows of x at the wrapped indices, a row whose index is out of range filled with the not-a-number word
    (64 features). -/
def kTake64 (x : FVec Ideal S50000x64 .f32) (s : IVec S850000 32) : FVec Ideal S850000x64 .f32 :=
  select (broadcastInDim S850000x64 ![0] bcast_S850000_S850000x64_0 (kOk s))
    (Host.gather gather_S50000x64_S850000x1_S850000x64_1_0_n_n_0_1_164 x (kIdx2 s))
    (broadcastInDim S850000x64 ![] bcast_S_S850000x64 (constant (F := Ideal) S_ .f32 0x7FC00000#32))

/-- A feature's mean over the nodes. -/
def kMean (h : FVec Ideal S50000x128 .f32) : FVec Ideal S128 .f32 :=
  Host.divf (Host.reduceAdd h (constant (F := Ideal) S_ .f32 0x00000000#32) reducesTo_S50000x128_S128_d0 h_S_)
    (broadcastInDim S128 ![] bcast_S_S128 (constant (F := Ideal) S_ .f32 0x47435000#32))

/-- A feature's mean squared deviation from mu over the nodes. -/
def kVar (h : FVec Ideal S50000x128 .f32) (mu : FVec Ideal S128 .f32) : FVec Ideal S128 .f32 :=
  Host.divf
    (Host.reduceAdd
      (mulf (subf h (broadcastInDim S50000x128 ![0, 1] bcast_S1x128_S50000x128_0_1 (broadcastInDim S1x128 ![1] bcast_S128_S1x128_1 mu)))
            (subf h (broadcastInDim S50000x128 ![0, 1] bcast_S1x128_S50000x128_0_1 (broadcastInDim S1x128 ![1] bcast_S128_S1x128_1 mu))))
      (constant (F := Ideal) S_ .f32 0x00000000#32) reducesTo_S50000x128_S128_d0 h_S_)
    (broadcastInDim S128 ![] bcast_S_S128 (constant (F := Ideal) S_ .f32 0x47435000#32))

end Cert.KernelIdeal.Chain

end
-- ==== Proof.ChainNet.lean ====
/-
  The network as the idealized kernel computes it, over the specification's functions: three mean-aggregating graph
  convolutions, the first two followed by a batch normalisation over the nodes.
-/
import proofs.«139878_j75204877353213_2_alg».proof.Proof.ChainDefs
import proofs.«139878_j75204877353213_2_alg».proof.Proof.Spec

noncomputable section

namespace Cert.KernelIdeal.Chain

open Cert.KernelIdeal
open Idealize.ShloMosaic

/-- One graph convolution with 128 output features: the mean over a node's in-neighbours (itself included) of the
    left projection, plus the node's own right projection. -/
def kLayer128 (x : FVec Ideal S50000x128 .f32) (ei : IVec S2x800000 32)
    (Wl : FVec Ideal S128x128 .f32) (bl : FVec Ideal S128 .f32) (Wr : FVec Ideal S128x128 .f32) (br : FVec Ideal S128 .f32) :
    FVec Ideal S50000x128 .f32 :=
  Cert.Spec.comb128 (kScat128 (kD ei) (kTake128 (Cert.Spec.lin128 x Wl bl) (kS ei))) (kCnt (kD ei)) (Cert.Spec.lin128 x Wr br)

/-- The same with 64 output features. -/
def kLayer64 (x : FVec Ideal S50000x128 .f32) (ei : IVec S2x800000 32)
    (Wl : FVec Ideal S64x128 .f32) (bl : FVec Ideal S64 .f32) (Wr : FVec Ideal S64x128 .f32) (br : FVec Ideal S64 .f32) :
    FVec Ideal S50000x64 .f32 :=
  Cert.Spec.comb64 (kScat64 (kD ei) (kTake64 (Cert.Spec.lin64 x Wl bl) (kS ei))) (kCnt (kD ei)) (Cert.Spec.lin64 x Wr br)

/-- Batch normalisation with the statistics taken from the array itself. -/
def kNorm (h : FVec Ideal S50000x128 .f32) (g be : FVec Ideal S128 .f32) : FVec Ideal S50000x128 .f32 :=
  Cert.Spec.bn h (kMean h) (kVar h (kMean h)) g be

end Cert.KernelIdeal.Chain

end
-- ==== Proof.ChainKeep.lean ====
/-
  Buffers that no later segment writes keep their contents: the edge lists, the in-degree count, the argument arrays
  and a region's results, read at a later segment boundary of the idealized kernel's run, are what they were when
  first written. Each step back crosses one segment: a host stretch none of whose operations writes the buffer, or a
  region none of whose arrays it is.
-/
import proofs.«139878_j75204877353213_2_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

/-- A host stretch leaves a buffer that is none of its operations' results as it was: the stretch's operations are
    listed, each writes its one result, and the buffer differs from every one of them. -/
macro "host_keep " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The edge lists and the in-degree count

Written by the first host stretch, read by every layer's gather, scatter-add and division: no later stretch and no
region writes them, so at each boundary that reads them they are what they were at the first region's entry. -/

/-- The source list after the first region. -/
theorem W2_v5 : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

/-- The destination list where layer 0's scatter-add reads it. -/
theorem W3_v6 : W3 m ρ c (Proc.devRef .tc main_v6) = W1 m ρ c (Proc.devRef .tc main_v6) :=
  calc W3 m ρ c (Proc.devRef .tc main_v6)
    _ = W2 m ρ c (Proc.devRef .tc main_v6) := by host_keep hostOps1
    _ = W1 m ρ c (Proc.devRef .tc main_v6) := W2_of_ne m ρ c main_v6 (by decide)

/-- The count where layer 0's division reads it. -/
theorem W3_v10 : W3 m ρ c (Proc.devRef .tc main_v10) = W1 m ρ c (Proc.devRef .tc main_v10) :=
  calc W3 m ρ c (Proc.devRef .tc main_v10)
    _ = W2 m ρ c (Proc.devRef .tc main_v10) := by host_keep hostOps1
    _ = W1 m ρ c (Proc.devRef .tc main_v10) := W2_of_ne m ρ c main_v10 (by decide)

/-- The source list after the third region. -/
theorem W7_v5 : W7 m ρ c (Proc.devRef .tc main_v5) = W1 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := by host_keep hostOps2
    _ = W4 m ρ c (Proc.devRef .tc main_v5) := W5_of_ne m ρ c main_v5 (by decide)
    _ = W3 m ρ c (Proc.devRef .tc main_v5) := by host_keep hostOps1_1
    _ = W2 m ρ c (Proc.devRef .tc main_v5) := by host_keep hostOps1
    _ = W1 m ρ c (Proc.devRef .tc main_v5) := W2_v5 m ρ c

/-- The destination list where layer 1's scatter-add reads it. -/
theorem W8_v6 : W8 m ρ c (Proc.devRef .tc main_v6) = W1 m ρ c (Proc.devRef .tc main_v6) :=
  calc W8 m ρ c (Proc.devRef .tc main_v6)
    _ = W7 m ρ c (Proc.devRef .tc main_v6) := by host_keep hostOps3
    _ = W6 m ρ c (Proc.devRef .tc main_v6) := W7_of_ne m ρ c main_v6 (by decide)
    _ = W5 m ρ c (Proc.devRef .tc main_v6) := by host_keep hostOps2
    _ = W4 m ρ c (Proc.devRef .tc main_v6) := W5_of_ne m ρ c main_v6 (by decide)
    _ = W3 m ρ c (Proc.devRef .tc main_v6) := by host_keep hostOps1_1
    _ = W1 m ρ c (Proc.devRef .tc main_v6) := W3_v6 m ρ c

/-- The count where layer 1's division reads it. -/
theorem W8_v10 : W8 m ρ c (Proc.devRef .tc main_v10) = W1 m ρ c (Proc.devRef .tc main_v10) :=
  calc W8 m ρ c (Proc.devRef .tc main_v10)
    _ = W7 m ρ c (Proc.devRef .tc main_v10) := by host_keep hostOps3
    _ = W6 m ρ c (Proc.devRef .tc main_v10) := W7_of_ne m ρ c main_v10 (by decide)
    _ = W5 m ρ c (Proc.devRef .tc main_v10) := by host_keep hostOps2
    _ = W4 m ρ c (Proc.devRef .tc main_v10) := W5_of_ne m ρ c main_v10 (by decide)
    _ = W3 m ρ c (Proc.devRef .tc main_v10) := by host_keep hostOps1_1
    _ = W1 m ρ c (Proc.devRef .tc main_v10) := W3_v10 m ρ c

/-- The source list after the fifth region. -/
theorem W12_v5 : W12 m ρ c (Proc.devRef .tc main_v5) = W1 m ρ c (Proc.devRef .tc main_v5) :=
  calc W12 m ρ c (Proc.devRef .tc main_v5)
    _ = W11 m ρ c (Proc.devRef .tc main_v5) := W12_of_ne m ρ c main_v5 (by decide)
    _ = W10 m ρ c (Proc.devRef .tc main_v5) := by host_keep hostOps4
    _ = W9 m ρ c (Proc.devRef .tc main_v5) := W10_of_ne m ρ c main_v5 (by decide)
    _ = W8 m ρ c (Proc.devRef .tc main_v5) := by host_keep hostOps3_1
    _ = W7 m ρ c (Proc.devRef .tc main_v5) := by host_keep hostOps3
    _ = W1 m ρ c (Proc.devRef .tc main_v5) := W7_v5 m ρ c

/-- The destination list where layer 2's scatter-add reads it. -/
theorem W13_v6 : W13 m ρ c (Proc.devRef .tc main_v6) = W1 m ρ c (Proc.devRef .tc main_v6) :=
  calc W13 m ρ c (Proc.devRef .tc main_v6)
    _ = W12 m ρ c (Proc.devRef .tc main_v6) := by host_keep hostOps5
    _ = W11 m ρ c (Proc.devRef .tc main_v6) := W12_of_ne m ρ c main_v6 (by decide)
    _ = W10 m ρ c (Proc.devRef .tc main_v6) := by host_keep hostOps4
    _ = W9 m ρ c (Proc.devRef .tc main_v6) := W10_of_ne m ρ c main_v6 (by decide)
    _ = W8 m ρ c (Proc.devRef .tc main_v6) := by host_keep hostOps3_1
    _ = W1 m ρ c (Proc.devRef .tc main_v6) := W8_v6 m ρ c

/-- The count where layer 2's division reads it. -/
theorem W13_v10 : W13 m ρ c (Proc.devRef .tc main_v10) = W1 m ρ c (Proc.devRef .tc main_v10) :=
  calc W13 m ρ c (Proc.devRef .tc main_v10)
    _ = W12 m ρ c (Proc.devRef .tc main_v10) := by host_keep hostOps5
    _ = W11 m ρ c (Proc.devRef .tc main_v10) := W12_of_ne m ρ c main_v10 (by decide)
    _ = W10 m ρ c (Proc.devRef .tc main_v10) := by host_keep hostOps4
    _ = W9 m ρ c (Proc.devRef .tc main_v10) := W10_of_ne m ρ c main_v10 (by decide)
    _ = W8 m ρ c (Proc.devRef .tc main_v10) := by host_keep hostOps3_1
    _ = W1 m ρ c (Proc.devRef .tc main_v10) := W8_v10 m ρ c

/-! ## A region's result carried over the host stretches behind it -/

/-- Layer 0's right projection where the combining region reads it. -/
theorem W4_v15_1 : W4 m ρ c (Proc.devRef .tc main_v15_1) = W2 m ρ c (Proc.devRef .tc main_v15_1) :=
  calc W4 m ρ c (Proc.devRef .tc main_v15_1)
    _ = W3 m ρ c (Proc.devRef .tc main_v15_1) := by host_keep hostOps1_1
    _ = W2 m ρ c (Proc.devRef .tc main_v15_1) := by host_keep hostOps1

/-- Layer 1's right projection where the combining region reads it. -/
theorem W9_v40_1 : W9 m ρ c (Proc.devRef .tc main_v40_1) = W7 m ρ c (Proc.devRef .tc main_v40_1) :=
  calc W9 m ρ c (Proc.devRef .tc main_v40_1)
    _ = W8 m ρ c (Proc.devRef .tc main_v40_1) := by host_keep hostOps3_1
    _ = W7 m ρ c (Proc.devRef .tc main_v40_1) := by host_keep hostOps3

/-- Layer 2's right projection where the combining region reads it. -/
theorem W14_v65_1 : W14 m ρ c (Proc.devRef .tc main_v65_1) = W12 m ρ c (Proc.devRef .tc main_v65_1) :=
  calc W14 m ρ c (Proc.devRef .tc main_v65_1)
    _ = W13 m ρ c (Proc.devRef .tc main_v65_1) := by host_keep hostOps5_1
    _ = W12 m ρ c (Proc.devRef .tc main_v65_1) := by host_keep hostOps5

/-- Layer 0's output where the next dense region reads it. -/
theorem W6_v21 : W6 m ρ c (Proc.devRef .tc main_v21) = W5 m ρ c (Proc.devRef .tc main_v21) :=
  calc W6 m ρ c (Proc.devRef .tc main_v21)
    _ = W5 m ρ c (Proc.devRef .tc main_v21) := by host_keep hostOps2

/-- Layer 1's output where the next dense region reads it. -/
theorem W11_v46 : W11 m ρ c (Proc.devRef .tc main_v46) = W10 m ρ c (Proc.devRef .tc main_v46) :=
  calc W11 m ρ c (Proc.devRef .tc main_v46)
    _ = W10 m ρ c (Proc.devRef .tc main_v46) := by host_keep hostOps4

end Cert.KernelIdeal.Chain

end
-- ==== Proof.ChainKeepB.lean ====
/-
  The argument arrays at the boundaries where the later dense regions read them are what the program was launched
  with: each step back crosses one segment, a host stretch none of whose operations writes the buffer or a region
  none of whose arrays it is.
-/
import proofs.«139878_j75204877353213_2_alg».proof.Proof.Gen.KernelIdeal.Frame
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

/-- A host stretch leaves a buffer that is none of its operations' results as it was: the stretch's operations are
    listed, each writes its one result, and the buffer differs from every one of them. -/
macro "host_keepB " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The arguments, back to the launch memory

No host operation and no region before the boundary writes an argument's buffer. -/

/-- The features at the first region's entry. -/
theorem W1_arg0 : W1 m ρ c (Proc.devRef .tc main_arg0) = m ((c : Thread nD τ).loc main_arg0) :=
  calc W1 m ρ c (Proc.devRef .tc main_arg0)
    _ = W0 m ρ c (Proc.devRef .tc main_arg0) := by host_keepB hostOps0
    _ = m ((c : Thread nD τ).loc main_arg0) := rfl

/-- Argument 6 after the second region. -/
theorem W5_arg6 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by host_keepB hostOps1_1
    _ = W2 m ρ c (Proc.devRef .tc main_arg6) := by host_keepB hostOps1
    _ = W1 m ρ c (Proc.devRef .tc main_arg6) := W2_of_ne m ρ c main_arg6 (by decide)
    _ = W0 m ρ c (Proc.devRef .tc main_arg6) := by host_keepB hostOps0
    _ = m ((c : Thread nD τ).loc main_arg6) := rfl

/-- Argument 7 after the second region. -/
theorem W5_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by host_keepB hostOps1_1
    _ = W2 m ρ c (Proc.devRef .tc main_arg7) := by host_keepB hostOps1
    _ = W1 m ρ c (Proc.devRef .tc main_arg7) := W2_of_ne m ρ c main_arg7 (by decide)
    _ = W0 m ρ c (Proc.devRef .tc main_arg7) := by host_keepB hostOps0
    _ = m ((c : Thread nD τ).loc main_arg7) := rfl

/-- Argument 8 after the second region. -/
theorem W5_arg8 : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by host_keepB hostOps1_1
    _ = W2 m ρ c (Proc.devRef .tc main_arg8) := by host_keepB hostOps1
    _ = W1 m ρ c (Proc.devRef .tc main_arg8) := W2_of_ne m ρ c main_arg8 (by decide)
    _ = W0 m ρ c (Proc.devRef .tc main_arg8) := by host_keepB hostOps0
    _ = m ((c : Thread nD τ).loc main_arg8) := rfl

/-- Argument 9 after the second region. -/
theorem W5_arg9 : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := by host_keepB hostOps1_1
    _ = W2 m ρ c (Proc.devRef .tc main_arg9) := by host_keepB hostOps1
    _ = W1 m ρ c (Proc.devRef .tc main_arg9) := W2_of_ne m ρ c main_arg9 (by decide)
    _ = W0 m ρ c (Proc.devRef .tc main_arg9) := by host_keepB hostOps0
    _ = m ((c : Thread nD τ).loc main_arg9) := rfl

/-- Argument 14 after the second region. -/
theorem W5_arg14 : W5 m ρ c (Proc.devRef .tc main_arg14) = m ((c : Thread nD τ).loc main_arg14) :=
  calc W5 m ρ c (Proc.devRef .tc main_arg14)
    _ = W4 m ρ c (Proc.devRef .tc main_arg14) := W5_of_ne m ρ c main_arg14 (by decide)
    _ = W3 m ρ c (Proc.devRef .tc main_arg14) := by host_keepB hostOps1_1
    _ = W2 m ρ c (Proc.devRef .tc main_arg14) := by host_keepB hostOps1
    _ = W1 m ρ c (Proc.devRef .tc main_arg14) := W2_of_ne m ρ c main_arg14 (by decide)
    _ = W0 m ρ c (Proc.devRef .tc main_arg14) := by host_keepB hostOps0
    _ = m ((c : Thread nD τ).loc main_arg14) := rfl

/-- Argument 15 after the second region. -/
theorem W5_arg15 : W5 m ρ c (Proc.devRef .tc main_arg15) = m ((c : Thread nD τ).loc main_arg15) :=
  calc W5 m ρ c (Proc.devRef .tc main_arg15)
    _ = W4 m ρ c (Proc.devRef .tc main_arg15) := W5_of_ne m ρ c main_arg15 (by decide)
    _ = W3 m ρ c (Proc.devRef .tc main_arg15) := by host_keepB hostOps1_1
    _ = W2 m ρ c (Proc.devRef .tc main_arg15) := by host_keepB hostOps1
    _ = W1 m ρ c (Proc.devRef .tc main_arg15) := W2_of_ne m ρ c main_arg15 (by decide)
    _ = W0 m ρ c (Proc.devRef .tc main_arg15) := by host_keepB hostOps0
    _ = m ((c : Thread nD τ).loc main_arg15) := rfl

/-- Argument 10 after the fourth region. -/
theorem W10_arg10 : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by host_keepB hostOps3_1
    _ = W7 m ρ c (Proc.devRef .tc main_arg10) := by host_keepB hostOps3
    _ = W6 m ρ c (Proc.devRef .tc main_arg10) := W7_of_ne m ρ c main_arg10 (by decide)
    _ = W5 m ρ c (Proc.devRef .tc main_arg10) := by host_keepB hostOps2
    _ = W4 m ρ c (Proc.devRef .tc main_arg10) := W5_of_ne m ρ c main_arg10 (by decide)
    _ = W3 m ρ c (Proc.devRef .tc main_arg10) := by host_keepB hostOps1_1
    _ = W2 m ρ c (Proc.devRef .tc main_arg10) := by host_keepB hostOps1
    _ = W1 m ρ c (Proc.devRef .tc main_arg10) := W2_of_ne m ρ c main_arg10 (by decide)
    _ = W0 m ρ c (Proc.devRef .tc main_arg10) := by host_keepB hostOps0
    _ = m ((c : Thread nD τ).loc main_arg10) := rfl

/-- Argument 11 after the fourth region. -/
theorem W10_arg11 : W10 m ρ c (Proc.devRef .tc main_arg11) = m ((c : Thread nD τ).loc main_arg11) :=
  calc W10 m ρ c (Proc.devRef .tc main_arg11)
    _ = W9 m ρ c (Proc.devRef .tc main_arg11) := W10_of_ne m ρ c main_arg11 (by decide)
    _ = W8 m ρ c (Proc.devRef .tc main_arg11) := by host_keepB hostOps3_1
    _ = W7 m ρ c (Proc.devRef .tc main_arg11) := by host_keepB hostOps3
    _ = W6 m ρ c (Proc.devRef .tc main_arg11) := W7_of_ne m ρ c main_arg11 (by decide)
    _ = W5 m ρ c (Proc.devRef .tc main_arg11) := by host_keepB hostOps2
    _ = W4 m ρ c (Proc.devRef .tc main_arg11) := W5_of_ne m ρ c main_arg11 (by decide)
    _ = W3 m ρ c (Proc.devRef .tc main_arg11) := by host_keepB hostOps1_1
    _ = W2 m ρ c (Proc.devRef .tc main_arg11) := by host_keepB hostOps1
    _ = W1 m ρ c (Proc.devRef .tc main_arg11) := W2_of_ne m ρ c main_arg11 (by decide)
    _ = W0 m ρ c (Proc.devRef .tc main_arg11) := by host_keepB hostOps0
    _ = m ((c : Thread nD τ).loc main_arg11) := rfl

/-- Argument 12 after the fourth region. -/
theorem W10_arg12 : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := by host_keepB hostOps3_1
    _ = W7 m ρ c (Proc.devRef .tc main_arg12) := by host_keepB hostOps3
    _ = W6 m ρ c (Proc.devRef .tc main_arg12) := W7_of_ne m ρ c main_arg12 (by decide)
    _ = W5 m ρ c (Proc.devRef .tc main_arg12) := by host_keepB hostOps2
    _ = W4 m ρ c (Proc.devRef .tc main_arg12) := W5_of_ne m ρ c main_arg12 (by decide)
    _ = W3 m ρ c (Proc.devRef .tc main_arg12) := by host_keepB hostOps1_1
    _ = W2 m ρ c (Proc.devRef .tc main_arg12) := by host_keepB hostOps1
    _ = W1 m ρ c (Proc.devRef .tc main_arg12) := W2_of_ne m ρ c main_arg12 (by decide)
    _ = W0 m ρ c (Proc.devRef .tc main_arg12) := by host_keepB hostOps0
    _ = m ((c : Thread nD τ).loc main_arg12) := rfl

/-- Argument 13 after the fourth region. -/
theorem W10_arg13 : W10 m ρ c (Proc.devRef .tc main_arg13) = m ((c : Thread nD τ).loc main_arg13) :=
  calc W10 m ρ c (Proc.devRef .tc main_arg13)
    _ = W9 m ρ c (Proc.devRef .tc main_arg13) := W10_of_ne m ρ c main_arg13 (by decide)
    _ = W8 m ρ c (Proc.devRef .tc main_arg13) := by host_keepB hostOps3_1
    _ = W7 m ρ c (Proc.devRef .tc main_arg13) := by host_keepB hostOps3
    _ = W6 m ρ c (Proc.devRef .tc main_arg13) := W7_of_ne m ρ c main_arg13 (by decide)
    _ = W5 m ρ c (Proc.devRef .tc main_arg13) := by host_keepB hostOps2
    _ = W4 m ρ c (Proc.devRef .tc main_arg13) := W5_of_ne m ρ c main_arg13 (by decide)
    _ = W3 m ρ c (Proc.devRef .tc main_arg13) := by host_keepB hostOps1_1
    _ = W2 m ρ c (Proc.devRef .tc main_arg13) := by host_keepB hostOps1
    _ = W1 m ρ c (Proc.devRef .tc main_arg13) := W2_of_ne m ρ c main_arg13 (by decide)
    _ = W0 m ρ c (Proc.devRef .tc main_arg13) := by host_keepB hostOps0
    _ = m ((c : Thread nD τ).loc main_arg13) := rfl

/-- Argument 16 after the fourth region. -/
theorem W10_arg16 : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := by host_keepB hostOps3_1
    _ = W7 m ρ c (Proc.devRef .tc main_arg16) := by host_keepB hostOps3
    _ = W6 m ρ c (Proc.devRef .tc main_arg16) := W7_of_ne m ρ c main_arg16 (by decide)
    _ = W5 m ρ c (Proc.devRef .tc main_arg16) := by host_keepB hostOps2
    _ = W4 m ρ c (Proc.devRef .tc main_arg16) := W5_of_ne m ρ c main_arg16 (by decide)
    _ = W3 m ρ c (Proc.devRef .tc main_arg16) := by host_keepB hostOps1_1
    _ = W2 m ρ c (Proc.devRef .tc main_arg16) := by host_keepB hostOps1
    _ = W1 m ρ c (Proc.devRef .tc main_arg16) := W2_of_ne m ρ c main_arg16 (by decide)
    _ = W0 m ρ c (Proc.devRef .tc main_arg16) := by host_keepB hostOps0
    _ = m ((c : Thread nD τ).loc main_arg16) := rfl

/-- Argument 17 after the fourth region. -/
theorem W10_arg17 : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := by host_keepB hostOps3_1
    _ = W7 m ρ c (Proc.devRef .tc main_arg17) := by host_keepB hostOps3
    _ = W6 m ρ c (Proc.devRef .tc main_arg17) := W7_of_ne m ρ c main_arg17 (by decide)
    _ = W5 m ρ c (Proc.devRef .tc main_arg17) := by host_keepB hostOps2
    _ = W4 m ρ c (Proc.devRef .tc main_arg17) := W5_of_ne m ρ c main_arg17 (by decide)
    _ = W3 m ρ c (Proc.devRef .tc main_arg17) := by host_keepB hostOps1_1
    _ = W2 m ρ c (Proc.devRef .tc main_arg17) := by host_keepB hostOps1
    _ = W1 m ρ c (Proc.devRef .tc main_arg17) := W2_of_ne m ρ c main_arg17 (by decide)
    _ = W0 m ρ c (Proc.devRef .tc main_arg17) := by host_keepB hostOps0
    _ = m ((c : Thread nD τ).loc main_arg17) := rfl

end Cert.KernelIdeal.Chain

end
-- ==== Proof.HostReads.lean ====
/-
  What the idealized kernel's host stretches leave in their result buffers, as functions of the buffer contents the
  stretch starts from: each stretch is a straight line of host operations, so the contents of a result buffer after
  it is the composition of the operations that feed it, applied to the contents of the stretch's inputs. The
  compositions are the functions of Proof/ChainDefs.lean, a transposition, or a change of shape.
-/
import proofs.«139878_j75204877353213_2_alg».proof.Proof.ChainDefs
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem

variable (W : Valuation τ sig (Elt Ideal))

/-! ## The first stretch: the edge lists, the count, the first layer's operands -/

theorem r0_v5 : StableHlo.after (hostOps0 (F := Ideal)) W (Proc.devRef .tc main_v5)
    = kS (W (Proc.devRef .tc main_arg1)) := by
  after_results <;> rfl

theorem r0_v6 : StableHlo.after (hostOps0 (F := Ideal)) W (Proc.devRef .tc main_v6)
    = kD (W (Proc.devRef .tc main_arg1)) := by
  after_results <;> rfl

theorem r0_v10 : StableHlo.after (hostOps0 (F := Ideal)) W (Proc.devRef .tc main_v10)
    = kCnt (kD (W (Proc.devRef .tc main_arg1))) := by
  after_results <;> rfl

theorem r0_v11 : StableHlo.after (hostOps0 (F := Ideal)) W (Proc.devRef .tc main_v11)
    = transpose S128x128 [1, 0] (W (Proc.devRef .tc main_arg2)) transposes_S128x128_S128x128_1_0 := by
  after_results <;> rfl

theorem r0_v12 : StableHlo.after (hostOps0 (F := Ideal)) W (Proc.devRef .tc main_v12)
    = transpose S128x128 [1, 0] (W (Proc.devRef .tc main_arg4)) transposes_S128x128_S128x128_1_0 := by
  after_results <;> rfl

theorem r0_v13 : StableHlo.after (hostOps0 (F := Ideal)) W (Proc.devRef .tc main_v13)
    = shapeCast S1x128 (W (Proc.devRef .tc main_arg3)) shapeCasts_S128_S1x128 := by
  after_results <;> rfl

theorem r0_v14 : StableHlo.after (hostOps0 (F := Ideal)) W (Proc.devRef .tc main_v14)
    = shapeCast S1x128 (W (Proc.devRef .tc main_arg5)) shapeCasts_S128_S1x128 := by
  after_results <;> rfl

/-! ## After the first gather: the messages summed, the count as a column -/

theorem r11_v19 : StableHlo.after (hostOps1_1 (F := Ideal)) W (Proc.devRef .tc main_v19)
    = kScat128 (W (Proc.devRef .tc main_v6)) (W (Proc.devRef .tc main_v16)) := by
  after_results <;> rfl

theorem r11_v20 : StableHlo.after (hostOps1_1 (F := Ideal)) W (Proc.devRef .tc main_v20)
    = shapeCast S50000x1 (W (Proc.devRef .tc main_v10)) shapeCasts_S50000_S50000x1 := by
  after_results <;> rfl

/-! ## Between the first and second layers: the statistics and the second layer's operands -/

theorem r2_v36 : StableHlo.after (hostOps2 (F := Ideal)) W (Proc.devRef .tc main_v36)
    = shapeCast S1x128 (kMean (W (Proc.devRef .tc main_v21))) shapeCasts_S128_S1x128 := by
  after_results <;> rfl

theorem r2_v37 : StableHlo.after (hostOps2 (F := Ideal)) W (Proc.devRef .tc main_v37)
    = shapeCast S1x128 (kVar (W (Proc.devRef .tc main_v21)) (kMean (W (Proc.devRef .tc main_v21)))) shapeCasts_S128_S1x128 := by
  after_results <;> rfl

theorem r2_v32 : StableHlo.after (hostOps2 (F := Ideal)) W (Proc.devRef .tc main_v32)
    = transpose S128x128 [1, 0] (W (Proc.devRef .tc main_arg6)) transposes_S128x128_S128x128_1_0 := by
  after_results <;> rfl

theorem r2_v33 : StableHlo.after (hostOps2 (F := Ideal)) W (Proc.devRef .tc main_v33)
    = transpose S128x128 [1, 0] (W (Proc.devRef .tc main_arg8)) transposes_S128x128_S128x128_1_0 := by
  after_results <;> rfl

theorem r2_v34 : StableHlo.after (hostOps2 (F := Ideal)) W (Proc.devRef .tc main_v34)
    = shapeCast S1x128 (W (Proc.devRef .tc main_arg7)) shapeCasts_S128_S1x128 := by
  after_results <;> rfl

theorem r2_v35 : StableHlo.after (hostOps2 (F := Ideal)) W (Proc.devRef .tc main_v35)
    = shapeCast S1x128 (W (Proc.devRef .tc main_arg9)) shapeCasts_S128_S1x128 := by
  after_results <;> rfl

theorem r2_v38 : StableHlo.after (hostOps2 (F := Ideal)) W (Proc.devRef .tc main_v38)
    = shapeCast S1x128 (W (Proc.devRef .tc main_arg14)) shapeCasts_S128_S1x128 := by
  after_results <;> rfl

theorem r2_v39 : StableHlo.after (hostOps2 (F := Ideal)) W (Proc.devRef .tc main_v39)
    = shapeCast S1x128 (W (Proc.devRef .tc main_arg15)) shapeCasts_S128_S1x128 := by
  after_results <;> rfl

/-! ## After the second gather -/

theorem r31_v44 : StableHlo.after (hostOps3_1 (F := Ideal)) W (Proc.devRef .tc main_v44)
    = kScat128 (W (Proc.devRef .tc main_v6)) (W (Proc.devRef .tc main_v41)) := by
  after_results <;> rfl

theorem r31_v45 : StableHlo.after (hostOps3_1 (F := Ideal)) W (Proc.devRef .tc main_v45)
    = shapeCast S50000x1 (W (Proc.devRef .tc main_v10)) shapeCasts_S50000_S50000x1 := by
  after_results <;> rfl

/-! ## Between the second and third layers -/

theorem r4_v61 : StableHlo.after (hostOps4 (F := Ideal)) W (Proc.devRef .tc main_v61)
    = shapeCast S1x128 (kMean (W (Proc.devRef .tc main_v46))) shapeCasts_S128_S1x128 := by
  after_results <;> rfl

theorem r4_v62 : StableHlo.after (hostOps4 (F := Ideal)) W (Proc.devRef .tc main_v62)
    = shapeCast S1x128 (kVar (W (Proc.devRef .tc main_v46)) (kMean (W (Proc.devRef .tc main_v46)))) shapeCasts_S128_S1x128 := by
  after_results <;> rfl

theorem r4_v57 : StableHlo.after (hostOps4 (F := Ideal)) W (Proc.devRef .tc main_v57)
    = transpose S128x64 [1, 0] (W (Proc.devRef .tc main_arg10)) transposes_S64x128_S128x64_1_0 := by
  after_results <;> rfl

theorem r4_v58 : StableHlo.after (hostOps4 (F := Ideal)) W (Proc.devRef .tc main_v58)
    = transpose S128x64 [1, 0] (W (Proc.devRef .tc main_arg12)) transposes_S64x128_S128x64_1_0 := by
  after_results <;> rfl

theorem r4_v59 : StableHlo.after (hostOps4 (F := Ideal)) W (Proc.devRef .tc main_v59)
    = shapeCast S1x64 (W (Proc.devRef .tc main_arg11)) shapeCasts_S64_S1x64 := by
  after_results <;> rfl

theorem r4_v60 : StableHlo.after (hostOps4 (F := Ideal)) W (Proc.devRef .tc main_v60)
    = shapeCast S1x64 (W (Proc.devRef .tc main_arg13)) shapeCasts_S64_S1x64 := by
  after_results <;> rfl

theorem r4_v63 : StableHlo.after (hostOps4 (F := Ideal)) W (Proc.devRef .tc main_v63)
    = shapeCast S1x128 (W (Proc.devRef .tc main_arg16)) shapeCasts_S128_S1x128 := by
  after_results <;> rfl

theorem r4_v64 : StableHlo.after (hostOps4 (F := Ideal)) W (Proc.devRef .tc main_v64)
    = shapeCast S1x128 (W (Proc.devRef .tc main_arg17)) shapeCasts_S128_S1x128 := by
  after_results <;> rfl

/-! ## After the third gather -/

theorem r51_v69 : StableHlo.after (hostOps5_1 (F := Ideal)) W (Proc.devRef .tc main_v69)
    = kScat64 (W (Proc.devRef .tc main_v6)) (W (Proc.devRef .tc main_v66)) := by
  after_results <;> rfl

theorem r51_v70 : StableHlo.after (hostOps5_1 (F := Ideal)) W (Proc.devRef .tc main_v70)
    = shapeCast S50000x1 (W (Proc.devRef .tc main_v10)) shapeCasts_S50000_S50000x1 := by
  after_results <;> rfl

end Cert.KernelIdeal.Chain

end
-- ==== Proof.HostReadsT.lean ====
/-
  What the three gather stretches of the idealized kernel's program leave in their result buffer: the rows of the
  stretch's operand at the (wrapped, range-checked) source indices, as Proof/ChainDefs.lean spells them. Each stretch
  is a straight line of 23 host operations over typed references; the contents of its result buffer is the
  composition of those operations, the carrying of contents to a reference's buffer and back cancelling at every
  intermediate value.
-/
import proofs.«139878_j75204877353213_2_alg».proof.Proof.ChainDefs
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem

/-- Contents carried to a typed reference's buffer and back are the contents. -/
theorem ofBuf_toBuf {sig : RefSig} {T : BufTy} {Val : EltTy → Type} (x : StableHlo.TRef sig T) (v : T.Contents Val) :
    x.ofBuf (x.toBuf v) = v := by
  unfold StableHlo.TRef.ofBuf StableHlo.TRef.toBuf
  rw [cast_cast, cast_eq]

/-- At a literal reference taken at its own type, reading the buffer's contents at the value's type changes nothing. -/
theorem ofBuf_of {sig : RefSig} {Val : EltTy → Type} (r : Ref sig .tc) (h2 : r.space ≠ .host) (h3 : r.isScoped = false)
    (v : r.ty.Contents Val) : (StableHlo.TRef.of (T := r.ty) r rfl h2 h3).ofBuf v = v := rfl

/-- At a literal reference taken at its own type, contents at the value's type are the buffer's contents. -/
theorem toBuf_of {sig : RefSig} {Val : EltTy → Type} (r : Ref sig .tc) (h2 : r.space ≠ .host) (h3 : r.isScoped = false)
    (v : r.ty.Contents Val) : (StableHlo.TRef.of (T := r.ty) r rfl h2 h3).toBuf v = v := rfl

variable (W : Valuation τ sig (Elt Ideal))

set_option maxHeartbeats 4000000 in
/-- The first gather: the rows of the first layer's neighbour term at the source indices. -/
theorem r1_v16 : StableHlo.after (hostOps1 (F := Ideal)) W (Proc.devRef .tc main_v16)
    = kTake128 (W (Proc.devRef .tc main_v15_0)) (W (Proc.devRef .tc main_v5)) := by
  after_results_simp
  simp only [ofBuf_toBuf]
  unfold kTake128 kOk kIdx2 kIdx
  rw [ofBuf_of main_v5, ofBuf_of main_v15_0, toBuf_of main_v16]

set_option maxHeartbeats 4000000 in
/-- The second gather. -/
theorem r3_v41 : StableHlo.after (hostOps3 (F := Ideal)) W (Proc.devRef .tc main_v41)
    = kTake128 (W (Proc.devRef .tc main_v40_0)) (W (Proc.devRef .tc main_v5)) := by
  after_results_simp
  simp only [ofBuf_toBuf]
  unfold kTake128 kOk kIdx2 kIdx
  rw [ofBuf_of main_v5, ofBuf_of main_v40_0, toBuf_of main_v41]

set_option maxHeartbeats 4000000 in
/-- The third gather (64 features). -/
theorem r5_v66 : StableHlo.after (hostOps5 (F := Ideal)) W (Proc.devRef .tc main_v66)
    = kTake64 (W (Proc.devRef .tc main_v65_0)) (W (Proc.devRef .tc main_v5)) := by
  after_results_simp
  simp only [ofBuf_toBuf]
  unfold kTake64 kOk kIdx2 kIdx
  rw [ofBuf_of main_v5, ofBuf_of main_v65_0, toBuf_of main_v66]

end Cert.KernelIdeal.Chain

end
-- ==== Proof.LinearValueP.lean ====
import proofs.«139878_j75204877353213_2_alg».proof.Proof.Gen.KernelIdeal.Skeleton
import proofs.«139878_j75204877353213_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearValue

open Cert.KernelIdeal Cert.KernelIdeal.Gen Idealize.ShloMosaic Idealize.ShloMosaic.TcCoe Idealize.SL.Sem
open Idealize.ShloMosaic.ValueIdx
open scoped BigOperators

/-! # The dense layers' arithmetic at an index

Each of the three dense kernels computes, per row block, `x · w + b` twice (the left and the right projection), the
second and third kernel on the batch-normalised block. On extended reals the roundings to bf16 in front of the matrix
unit are the identity and the matrix product is the exact sum over the contracted axis. -/

theorem zeros2 : (![0, 0] : Fin 2 → Nat) = fun _ => 0 := funext fun a => by fin_cases a <;> rfl

/-- A [5000,128] by [128,128] matrix product accumulated into the zero splat, at row `p` and column `q`: the sum
    over the 128 contracted coordinates of the entries' products. -/
theorem dot128_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have c2 := contrEquiv1_symm_val dot_S5000x128_S128x128_S5000x128_1_0_0_1_n_n 128 rfl rfl k
  have l2 : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => exact (DotDims.lhsIdx_val_of_single dot_S5000x128_S128x128_S5000x128_1_0_0_1_n_n (cl := 1) rfl (ix2 p q) _).trans c2
  have r2 : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ => exact (DotDims.rhsIdx_val_of_single dot_S5000x128_S128x128_S5000x128_1_0_0_1_n_n (cr := 0) rfl (ix2 p q) _).trans c2
    | ⟨1, _⟩ => simp [DotDims.rhsIdx, dot_S5000x128_S128x128_S5000x128_1_0_0_1_n_n]; rfl
  rw [l2, r2]

/-- A [5000,128] by [128,64] matrix product accumulated into the zero splat, at row `p` and column `q`: the sum
    over the 128 contracted coordinates of the entries' products. -/
theorem dot64_apply (A : FVec Ideal S5000x128 .bf16) (B : FVec Ideal S128x64 .bf16) (p : Fin 5000) (q : Fin 64) :
    matmul dot_S5000x128_S128x64_S5000x64_1_0_0_1_n_n none A B (constant (F := Ideal) S5000x64 .f32 0x00000000#32) (ix2 p q)
      = ∑ k : Fin 128, A (ix2 p k) * B (ix2 k q) := by
  show FloatOps.matmul _ none A B (constant S5000x64 .f32 0x00000000#32) (ix2 p q) = _
  rw [Ideal.matmul_constant_zero_apply,
    ← Equiv.sum_comp (contrEquiv1 dot_S5000x128_S128x64_S5000x64_1_0_0_1_n_n 128 rfl rfl).symm]
  refine Finset.sum_congr rfl fun k _ => ?_
  have c2 := contrEquiv1_symm_val dot_S5000x128_S128x64_S5000x64_1_0_0_1_n_n 128 rfl rfl k
  have l2 : dot_S5000x128_S128x64_S5000x64_1_0_0_1_n_n.lhsIdx (ix2 p q)
      ((contrEquiv1 dot_S5000x128_S128x64_S5000x64_1_0_0_1_n_n 128 rfl rfl).symm k) = ix2 p k := by
    funext ax; apply Fin.ext
    match ax with
    | ⟨0, _⟩ => simp [DotDims.lhsIdx, dot_S5000x128_S128x64_S5000x64_1_0_0_1_n_n]; rfl
    | ⟨1, _⟩ => exact (DotDims.lhsIdx_val_of_single dot_S5000x128_S128x64_S5000x64_1_0_0_1_n_n (cl := 1) rfl (ix2 p q) _).trans c2
  have r2 : dot_S5000x128_S128x64_S5000x64_1_0_0_1_n_n.rhsIdx (ix2 p q)
      ((contrEquiv1 dot_S5000x128_S128x64_S5000x64_1_0_0_1_n_n 128 rfl rfl).symm k) = ix2 k q := by
    funext ax; apply Fin.ext
    match ax with
    | ⟨0, _⟩ => exact (DotDims.rhsIdx_val_of_single dot_S5000x128_S128x64_S5000x64_1_0_0_1_n_n (cr := 0) rfl (ix2 p q) _).trans c2
    | ⟨1, _⟩ => simp [DotDims.rhsIdx, dot_S5000x128_S128x64_S5000x64_1_0_0_1_n_n]; rfl
  rw [l2, r2]

/-- The layer-0 dense payload at row `p`, feature `q`: the rounding to bf16 is the identity on extended reals, the
    casts to the same shape are the identity, so it is `∑ k, x[p,k] · w[k,q] + b[0,q]`. -/
theorem k0_pay2_apply (x0 : Vec Ideal S5000x128 .f32) (x1 : Vec Ideal S128x128 .f32) (x2 : Vec Ideal S1x128 .f32)
    (p : Fin 5000) (q : Fin 128) :
    k0_pay2 x0 x1 x2 (ix2 p q) = (∑ k : Fin 128, x0 (ix2 p k) * x1 (ix2 k q)) + x2 (ix2 0 q) := by
  unfold k0_pay2 k0_pay1
  refine (addf_apply _ _ _).trans ?_
  refine congrArg₂ (· + ·) ?_ ?_
  · refine (dot128_apply _ _ p q).trans ?_
    rw [shapeCast_self]
    rfl
  · refine (broadcastTo_1b_ab_apply _ _ p q).trans ?_
    rw [shapeCast_self]

/-- The layer-0 dense payload at row `p`, feature `q`: the rounding to bf16 is the identity on extended reals, the
    casts to the same shape are the identity, so it is `∑ k, x[p,k] · w[k,q] + b[0,q]`. -/
theorem k0_pay3_apply (x0 : Vec Ideal S5000x128 .f32) (x1 : Vec Ideal S128x128 .f32) (x2 : Vec Ideal S1x128 .f32)
    (p : Fin 5000) (q : Fin 128) :
    k0_pay3 x0 x1 x2 (ix2 p q) = (∑ k : Fin 128, x0 (ix2 p k) * x1 (ix2 k q)) + x2 (ix2 0 q) := by
  unfold k0_pay3 k0_pay1
  refine (addf_apply _ _ _).trans ?_
  refine congrArg₂ (· + ·) ?_ ?_
  · refine (dot128_apply _ _ p q).trans ?_
    rw [shapeCast_self]
    rfl
  · refine (broadcastTo_1b_ab_apply _ _ p q).trans ?_
    rw [shapeCast_self]

/-- The normalisation prologue at row `p`, feature `q`: `(x - μ) · rsqrt (σ² + ε) · γ + β`, the four per-feature rows
    read at their one row, the rounding to bf16 the identity on extended reals. -/
theorem k2_pay1_apply (x0 : Vec Ideal S5000x128 .f32) (mu var g be : Vec Ideal S1x128 .f32) (p : Fin 5000) (q : Fin 128) :
    k2_pay1 x0 mu var g be (ix2 p q)
      = (x0 (ix2 p q) - mu (ix2 0 q)) * Ideal.rsqrt (var (ix2 0 q) + Cert.Spec.eps) * g (ix2 0 q) + be (ix2 0 q) := by
  unfold k2_pay1
  simp only [shapeCast_self]
  refine (truncf_apply (φ := .f32) (ψ := .bf16) _ bitsLt_bf16_f32 (ix2 p q)).trans ?_
  refine (addf_apply _ _ _).trans ?_
  refine congrArg₂ (· + ·) ?_ (broadcastTo_1b_ab_apply _ _ p q)
  refine (mulf_apply _ _ _).trans ?_
  refine congrArg₂ (· * ·) ?_ (broadcastTo_1b_ab_apply _ _ p q)
  refine (mulf_apply _ _ _).trans ?_
  refine congrArg₂ (· * ·) ?_ ?_
  · refine (subf_apply _ _ _).trans ?_
    exact congrArg₂ (· - ·) rfl (broadcastTo_1b_ab_apply _ _ p q)
  · refine (broadcastTo_1b_ab_apply _ _ p q).trans ?_
    rfl

/-- The dense payload behind the normalisation, at row `p`, feature `q`: `∑ k, bn[p,k] · w[k,q] + b[0,q]`. -/
theorem k2_pay2_apply (x0 : Vec Ideal S5000x128 .f32) (mu var g be : Vec Ideal S1x128 .f32)
    (w : Vec Ideal S128x128 .f32) (b : Vec Ideal S1x128 .f32) (p : Fin 5000) (q : Fin 128) :
    k2_pay2 x0 mu var g be w b (ix2 p q)
      = (∑ k : Fin 128, ((x0 (ix2 p k) - mu (ix2 0 k)) * Ideal.rsqrt (var (ix2 0 k) + Cert.Spec.eps) * g (ix2 0 k) + be (ix2 0 k))
          * w (ix2 k q)) + b (ix2 0 q) := by
  unfold k2_pay2
  refine (addf_apply _ _ _).trans ?_
  refine congrArg₂ (· + ·) ?_ ?_
  · refine (dot128_apply _ _ p q).trans ?_
    refine Finset.sum_congr rfl fun k _ => congrArg₂ (· * ·) (k2_pay1_apply x0 mu var g be p k) ?_
    rw [shapeCast_self]
    rfl
  · refine (broadcastTo_1b_ab_apply _ _ p q).trans ?_
    rw [shapeCast_self]

/-- The dense payload behind the normalisation, at row `p`, feature `q`: `∑ k, bn[p,k] · w[k,q] + b[0,q]`. -/
theorem k2_pay3_apply (x0 : Vec Ideal S5000x128 .f32) (mu var g be : Vec Ideal S1x128 .f32)
    (w : Vec Ideal S128x128 .f32) (b : Vec Ideal S1x128 .f32) (p : Fin 5000) (q : Fin 128) :
    k2_pay3 x0 mu var g be w b (ix2 p q)
      = (∑ k : Fin 128, ((x0 (ix2 p k) - mu (ix2 0 k)) * Ideal.rsqrt (var (ix2 0 k) + Cert.Spec.eps) * g (ix2 0 k) + be (ix2 0 k))
          * w (ix2 k q)) + b (ix2 0 q) := by
  unfold k2_pay3
  refine (addf_apply _ _ _).trans ?_
  refine congrArg₂ (· + ·) ?_ ?_
  · refine (dot128_apply _ _ p q).trans ?_
    refine Finset.sum_congr rfl fun k _ => congrArg₂ (· * ·) (k2_pay1_apply x0 mu var g be p k) ?_
    rw [shapeCast_self]
    rfl
  · refine (broadcastTo_1b_ab_apply _ _ p q).trans ?_
    rw [shapeCast_self]

/-- The normalisation prologue at row `p`, feature `q`: `(x - μ) · rsqrt (σ² + ε) · γ + β`, the four per-feature rows
    read at their one row, the rounding to bf16 the identity on extended reals. -/
theorem k4_pay1_apply (x0 : Vec Ideal S5000x128 .f32) (mu var g be : Vec Ideal S1x128 .f32) (p : Fin 5000) (q : Fin 128) :
    k4_pay1 x0 mu var g be (ix2 p q)
      = (x0 (ix2 p q) - mu (ix2 0 q)) * Ideal.rsqrt (var (ix2 0 q) + Cert.Spec.eps) * g (ix2 0 q) + be (ix2 0 q) := by
  unfold k4_pay1
  simp only [shapeCast_self]
  refine (truncf_apply (φ := .f32) (ψ := .bf16) _ bitsLt_bf16_f32 (ix2 p q)).trans ?_
  refine (addf_apply _ _ _).trans ?_
  refine congrArg₂ (· + ·) ?_ (broadcastTo_1b_ab_apply _ _ p q)
  refine (mulf_apply _ _ _).trans ?_
  refine congrArg₂ (· * ·) ?_ (broadcastTo_1b_ab_apply _ _ p q)
  refine (mulf_apply _ _ _).trans ?_
  refine congrArg₂ (· * ·) ?_ ?_
  · refine (subf_apply _ _ _).trans ?_
    exact congrArg₂ (· - ·) rfl (broadcastTo_1b_ab_apply _ _ p q)
  · refine (broadcastTo_1b_ab_apply _ _ p q).trans ?_
    rfl

/-- The dense payload behind the normalisation, at row `p`, feature `q`: `∑ k, bn[p,k] · w[k,q] + b[0,q]`. -/
theorem k4_pay2_apply (x0 : Vec Ideal S5000x128 .f32) (mu var g be : Vec Ideal S1x128 .f32)
    (w : Vec Ideal S128x64 .f32) (b : Vec Ideal S1x64 .f32) (p : Fin 5000) (q : Fin 64) :
    k4_pay2 x0 mu var g be w b (ix2 p q)
      = (∑ k : Fin 128, ((x0 (ix2 p k) - mu (ix2 0 k)) * Ideal.rsqrt (var (ix2 0 k) + Cert.Spec.eps) * g (ix2 0 k) + be (ix2 0 k))
          * w (ix2 k q)) + b (ix2 0 q) := by
  unfold k4_pay2
  refine (addf_apply _ _ _).trans ?_
  refine congrArg₂ (· + ·) ?_ ?_
  · refine (dot64_apply _ _ p q).trans ?_
    refine Finset.sum_congr rfl fun k _ => congrArg₂ (· * ·) (k4_pay1_apply x0 mu var g be p k) ?_
    rw [shapeCast_self]
    rfl
  · refine (broadcastTo_1b_ab_apply _ _ p q).trans ?_
    rw [shapeCast_self]

/-- The dense payload behind the normalisation, at row `p`, feature `q`: `∑ k, bn[p,k] · w[k,q] + b[0,q]`. -/
theorem k4_pay3_apply (x0 : Vec Ideal S5000x128 .f32) (mu var g be : Vec Ideal S1x128 .f32)
    (w : Vec Ideal S128x64 .f32) (b : Vec Ideal S1x64 .f32) (p : Fin 5000) (q : Fin 64) :
    k4_pay3 x0 mu var g be w b (ix2 p q)
      = (∑ k : Fin 128, ((x0 (ix2 p k) - mu (ix2 0 k)) * Ideal.rsqrt (var (ix2 0 k) + Cert.Spec.eps) * g (ix2 0 k) + be (ix2 0 k))
          * w (ix2 k q)) + b (ix2 0 q) := by
  unfold k4_pay3
  refine (addf_apply _ _ _).trans ?_
  refine congrArg₂ (· + ·) ?_ ?_
  · refine (dot64_apply _ _ p q).trans ?_
    refine Finset.sum_congr rfl fun k _ => congrArg₂ (· * ·) (k4_pay1_apply x0 mu var g be p k) ?_
    rw [shapeCast_self]
    rfl
  · refine (broadcastTo_1b_ab_apply _ _ p q).trans ?_
    rw [shapeCast_self]

end Cert.KernelIdeal.LinearValue

end
-- ==== Proof.LinearValue0.lean ====
import proofs.«139878_j75204877353213_2_alg».proof.Proof.Gen.KernelIdeal.Frame
import proofs.«139878_j75204877353213_2_alg».proof.Proof.Spec
import proofs.«139878_j75204877353213_2_alg».proof.Proof.LinearValueP
import Idealize.ShloMosaic.Lib.Pipeline.Value
import Idealize.ShloMosaic.Lib.ValueIdx

noncomputable section

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # Layer 0's two dense projections: the result arrays after the region

The grid has ten points; point `t` works on rows `5000 t … 5000 t + 4999`. The activations and the two results are
blocked by rows, every other operand is one block, the same at every point. So what point `t` writes back is the
block of rows `5000 t …` of one function of the whole operand arrays, and the ten blocks cover the 50000 rows. -/

/-- Row `p` of the block of 5000 rows that grid point `t` (of ten) works on is row `5000 t + p` of the 50000. -/
def rowAt0 {n : ℕ} (hn : n = 10) (t : Fin n) (p : Fin 5000) : Fin 50000 :=
  ⟨5000 * t.val + p.val, by have := t.isLt; have := p.isLt; omega⟩

/-- Window 0's block index at each of the ten grid points (blocked by rows: block `t`). -/
theorem idx0_0 : ∀ t : Fin cfg0.N, win0_0.index t (0 : Fin 2) = t.val ∧ win0_0.index t (1 : Fin 2) = 0 :=
  (by decide +kernel : ∀ t : Fin grid0.N, _)

/-- Window 1's block index at each of the ten grid points (one block). -/
theorem idx0_1 : ∀ t : Fin cfg0.N, win0_1.index t (0 : Fin 2) = 0 ∧ win0_1.index t (1 : Fin 2) = 0 :=
  (by decide +kernel : ∀ t : Fin grid0.N, _)

/-- Window 2's block index at each of the ten grid points (one block). -/
theorem idx0_2 : ∀ t : Fin cfg0.N, win0_2.index t (0 : Fin 2) = 0 ∧ win0_2.index t (1 : Fin 2) = 0 :=
  (by decide +kernel : ∀ t : Fin grid0.N, _)

/-- Window 3's block index at each of the ten grid points (one block). -/
theorem idx0_3 : ∀ t : Fin cfg0.N, win0_3.index t (0 : Fin 2) = 0 ∧ win0_3.index t (1 : Fin 2) = 0 :=
  (by decide +kernel : ∀ t : Fin grid0.N, _)

/-- Window 4's block index at each of the ten grid points (one block). -/
theorem idx0_4 : ∀ t : Fin cfg0.N, win0_4.index t (0 : Fin 2) = 0 ∧ win0_4.index t (1 : Fin 2) = 0 :=
  (by decide +kernel : ∀ t : Fin grid0.N, _)

/-- Window 5's block index at each of the ten grid points (blocked by rows: block `t`). -/
theorem idx0_5 : ∀ t : Fin cfg0.N, win0_5.index t (0 : Fin 2) = t.val ∧ win0_5.index t (1 : Fin 2) = 0 :=
  (by decide +kernel : ∀ t : Fin grid0.N, _)

/-- Window 6's block index at each of the ten grid points (blocked by rows: block `t`). -/
theorem idx0_6 : ∀ t : Fin cfg0.N, win0_6.index t (0 : Fin 2) = t.val ∧ win0_6.index t (1 : Fin 2) = 0 :=
  (by decide +kernel : ∀ t : Fin grid0.N, _)

/-- The activations' block at point `t` holds rows `5000 t …` of the array. -/
theorem blk0_0 (t : Fin cfg0.N) (p : Fin 5000) (k : Fin 128) :
    iblk0 V c 0 t (ix2 p k) = V c main_arg0 (ix2 (rowAt0 N_0 t p) k) := by
  obtain ⟨e0, e1⟩ := idx0_0 t
  show V c main_arg0 (((cfg0.win 0).blk t).view.emb (ix2 p k)) = V c main_arg0 (ix2 (rowAt0 N_0 t p) k)
  refine congrArg (V c main_arg0) ?_
  funext ax; apply Fin.ext
  match ax with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Window 1's one block is its whole array. -/
theorem blk0_1 (t : Fin cfg0.N) (a : Fin 128) (b : Fin 128) :
    iblk0 V c 1 t (ix2 a b) = V c main_v11 (ix2 a b) := by
  obtain ⟨e0, e1⟩ := idx0_1 t
  show V c main_v11 (((cfg0.win 1).blk t).view.emb (ix2 a b)) = V c main_v11 (ix2 a b)
  refine congrArg (V c main_v11) ?_
  funext ax; apply Fin.ext
  match ax with
  | ⟨0, _⟩ => show win0_1.index t (0 : Fin 2) * 128 + 1 * a.val = a.val; rw [e0]; omega
  | ⟨1, _⟩ => show win0_1.index t (1 : Fin 2) * 128 + 1 * b.val = b.val; rw [e1]; omega

/-- Window 2's one block is its whole array. -/
theorem blk0_2 (t : Fin cfg0.N) (a : Fin 1) (b : Fin 128) :
    iblk0 V c 2 t (ix2 a b) = V c main_v13 (ix2 a b) := by
  obtain ⟨e0, e1⟩ := idx0_2 t
  show V c main_v13 (((cfg0.win 2).blk t).view.emb (ix2 a b)) = V c main_v13 (ix2 a b)
  refine congrArg (V c main_v13) ?_
  funext ax; apply Fin.ext
  match ax with
  | ⟨0, _⟩ => show win0_2.index t (0 : Fin 2) * 1 + 1 * a.val = a.val; rw [e0]; omega
  | ⟨1, _⟩ => show win0_2.index t (1 : Fin 2) * 128 + 1 * b.val = b.val; rw [e1]; omega

/-- Window 3's one block is its whole array. -/
theorem blk0_3 (t : Fin cfg0.N) (a : Fin 128) (b : Fin 128) :
    iblk0 V c 3 t (ix2 a b) = V c main_v12 (ix2 a b) := by
  obtain ⟨e0, e1⟩ := idx0_3 t
  show V c main_v12 (((cfg0.win 3).blk t).view.emb (ix2 a b)) = V c main_v12 (ix2 a b)
  refine congrArg (V c main_v12) ?_
  funext ax; apply Fin.ext
  match ax with
  | ⟨0, _⟩ => show win0_3.index t (0 : Fin 2) * 128 + 1 * a.val = a.val; rw [e0]; omega
  | ⟨1, _⟩ => show win0_3.index t (1 : Fin 2) * 128 + 1 * b.val = b.val; rw [e1]; omega

/-- Window 4's one block is its whole array. -/
theorem blk0_4 (t : Fin cfg0.N) (a : Fin 1) (b : Fin 128) :
    iblk0 V c 4 t (ix2 a b) = V c main_v14 (ix2 a b) := by
  obtain ⟨e0, e1⟩ := idx0_4 t
  show V c main_v14 (((cfg0.win 4).blk t).view.emb (ix2 a b)) = V c main_v14 (ix2 a b)
  refine congrArg (V c main_v14) ?_
  funext ax; apply Fin.ext
  match ax with
  | ⟨0, _⟩ => show win0_4.index t (0 : Fin 2) * 1 + 1 * a.val = a.val; rw [e0]; omega
  | ⟨1, _⟩ => show win0_4.index t (1 : Fin 2) * 128 + 1 * b.val = b.val; rw [e1]; omega

/-! ## Result window 5 -/

/-- An entry of the result's block at point `t` sits at row `5000 t + p`. -/
theorem emb0_5 (t : Fin cfg0.N) (p : Fin 5000) (q : Fin 128) :
    ((cfg0.win 5).blk t).view.emb (ix2 p q) = (ix2 (rowAt0 N_0 t p) q : Cert.Spec.SN128.Idx) := by
  obtain ⟨e0, e1⟩ := idx0_5 t
  funext ax; apply Fin.ext
  match ax with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- What point `t` writes back is block `t` of the dense layer of the whole operand arrays. -/
theorem flushed0_5_eq (t : Fin cfg0.N) :
    (dat0 (F := Ideal) V c).flushed 5 t = ((cfg0.win 5).blk t).view.read (Elt Ideal) (Cert.Spec.linT128 (V c main_arg0) (V c main_v11) (V c main_v13)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2, View.ld_unit_zero (S := S1x128) zeros2]
  refine funext fun (j : S5000x128.Idx) => ?_
  obtain ⟨p, q, rfl⟩ : ∃ (p : Fin 5000) (q : Fin 128), j = ix2 p q := ⟨j 0, j 1, eq_ix2 j⟩
  show k0_pay2 (iblk0 V c 0 t) (iblk0 V c 1 t) (iblk0 V c 2 t) (ix2 p q)
    = (Cert.Spec.linT128 (V c main_arg0) (V c main_v11) (V c main_v13)) (((cfg0.win 5).blk t).view.emb (ix2 p q))
  rw [emb0_5 t p q]
  refine (k0_pay2_apply (iblk0 V c 0 t) (iblk0 V c 1 t) (iblk0 V c 2 t) p q).trans ?_
  simp only [blk0_0 V c t, blk0_1 V c t, blk0_2 V c t]
  rfl

/-- An index of the array is in point `t`'s block iff each coordinate is in the block's range on its axis. -/
theorem mem_blk0_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15_0).slice (win0_5.rect t)).set ↔ _
  rw [View.set_slice_whole, Rect.mem_set_unit]
  exact Iff.rfl

/-- Row `r` is in the block of point `r / 5000`. -/
theorem rows_cover0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_5 _, ?_⟩
  rw [mem_blk0_5]
  obtain ⟨e0, e1⟩ := idx0_5 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- The result array after the region: the dense layer of the operand arrays as the region finds them. -/
theorem final0_5 : (dat0 (F := Ideal) V c).arrAt 5 cfg0.N = Cert.Spec.linT128 (V c main_arg0) (V c main_v11) (V c main_v13) :=
  (dat0 V c).arrAt_eq_of_cover 5 (Cert.Spec.linT128 (V c main_arg0) (V c main_v11) (V c main_v13)) (fun t _ => flushed0_5_eq V c t) rows_cover0_5

/-! ## Result window 6 -/

/-- An entry of the result's block at point `t` sits at row `5000 t + p`. -/
theorem emb0_6 (t : Fin cfg0.N) (p : Fin 5000) (q : Fin 128) :
    ((cfg0.win 6).blk t).view.emb (ix2 p q) = (ix2 (rowAt0 N_0 t p) q : Cert.Spec.SN128.Idx) := by
  obtain ⟨e0, e1⟩ := idx0_6 t
  funext ax; apply Fin.ext
  match ax with
  | ⟨0, _⟩ => show win0_6.index t (0 : Fin 2) * 5000 + 1 * p.val = 5000 * t.val + p.val; rw [e0]; omega
  | ⟨1, _⟩ => show win0_6.index t (1 : Fin 2) * 128 + 1 * q.val = q.val; rw [e1]; omega

/-- What point `t` writes back is block `t` of the dense layer of the whole operand arrays. -/
theorem flushed0_6_eq (t : Fin cfg0.N) :
    (dat0 (F := Ideal) V c).flushed 6 t = ((cfg0.win 6).blk t).view.read (Elt Ideal) (Cert.Spec.linT128 (V c main_arg0) (V c main_v12) (V c main_v14)) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S128x128) zeros2, View.ld_unit_zero (S := S1x128) zeros2]
  refine funext fun (j : S5000x128.Idx) => ?_
  obtain ⟨p, q, rfl⟩ : ∃ (p : Fin 5000) (q : Fin 128), j = ix2 p q := ⟨j 0, j 1, eq_ix2 j⟩
  show k0_pay3 (iblk0 V c 0 t) (iblk0 V c 3 t) (iblk0 V c 4 t) (ix2 p q)
    = (Cert.Spec.linT128 (V c main_arg0) (V c main_v12) (V c main_v14)) (((cfg0.win 6).blk t).view.emb (ix2 p q))
  rw [emb0_6 t p q]
  refine (k0_pay3_apply (iblk0 V c 0 t) (iblk0 V c 3 t) (iblk0 V c 4 t) p q).trans ?_
  simp only [blk0_0 V c t, blk0_3 V c t, blk0_4 V c t]
  rfl

/-- An index of the array is in point `t`'s block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v15_1).slice (win0_6.rect t)).set ↔ _
  rw [View.set_slice_whole, Rect.mem_set_unit]
  exact Iff.rfl

/-- Row `r` is in the block of point `r / 5000`. -/
theorem rows_cover0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_6 _, ?_⟩
  rw [mem_blk0_6]
  obtain ⟨e0, e1⟩ := idx0_6 ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- The result array after the region: the dense layer of the operand arrays as the region finds them. -/
theorem final0_6 : (dat0 (F := Ideal) V c).arrAt 6 cfg0.N = Cert.Spec.linT128 (V c main_arg0) (V c main_v12) (V c main_v14) :=
  (dat0 V c).arrAt_eq_of_cover 6 (Cert.Spec.linT128 (V c main_arg0) (V c main_v12) (V c main_v14)) (fun t _ => flushed0_6_eq V c t) rows_cover0_6

end Cert.KernelIdeal.LinearValue

end
-- ==== Proof.LinearValue2.lean ====
import proofs.«139878_j75204877353213_2_alg».proof.Proof.Gen.KernelIdeal.Frame
import proofs.«139878_j75204877353213_2_alg».proof.Proof.Spec
import proofs.«139878_j75204877353213_2_alg».proof.Proof.LinearValueP
import Idealize.ShloMosaic.Lib.Pipeline.Value
import Idealize.ShloMosaic.Lib.ValueIdx

noncomputable section

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # Layer 1's two dense projections of the batch-normalised activations: the result arrays after the region

The grid has ten points; point `t` works on rows `5000 t … 5000 t + 4999`. The activations and the two results are
blocked by rows, every other operand is one block, the same at every point. So what point `t` writes back is the
block of rows `5000 t …` of one function of the whole operand arrays, and the ten blocks cover the 50000 rows. -/

/-- Row `p` of the block of 5000 rows that grid point `t` (of ten) works on is row `5000 t + p` of the 50000. -/
def rowAt2 {n : ℕ} (hn : n = 10) (t : Fin n) (p : Fin 5000) : Fin 50000 :=
  ⟨5000 * t.val + p.val, by have := t.isLt; have := p.isLt; omega⟩

/-- Window 0's block index at each of the ten grid points (blocked by rows: block `t`). -/
theorem idx2_0 : ∀ t : Fin cfg2.N, win2_0.index t (0 : Fin 2) = t.val ∧ win2_0.index t (1 : Fin 2) = 0 :=
  (by decide +kernel : ∀ t : Fin grid2.N, _)

/-- Window 1's block index at each of the ten grid points (one block). -/
theorem idx2_1 : ∀ t : Fin cfg2.N, win2_1.index t (0 : Fin 2) = 0 ∧ win2_1.index t (1 : Fin 2) = 0 :=
  (by decide +kernel : ∀ t : Fin grid2.N, _)

/-- Window 2's block index at each of the ten grid points (one block). -/
theorem idx2_2 : ∀ t : Fin cfg2.N, win2_2.index t (0 : Fin 2) = 0 ∧ win2_2.index t (1 : Fin 2) = 0 :=
  (by decide +kernel : ∀ t : Fin grid2.N, _)

/-- Window 3's block index at each of the ten grid points (one block). -/
theorem idx2_3 : ∀ t : Fin cfg2.N, win2_3.index t (0 : Fin 2) = 0 ∧ win2_3.index t (1 : Fin 2) = 0 :=
  (by decide +kernel : ∀ t : Fin grid2.N, _)

/-- Window 4's block index at each of the ten grid points (one block). -/
theorem idx2_4 : ∀ t : Fin cfg2.N, win2_4.index t (0 : Fin 2) = 0 ∧ win2_4.index t (1 : Fin 2) = 0 :=
  (by decide +kernel : ∀ t : Fin grid2.N, _)

/-- Window 5's block index at each of the ten grid points (one block). -/
theorem idx2_5 : ∀ t : Fin cfg2.N, win2_5.index t (0 : Fin 2) = 0 ∧ win2_5.index t (1 : Fin 2) = 0 :=
  (by decide +kernel : ∀ t : Fin grid2.N, _)

/-- Window 6's block index at each of the ten grid points (one block). -/
theorem idx2_6 : ∀ t : Fin cfg2.N, win2_6.index t (0 : Fin 2) = 0 ∧ win2_6.index t (1 : Fin 2) = 0 :=
  (by decide +kernel : ∀ t : Fin grid2.N, _)

/-- Window 7's block index at each of the ten grid points (one block). -/
theorem idx2_7 : ∀ t : Fin cfg2.N, win2_7.index t (0 : Fin 2) = 0 ∧ win2_7.index t (1 : Fin 2) = 0 :=
  (by decide +kernel : ∀ t : Fin grid2.N, _)

/-- Window 8's block index at each of the ten grid points (one block). -/
theorem idx2_8 : ∀ t : Fin cfg2.N, win2_8.index t (0 : Fin 2) = 0 ∧ win2_8.index t (1 : Fin 2) = 0 :=
  (by decide +kernel : ∀ t : Fin grid2.N, _)

/-- Window 9's block index at each of the ten grid points (blocked by rows: block `t`). -/
theorem idx2_9 : ∀ t : Fin cfg2.N, win2_9.index t (0 : Fin 2) = t.val ∧ win2_9.index t (1 : Fin 2) = 0 :=
  (by decide +kernel : ∀ t : Fin grid2.N, _)

/-- Window 10's block index at each of the ten grid points (blocked by rows: block `t`). -/
theorem idx2_10 : ∀ t : Fin cfg2.N, win2_10.index t (0 : Fin 2) = t.val ∧ win2_10.index t (1 : Fin 2) = 0 :=
  (by decide +kernel : ∀ t : Fin grid2.N, _)

/-- The activations' block at point `t` holds rows `5000 t …` of the array. -/
theorem blk2_0 (t : Fin cfg2.N) (p : Fin 5000) (k : Fin 128) :
    iblk2 V c 0 t (ix2 p k) = V c main_v21 (ix2 (rowAt2 N_2 t p) k) := by
  obtain ⟨e0, e1⟩ := idx2_0 t
  show V c main_v21 (((cfg2.win 0).blk t).view.emb (ix2 p k)) = V c main_v21 (ix2 (rowAt2 N_2 t p) k)
  refine congrArg (V c main_v21) ?_
  funext ax; apply Fin.ext
  match ax with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Window 1's one block is its whole array. -/
theorem blk2_1 (t : Fin cfg2.N) (a : Fin 1) (b : Fin 128) :
    iblk2 V c 1 t (ix2 a b) = V c main_v36 (ix2 a b) := by
  obtain ⟨e0, e1⟩ := idx2_1 t
  show V c main_v36 (((cfg2.win 1).blk t).view.emb (ix2 a b)) = V c main_v36 (ix2 a b)
  refine congrArg (V c main_v36) ?_
  funext ax; apply Fin.ext
  match ax with
  | ⟨0, _⟩ => show win2_1.index t (0 : Fin 2) * 1 + 1 * a.val = a.val; rw [e0]; omega
  | ⟨1, _⟩ => show win2_1.index t (1 : Fin 2) * 128 + 1 * b.val = b.val; rw [e1]; omega

/-- Window 2's one block is its whole array. -/
theorem blk2_2 (t : Fin cfg2.N) (a : Fin 1) (b : Fin 128) :
    iblk2 V c 2 t (ix2 a b) = V c main_v37 (ix2 a b) := by
  obtain ⟨e0, e1⟩ := idx2_2 t
  show V c main_v37 (((cfg2.win 2).blk t).view.emb (ix2 a b)) = V c main_v37 (ix2 a b)
  refine congrArg (V c main_v37) ?_
  funext ax; apply Fin.ext
  match ax with
  | ⟨0, _⟩ => show win2_2.index t (0 : Fin 2) * 1 + 1 * a.val = a.val; rw [e0]; omega
  | ⟨1, _⟩ => show win2_2.index t (1 : Fin 2) * 128 + 1 * b.val = b.val; rw [e1]; omega

/-- Window 3's one block is its whole array. -/
theorem blk2_3 (t : Fin cfg2.N) (a : Fin 1) (b : Fin 128) :
    iblk2 V c 3 t (ix2 a b) = V c main_v38 (ix2 a b) := by
  obtain ⟨e0, e1⟩ := idx2_3 t
  show V c main_v38 (((cfg2.win 3).blk t).view.emb (ix2 a b)) = V c main_v38 (ix2 a b)
  refine congrArg (V c main_v38) ?_
  funext ax; apply Fin.ext
  match ax with
  | ⟨0, _⟩ => show win2_3.index t (0 : Fin 2) * 1 + 1 * a.val = a.val; rw [e0]; omega
  | ⟨1, _⟩ => show win2_3.index t (1 : Fin 2) * 128 + 1 * b.val = b.val; rw [e1]; omega

/-- Window 4's one block is its whole array. -/
theorem blk2_4 (t : Fin cfg2.N) (a : Fin 1) (b : Fin 128) :
    iblk2 V c 4 t (ix2 a b) = V c main_v39 (ix2 a b) := by
  obtain ⟨e0, e1⟩ := idx2_4 t
  show V c main_v39 (((cfg2.win 4).blk t).view.emb (ix2 a b)) = V c main_v39 (ix2 a b)
  refine congrArg (V c main_v39) ?_
  funext ax; apply Fin.ext
  match ax with
  | ⟨0, _⟩ => show win2_4.index t (0 : Fin 2) * 1 + 1 * a.val = a.val; rw [e0]; omega
  | ⟨1, _⟩ => show win2_4.index t (1 : Fin 2) * 128 + 1 * b.val = b.val; rw [e1]; omega

/-- Window 5's one block is its whole array. -/
theorem blk2_5 (t : Fin cfg2.N) (a : Fin 128) (b : Fin 128) :
    iblk2 V c 5 t (ix2 a b) = V c main_v32 (ix2 a b) := by
  obtain ⟨e0, e1⟩ := idx2_5 t
  show V c main_v32 (((cfg2.win 5).blk t).view.emb (ix2 a b)) = V c main_v32 (ix2 a b)
  refine congrArg (V c main_v32) ?_
  funext ax; apply Fin.ext
  match ax with
  | ⟨0, _⟩ => show win2_5.index t (0 : Fin 2) * 128 + 1 * a.val = a.val; rw [e0]; omega
  | ⟨1, _⟩ => show win2_5.index t (1 : Fin 2) * 128 + 1 * b.val = b.val; rw [e1]; omega

/-- Window 6's one block is its whole array. -/
theorem blk2_6 (t : Fin cfg2.N) (a : Fin 1) (b : Fin 128) :
    iblk2 V c 6 t (ix2 a b) = V c main_v34 (ix2 a b) := by
  obtain ⟨e0, e1⟩ := idx2_6 t
  show V c main_v34 (((cfg2.win 6).blk t).view.emb (ix2 a b)) = V c main_v34 (ix2 a b)
  refine congrArg (V c main_v34) ?_
  funext ax; apply Fin.ext
  match ax with
  | ⟨0, _⟩ => show win2_6.index t (0 : Fin 2) * 1 + 1 * a.val = a.val; rw [e0]; omega
  | ⟨1, _⟩ => show win2_6.index t (1 : Fin 2) * 128 + 1 * b.val = b.val; rw [e1]; omega

/-- Window 7's one block is its whole array. -/
theorem blk2_7 (t : Fin cfg2.N) (a : Fin 128) (b : Fin 128) :
    iblk2 V c 7 t (ix2 a b) = V c main_v33 (ix2 a b) := by
  obtain ⟨e0, e1⟩ := idx2_7 t
  show V c main_v33 (((cfg2.win 7).blk t).view.emb (ix2 a b)) = V c main_v33 (ix2 a b)
  refine congrArg (V c main_v33) ?_
  funext ax; apply Fin.ext
  match ax with
  | ⟨0, _⟩ => show win2_7.index t (0 : Fin 2) * 128 + 1 * a.val = a.val; rw [e0]; omega
  | ⟨1, _⟩ => show win2_7.index t (1 : Fin 2) * 128 + 1 * b.val = b.val; rw [e1]; omega

/-- Window 8's one block is its whole array. -/
theorem blk2_8 (t : Fin cfg2.N) (a : Fin 1) (b : Fin 128) :
    iblk2 V c 8 t (ix2 a b) = V c main_v35 (ix2 a b) := by
  obtain ⟨e0, e1⟩ := idx2_8 t
  show V c main_v35 (((cfg2.win 8).blk t).view.emb (ix2 a b)) = V c main_v35 (ix2 a b)
  refine congrArg (V c main_v35) ?_
  funext ax; apply Fin.ext
  match ax with
  | ⟨0, _⟩ => show win2_8.index t (0 : Fin 2) * 1 + 1 * a.val = a.val; rw [e0]; omega
  | ⟨1, _⟩ => show win2_8.index t (1 : Fin 2) * 128 + 1 * b.val = b.val; rw [e1]; omega

/-! ## Result window 9 -/

/-- An entry of the result's block at point `t` sits at row `5000 t + p`. -/
theorem emb2_9 (t : Fin cfg2.N) (p : Fin 5000) (q : Fin 128) :
    ((cfg2.win 9).blk t).view.emb (ix2 p q) = (ix2 (rowAt2 N_2 t p) q : Cert.Spec.SN128.Idx) := by
  obtain ⟨e0, e1⟩ := idx2_9 t
  funext ax; apply Fin.ext
  match ax with
  | ⟨0, _⟩ => show win2_9.index t (0 : Fin 2) * 5000 + 1 * p.val = 5000 * t.val + p.val; rw [e0]; omega
  | ⟨1, _⟩ => show win2_9.index t (1 : Fin 2) * 128 + 1 * q.val = q.val; rw [e1]; omega

/-- What point `t` writes back is block `t` of the dense layer of the whole operand arrays. -/
theorem flushed2_9_eq (t : Fin cfg2.N) :
    (dat2 (F := Ideal) V c).flushed 9 t = ((cfg2.win 9).blk t).view.read (Elt Ideal) (Cert.Spec.linT128 (Cert.Spec.bnT (V c main_v21) (V c main_v36) (V c main_v37) (V c main_v38) (V c main_v39)) (V c main_v32) (V c main_v34)) := by
  show (cfg2.win 9).cut (grid2.coords t) ((dat2 V c).after 9 t) = _
  rw [after2_9]
  unfold out2_9
  rw [View.canon_unit_zero zeros2]
  simp only [View.ld_unit_zero (S := S5000x128) zeros2, View.ld_unit_zero (S := S128x128) zeros2, View.ld_unit_zero (S := S1x128) zeros2]
  refine funext fun (j : S5000x128.Idx) => ?_
  obtain ⟨p, q, rfl⟩ : ∃ (p : Fin 5000) (q : Fin 128), j = ix2 p q := ⟨j 0, j 1, eq_ix2 j⟩
  show k2_pay2 (iblk2 V c 0 t) (iblk2 V c 1 t) (iblk2 V c 2 t) (iblk2 V c 3 t) (iblk2 V c 4 t) (iblk2 V c 5 t) (iblk2 V c 6 t) (ix2 p q)
    = (Cert.Spec.linT128 (Cert.Spec.bnT (V c main_v21) (V c main_v36) (V c main_v37) (V c main_v38) (V c main_v39)) (V c main_v32) (V c main_v34)) (((cfg2.win 9).blk t).view.emb (ix2 p q))
  rw [emb2_9 t p q]
  refine (k2_pay2_apply (iblk2 V c 0 t) (iblk2 V c 1 t) (iblk2 V c 2 t) (iblk2 V c 3 t) (iblk2 V c 4 t) (iblk2 V c 5 t) (iblk2 V c 6 t) p q).trans ?_
  simp only [blk2_0 V c t, blk2_1 V c t, blk2_2 V c t, blk2_3 V c t, blk2_4 V c t, blk2_5 V c t, blk2_6 V c t]
  rfl

/-- An index of the array is in point `t`'s block iff each coordinate is in the block's range on its axis. -/
theorem mem_blk2_9 (t : Fin cfg2.N) (i : S50000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v40_0).slice (win2_9.rect t)).set ↔ _
  rw [View.set_slice_whole, Rect.mem_set_unit]
  exact Iff.rfl

/-- Row `r` is in the block of point `r / 5000`. -/
theorem rows_cover2_9 (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_9 _, ?_⟩
  rw [mem_blk2_9]
  obtain ⟨e0, e1⟩ := idx2_9 ⟨(i 0).val / 5000, by rw [hN]; omega⟩
  intro a
  match a with
  | ⟨0, _⟩ =>
    show win2_9.index _ (0 : Fin 2) * 5000 ≤ (i 0).val ∧ (i 0).val < win2_9.index _ (0 : Fin 2) * 5000 + 5000
    rw [e0]; show (i 0).val / 5000 * 5000 ≤ (i 0).val ∧ (i 0).val < (i 0).val / 5000 * 5000 + 5000; omega
  | ⟨1, _⟩ =>
    show win2_9.index _ (1 : Fin 2) * 128 ≤ (i 1).val ∧ (i 1).val < win2_9.index _ (1 : Fin 2) * 128 + 128
    rw [e1]; omega

/-- The result array after the region: the dense layer of the operand arrays as the region finds them. -/
theorem final2_9 : (dat2 (F := Ideal) V c).arrAt 9 cfg2.N = Cert.Spec.linT128 (Cert.Spec.bnT (V c main_v21) (V c main_v36) (V c main_v37) (V c main_v38) (V c main_v39)) (V c main_v32) (V c main_v34) :=
  (dat2 V c).arrAt_eq_of_cover 9 (Cert.Spec.linT128 (Cert.Spec.bnT (V c main_v21) (V c main_v36) (V c main_v37) (V c main_v38) (V c main_v39)) (V c main_v32) (V c main_v34)) (fun t _ => flushed2_9_eq V c t) rows_cover2_9

/-! ## Result window 10 -/

/-- An entry of the result's block at point `t` sits at row `5000 t + p`. -/
theorem emb2_10 (t : Fin cfg2.N) (p : Fin 5000) (q : Fin 128) :
    ((cfg2.win 10).blk t).view.emb (ix2 p q) = (ix2 (rowAt2 N_2 t p) q : Cert.Spec.SN128.Idx) := by
  obtain ⟨e0, e1⟩ := idx2_10 t
  funext ax; apply Fin.ext
  match ax with
  | ⟨0, _⟩ => show win2_10.index t (0 : Fin 2) * 5000 + 1 * p.val = 5000 * t.val + p.val; rw [e0]; omega
  | ⟨1, _⟩ => show win2_10.index t (1 : Fin 2) * 128 + 1 * q.val = q.val; rw [e1]; omega

/-- What point `t` writes back is block `t` of the dense layer of the whole operand arrays. -/
theorem flushed2_10_eq (t : Fin cfg2.N) :
    (dat2 (F := Ideal) V c).flushed 10 t = ((cfg2.win 10).blk t).view.read (Elt Ideal) (Cert.Spec.linT128 (Cert.Spec.bnT (V c main_v21) (V c main_v36) (V c main_v37) (V c main_v38) (V c main_v39)) (V c main_v33) (V c main_v35)) := by
  show (cfg2.win 10).cut (grid2.coords t) ((dat2 V c).after 10 t) = _
  rw [after2_10]
  unfold out2_10
  rw [View.canon_unit_zero zeros2]
  simp only [View.ld_unit_zero (S := S5000x128) zeros2, View.ld_unit_zero (S := S128x128) zeros2, View.ld_unit_zero (S := S1x128) zeros2]
  refine funext fun (j : S5000x128.Idx) => ?_
  obtain ⟨p, q, rfl⟩ : ∃ (p : Fin 5000) (q : Fin 128), j = ix2 p q := ⟨j 0, j 1, eq_ix2 j⟩
  show k2_pay3 (iblk2 V c 0 t) (iblk2 V c 1 t) (iblk2 V c 2 t) (iblk2 V c 3 t) (iblk2 V c 4 t) (iblk2 V c 7 t) (iblk2 V c 8 t) (ix2 p q)
    = (Cert.Spec.linT128 (Cert.Spec.bnT (V c main_v21) (V c main_v36) (V c main_v37) (V c main_v38) (V c main_v39)) (V c main_v33) (V c main_v35)) (((cfg2.win 10).blk t).view.emb (ix2 p q))
  rw [emb2_10 t p q]
  refine (k2_pay3_apply (iblk2 V c 0 t) (iblk2 V c 1 t) (iblk2 V c 2 t) (iblk2 V c 3 t) (iblk2 V c 4 t) (iblk2 V c 7 t) (iblk2 V c 8 t) p q).trans ?_
  simp only [blk2_0 V c t, blk2_1 V c t, blk2_2 V c t, blk2_3 V c t, blk2_4 V c t, blk2_7 V c t, blk2_8 V c t]
  rfl

/-- An index of the array is in point `t`'s block iff each coordinate is in the block's range on its axis. -/
theorem mem_blk2_10 (t : Fin cfg2.N) (i : S50000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v40_1).slice (win2_10.rect t)).set ↔ _
  rw [View.set_slice_whole, Rect.mem_set_unit]
  exact Iff.rfl

/-- Row `r` is in the block of point `r / 5000`. -/
theorem rows_cover2_10 (i : S50000x128.Idx) :
    ∃ t : Fin cfg2.N, (cfg2.win 10).flush t = true ∧ i ∈ ((cfg2.win 10).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_10 _, ?_⟩
  rw [mem_blk2_10]
  obtain ⟨e0, e1⟩ := idx2_10 ⟨(i 0).val / 5000, by rw [hN]; omega⟩
  intro a
  match a with
  | ⟨0, _⟩ =>
    show win2_10.index _ (0 : Fin 2) * 5000 ≤ (i 0).val ∧ (i 0).val < win2_10.index _ (0 : Fin 2) * 5000 + 5000
    rw [e0]; show (i 0).val / 5000 * 5000 ≤ (i 0).val ∧ (i 0).val < (i 0).val / 5000 * 5000 + 5000; omega
  | ⟨1, _⟩ =>
    show win2_10.index _ (1 : Fin 2) * 128 ≤ (i 1).val ∧ (i 1).val < win2_10.index _ (1 : Fin 2) * 128 + 128
    rw [e1]; omega

/-- The result array after the region: the dense layer of the operand arrays as the region finds them. -/
theorem final2_10 : (dat2 (F := Ideal) V c).arrAt 10 cfg2.N = Cert.Spec.linT128 (Cert.Spec.bnT (V c main_v21) (V c main_v36) (V c main_v37) (V c main_v38) (V c main_v39)) (V c main_v33) (V c main_v35) :=
  (dat2 V c).arrAt_eq_of_cover 10 (Cert.Spec.linT128 (Cert.Spec.bnT (V c main_v21) (V c main_v36) (V c main_v37) (V c main_v38) (V c main_v39)) (V c main_v33) (V c main_v35)) (fun t _ => flushed2_10_eq V c t) rows_cover2_10

end Cert.KernelIdeal.LinearValue

end
-- ==== Proof.LinearValue4.lean ====
import proofs.«139878_j75204877353213_2_alg».proof.Proof.Gen.KernelIdeal.Frame
import proofs.«139878_j75204877353213_2_alg».proof.Proof.Spec
import proofs.«139878_j75204877353213_2_alg».proof.Proof.LinearValueP
import Idealize.ShloMosaic.Lib.Pipeline.Value
import Idealize.ShloMosaic.Lib.ValueIdx

noncomputable section

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # Layer 2's two dense projections (128 → 64) of the batch-normalised activations: the result arrays after the region

The grid has ten points; point `t` works on rows `5000 t … 5000 t + 4999`. The activations and the two results are
blocked by rows, every other operand is one block, the same at every point. So what point `t` writes back is the
block of rows `5000 t …` of one function of the whole operand arrays, and the ten blocks cover the 50000 rows. -/

/-- Row `p` of the block of 5000 rows that grid point `t` (of ten) works on is row `5000 t + p` of the 50000. -/
def rowAt4 {n : ℕ} (hn : n = 10) (t : Fin n) (p : Fin 5000) : Fin 50000 :=
  ⟨5000 * t.val + p.val, by have := t.isLt; have := p.isLt; omega⟩

/-- Window 0's block index at each of the ten grid points (blocked by rows: block `t`). -/
theorem idx4_0 : ∀ t : Fin cfg4.N, win4_0.index t (0 : Fin 2) = t.val ∧ win4_0.index t (1 : Fin 2) = 0 :=
  (by decide +kernel : ∀ t : Fin grid4.N, _)

/-- Window 1's block index at each of the ten grid points (one block). -/
theorem idx4_1 : ∀ t : Fin cfg4.N, win4_1.index t (0 : Fin 2) = 0 ∧ win4_1.index t (1 : Fin 2) = 0 :=
  (by decide +kernel : ∀ t : Fin grid4.N, _)

/-- Window 2's block index at each of the ten grid points (one block). -/
theorem idx4_2 : ∀ t : Fin cfg4.N, win4_2.index t (0 : Fin 2) = 0 ∧ win4_2.index t (1 : Fin 2) = 0 :=
  (by decide +kernel : ∀ t : Fin grid4.N, _)

/-- Window 3's block index at each of the ten grid points (one block). -/
theorem idx4_3 : ∀ t : Fin cfg4.N, win4_3.index t (0 : Fin 2) = 0 ∧ win4_3.index t (1 : Fin 2) = 0 :=
  (by decide +kernel : ∀ t : Fin grid4.N, _)

/-- Window 4's block index at each of the ten grid points (one block). -/
theorem idx4_4 : ∀ t : Fin cfg4.N, win4_4.index t (0 : Fin 2) = 0 ∧ win4_4.index t (1 : Fin 2) = 0 :=
  (by decide +kernel : ∀ t : Fin grid4.N, _)

/-- Window 5's block index at each of the ten grid points (one block). -/
theorem idx4_5 : ∀ t : Fin cfg4.N, win4_5.index t (0 : Fin 2) = 0 ∧ win4_5.index t (1 : Fin 2) = 0 :=
  (by decide +kernel : ∀ t : Fin grid4.N, _)

/-- Window 6's block index at each of the ten grid points (one block). -/
theorem idx4_6 : ∀ t : Fin cfg4.N, win4_6.index t (0 : Fin 2) = 0 ∧ win4_6.index t (1 : Fin 2) = 0 :=
  (by decide +kernel : ∀ t : Fin grid4.N, _)

/-- Window 7's block index at each of the ten grid points (one block). -/
theorem idx4_7 : ∀ t : Fin cfg4.N, win4_7.index t (0 : Fin 2) = 0 ∧ win4_7.index t (1 : Fin 2) = 0 :=
  (by decide +kernel : ∀ t : Fin grid4.N, _)

/-- Window 8's block index at each of the ten grid points (one block). -/
theorem idx4_8 : ∀ t : Fin cfg4.N, win4_8.index t (0 : Fin 2) = 0 ∧ win4_8.index t (1 : Fin 2) = 0 :=
  (by decide +kernel : ∀ t : Fin grid4.N, _)

/-- Window 9's block index at each of the ten grid points (blocked by rows: block `t`). -/
theorem idx4_9 : ∀ t : Fin cfg4.N, win4_9.index t (0 : Fin 2) = t.val ∧ win4_9.index t (1 : Fin 2) = 0 :=
  (by decide +kernel : ∀ t : Fin grid4.N, _)

/-- Window 10's block index at each of the ten grid points (blocked by rows: block `t`). -/
theorem idx4_10 : ∀ t : Fin cfg4.N, win4_10.index t (0 : Fin 2) = t.val ∧ win4_10.index t (1 : Fin 2) = 0 :=
  (by decide +kernel : ∀ t : Fin grid4.N, _)

/-- The activations' block at point `t` holds rows `5000 t …` of the array. -/
theorem blk4_0 (t : Fin cfg4.N) (p : Fin 5000) (k : Fin 128) :
    iblk4 V c 0 t (ix2 p k) = V c main_v46 (ix2 (rowAt4 N_4 t p) k) := by
  obtain ⟨e0, e1⟩ := idx4_0 t
  show V c main_v46 (((cfg4.win 0).blk t).view.emb (ix2 p k)) = V c main_v46 (ix2 (rowAt4 N_4 t p) k)
  refine congrArg (V c main_v46) ?_
  funext ax; apply Fin.ext
  match ax with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- Window 1's one block is its whole array. -/
theorem blk4_1 (t : Fin cfg4.N) (a : Fin 1) (b : Fin 128) :
    iblk4 V c 1 t (ix2 a b) = V c main_v61 (ix2 a b) := by
  obtain ⟨e0, e1⟩ := idx4_1 t
  show V c main_v61 (((cfg4.win 1).blk t).view.emb (ix2 a b)) = V c main_v61 (ix2 a b)
  refine congrArg (V c main_v61) ?_
  funext ax; apply Fin.ext
  match ax with
  | ⟨0, _⟩ => show win4_1.index t (0 : Fin 2) * 1 + 1 * a.val = a.val; rw [e0]; omega
  | ⟨1, _⟩ => show win4_1.index t (1 : Fin 2) * 128 + 1 * b.val = b.val; rw [e1]; omega

/-- Window 2's one block is its whole array. -/
theorem blk4_2 (t : Fin cfg4.N) (a : Fin 1) (b : Fin 128) :
    iblk4 V c 2 t (ix2 a b) = V c main_v62 (ix2 a b) := by
  obtain ⟨e0, e1⟩ := idx4_2 t
  show V c main_v62 (((cfg4.win 2).blk t).view.emb (ix2 a b)) = V c main_v62 (ix2 a b)
  refine congrArg (V c main_v62) ?_
  funext ax; apply Fin.ext
  match ax with
  | ⟨0, _⟩ => show win4_2.index t (0 : Fin 2) * 1 + 1 * a.val = a.val; rw [e0]; omega
  | ⟨1, _⟩ => show win4_2.index t (1 : Fin 2) * 128 + 1 * b.val = b.val; rw [e1]; omega

/-- Window 3's one block is its whole array. -/
theorem blk4_3 (t : Fin cfg4.N) (a : Fin 1) (b : Fin 128) :
    iblk4 V c 3 t (ix2 a b) = V c main_v63 (ix2 a b) := by
  obtain ⟨e0, e1⟩ := idx4_3 t
  show V c main_v63 (((cfg4.win 3).blk t).view.emb (ix2 a b)) = V c main_v63 (ix2 a b)
  refine congrArg (V c main_v63) ?_
  funext ax; apply Fin.ext
  match ax with
  | ⟨0, _⟩ => show win4_3.index t (0 : Fin 2) * 1 + 1 * a.val = a.val; rw [e0]; omega
  | ⟨1, _⟩ => show win4_3.index t (1 : Fin 2) * 128 + 1 * b.val = b.val; rw [e1]; omega

/-- Window 4's one block is its whole array. -/
theorem blk4_4 (t : Fin cfg4.N) (a : Fin 1) (b : Fin 128) :
    iblk4 V c 4 t (ix2 a b) = V c main_v64 (ix2 a b) := by
  obtain ⟨e0, e1⟩ := idx4_4 t
  show V c main_v64 (((cfg4.win 4).blk t).view.emb (ix2 a b)) = V c main_v64 (ix2 a b)
  refine congrArg (V c main_v64) ?_
  funext ax; apply Fin.ext
  match ax with
  | ⟨0, _⟩ => show win4_4.index t (0 : Fin 2) * 1 + 1 * a.val = a.val; rw [e0]; omega
  | ⟨1, _⟩ => show win4_4.index t (1 : Fin 2) * 128 + 1 * b.val = b.val; rw [e1]; omega

/-- Window 5's one block is its whole array. -/
theorem blk4_5 (t : Fin cfg4.N) (a : Fin 128) (b : Fin 64) :
    iblk4 V c 5 t (ix2 a b) = V c main_v57 (ix2 a b) := by
  obtain ⟨e0, e1⟩ := idx4_5 t
  show V c main_v57 (((cfg4.win 5).blk t).view.emb (ix2 a b)) = V c main_v57 (ix2 a b)
  refine congrArg (V c main_v57) ?_
  funext ax; apply Fin.ext
  match ax with
  | ⟨0, _⟩ => show win4_5.index t (0 : Fin 2) * 128 + 1 * a.val = a.val; rw [e0]; omega
  | ⟨1, _⟩ => show win4_5.index t (1 : Fin 2) * 64 + 1 * b.val = b.val; rw [e1]; omega

/-- Window 6's one block is its whole array. -/
theorem blk4_6 (t : Fin cfg4.N) (a : Fin 1) (b : Fin 64) :
    iblk4 V c 6 t (ix2 a b) = V c main_v59 (ix2 a b) := by
  obtain ⟨e0, e1⟩ := idx4_6 t
  show V c main_v59 (((cfg4.win 6).blk t).view.emb (ix2 a b)) = V c main_v59 (ix2 a b)
  refine congrArg (V c main_v59) ?_
  funext ax; apply Fin.ext
  match ax with
  | ⟨0, _⟩ => show win4_6.index t (0 : Fin 2) * 1 + 1 * a.val = a.val; rw [e0]; omega
  | ⟨1, _⟩ => show win4_6.index t (1 : Fin 2) * 64 + 1 * b.val = b.val; rw [e1]; omega

/-- Window 7's one block is its whole array. -/
theorem blk4_7 (t : Fin cfg4.N) (a : Fin 128) (b : Fin 64) :
    iblk4 V c 7 t (ix2 a b) = V c main_v58 (ix2 a b) := by
  obtain ⟨e0, e1⟩ := idx4_7 t
  show V c main_v58 (((cfg4.win 7).blk t).view.emb (ix2 a b)) = V c main_v58 (ix2 a b)
  refine congrArg (V c main_v58) ?_
  funext ax; apply Fin.ext
  match ax with
  | ⟨0, _⟩ => show win4_7.index t (0 : Fin 2) * 128 + 1 * a.val = a.val; rw [e0]; omega
  | ⟨1, _⟩ => show win4_7.index t (1 : Fin 2) * 64 + 1 * b.val = b.val; rw [e1]; omega

/-- Window 8's one block is its whole array. -/
theorem blk4_8 (t : Fin cfg4.N) (a : Fin 1) (b : Fin 64) :
    iblk4 V c 8 t (ix2 a b) = V c main_v60 (ix2 a b) := by
  obtain ⟨e0, e1⟩ := idx4_8 t
  show V c main_v60 (((cfg4.win 8).blk t).view.emb (ix2 a b)) = V c main_v60 (ix2 a b)
  refine congrArg (V c main_v60) ?_
  funext ax; apply Fin.ext
  match ax with
  | ⟨0, _⟩ => show win4_8.index t (0 : Fin 2) * 1 + 1 * a.val = a.val; rw [e0]; omega
  | ⟨1, _⟩ => show win4_8.index t (1 : Fin 2) * 64 + 1 * b.val = b.val; rw [e1]; omega

/-! ## Result window 9 -/

/-- An entry of the result's block at point `t` sits at row `5000 t + p`. -/
theorem emb4_9 (t : Fin cfg4.N) (p : Fin 5000) (q : Fin 64) :
    ((cfg4.win 9).blk t).view.emb (ix2 p q) = (ix2 (rowAt4 N_4 t p) q : Cert.Spec.SN64.Idx) := by
  obtain ⟨e0, e1⟩ := idx4_9 t
  funext ax; apply Fin.ext
  match ax with
  | ⟨0, _⟩ => show win4_9.index t (0 : Fin 2) * 5000 + 1 * p.val = 5000 * t.val + p.val; rw [e0]; omega
  | ⟨1, _⟩ => show win4_9.index t (1 : Fin 2) * 64 + 1 * q.val = q.val; rw [e1]; omega

/-- What point `t` writes back is block `t` of the dense layer of the whole operand arrays. -/
theorem flushed4_9_eq (t : Fin cfg4.N) :
    (dat4 (F := Ideal) V c).flushed 9 t = ((cfg4.win 9).blk t).view.read (Elt Ideal) (Cert.Spec.linT64 (Cert.Spec.bnT (V c main_v46) (V c main_v61) (V c main_v62) (V c main_v63) (V c main_v64)) (V c main_v57) (V c main_v59)) := by
  show (cfg4.win 9).cut (grid4.coords t) ((dat4 V c).after 9 t) = _
  rw [after4_9]
  unfold out4_9
  rw [View.canon_unit_zero zeros2]
  simp only [View.ld_unit_zero (S := S5000x128) zeros2, View.ld_unit_zero (S := S128x64) zeros2, View.ld_unit_zero (S := S1x128) zeros2, View.ld_unit_zero (S := S1x64) zeros2]
  refine funext fun (j : S5000x64.Idx) => ?_
  obtain ⟨p, q, rfl⟩ : ∃ (p : Fin 5000) (q : Fin 64), j = ix2 p q := ⟨j 0, j 1, eq_ix2 j⟩
  show k4_pay2 (iblk4 V c 0 t) (iblk4 V c 1 t) (iblk4 V c 2 t) (iblk4 V c 3 t) (iblk4 V c 4 t) (iblk4 V c 5 t) (iblk4 V c 6 t) (ix2 p q)
    = (Cert.Spec.linT64 (Cert.Spec.bnT (V c main_v46) (V c main_v61) (V c main_v62) (V c main_v63) (V c main_v64)) (V c main_v57) (V c main_v59)) (((cfg4.win 9).blk t).view.emb (ix2 p q))
  rw [emb4_9 t p q]
  refine (k4_pay2_apply (iblk4 V c 0 t) (iblk4 V c 1 t) (iblk4 V c 2 t) (iblk4 V c 3 t) (iblk4 V c 4 t) (iblk4 V c 5 t) (iblk4 V c 6 t) p q).trans ?_
  simp only [blk4_0 V c t, blk4_1 V c t, blk4_2 V c t, blk4_3 V c t, blk4_4 V c t, blk4_5 V c t, blk4_6 V c t]
  rfl

/-- An index of the array is in point `t`'s block iff each coordinate is in the block's range on its axis. -/
theorem mem_blk4_9 (t : Fin cfg4.N) (i : S50000x64.Idx) :
    i ∈ ((cfg4.win 9).blk t).view.set ↔ ∀ a : Fin 2, win4_9.index t a * S5000x64.size a ≤ (i a).val ∧ (i a).val < win4_9.index t a * S5000x64.size a + S5000x64.size a := by
  show i ∈ ((View.whole main_v65_0).slice (win4_9.rect t)).set ↔ _
  rw [View.set_slice_whole, Rect.mem_set_unit]
  exact Iff.rfl

/-- Row `r` is in the block of point `r / 5000`. -/
theorem rows_cover4_9 (i : S50000x64.Idx) :
    ∃ t : Fin cfg4.N, (cfg4.win 9).flush t = true ∧ i ∈ ((cfg4.win 9).blk t).view.set := by
  have hi0 : (i 0).val < 50000 := (i 0).isLt
  have hi1 : (i 1).val < 64 := (i 1).isLt
  have hN : cfg4.N = 10 := N_4
  refine ⟨⟨(i 0).val / 5000, by rw [hN]; omega⟩, flush4_9 _, ?_⟩
  rw [mem_blk4_9]
  obtain ⟨e0, e1⟩ := idx4_9 ⟨(i 0).val / 5000, by rw [hN]; omega⟩
  intro a
  match a with
  | ⟨0, _⟩ =>
    show win4_9.index _ (0 : Fin 2) * 5000 ≤ (i 0).val ∧ (i 0).val < win4_9.index _ (0 : Fin 2) * 5000 + 5000
    rw [e0]; show (i 0).val / 5000 * 5000 ≤ (i 0).val ∧ (i 0).val < (i 0).val / 5000 * 5000 + 5000; omega
  | ⟨1, _⟩ =>
    show win4_9.index _ (1 : Fin 2) * 64 ≤ (i 1).val ∧ (i 1).val < win4_9.index _ (1 : Fin 2) * 64 + 64
    rw [e1]; omega

/-- The result array after the region: the dense layer of the operand arrays as the region finds them. -/
theorem final4_9 : (dat4 (F := Ideal) V c).arrAt 9 cfg4.N = Cert.Spec.linT64 (Cert.Spec.bnT (V c main_v46) (V c main_v61) (V c main_v62) (V c main_v63) (V c main_v64)) (V c main_v57) (V c main_v59) :=
  (dat4 V c).arrAt_eq_of_cover 9 (Cert.Spec.linT64 (Cert.Spec.bnT (V c main_v46) (V c main_v61) (V c main_v62) (V c main_v63) (V c main_v64)) (V c main_v57) (V c main_v59)) (fun t _ => flushed4_9_eq V c t) rows_cover4_9

/-! ## Result window 10 -/

/-- An entry of the result's block at point `t` sits at row `5000 t + p`. -/
theorem emb4_10 (t : Fin cfg4.N) (p : Fin 5000) (q : Fin 64) :
    ((cfg4.win 10).blk t).view.emb (ix2 p q) = (ix2 (rowAt4 N_4 t p) q : Cert.Spec.SN64.Idx) := by
  obtain ⟨e0, e1⟩ := idx4_10 t
  funext ax; apply Fin.ext
  match ax with
  | ⟨0, _⟩ => show win4_10.index t (0 : Fin 2) * 5000 + 1 * p.val = 5000 * t.val + p.val; rw [e0]; omega
  | ⟨1, _⟩ => show win4_10.index t (1 : Fin 2) * 64 + 1 * q.val = q.val; rw [e1]; omega

/-- What point `t` writes back is block `t` of the dense layer of the whole operand arrays. -/
theorem flushed4_10_eq (t : Fin cfg4.N) :
    (dat4 (F := Ideal) V c).flushed 10 t = ((cfg4.win 10).blk t).view.read (Elt Ideal) (Cert.Spec.linT64 (Cert.Spec.bnT (V c main_v46) (V c main_v61) (V c main_v62) (V c main_v63) (V c main_v64)) (V c main_v58) (V c main_v60)) := by
  show (cfg4.win 10).cut (grid4.coords t) ((dat4 V c).after 10 t) = _
  rw [after4_10]
  unfold out4_10
  rw [View.canon_unit_zero zeros2]
  simp only [View.ld_unit_zero (S := S5000x128) zeros2, View.ld_unit_zero (S := S128x64) zeros2, View.ld_unit_zero (S := S1x128) zeros2, View.ld_unit_zero (S := S1x64) zeros2]
  refine funext fun (j : S5000x64.Idx) => ?_
  obtain ⟨p, q, rfl⟩ : ∃ (p : Fin 5000) (q : Fin 64), j = ix2 p q := ⟨j 0, j 1, eq_ix2 j⟩
  show k4_pay3 (iblk4 V c 0 t) (iblk4 V c 1 t) (iblk4 V c 2 t) (iblk4 V c 3 t) (iblk4 V c 4 t) (iblk4 V c 7 t) (iblk4 V c 8 t) (ix2 p q)
    = (Cert.Spec.linT64 (Cert.Spec.bnT (V c main_v46) (V c main_v61) (V c main_v62) (V c main_v63) (V c main_v64)) (V c main_v58) (V c main_v60)) (((cfg4.win 10).blk t).view.emb (ix2 p q))
  rw [emb4_10 t p q]
  refine (k4_pay3_apply (iblk4 V c 0 t) (iblk4 V c 1 t) (iblk4 V c 2 t) (iblk4 V c 3 t) (iblk4 V c 4 t) (iblk4 V c 7 t) (iblk4 V c 8 t) p q).trans ?_
  simp only [blk4_0 V c t, blk4_1 V c t, blk4_2 V c t, blk4_3 V c t, blk4_4 V c t, blk4_7 V c t, blk4_8 V c t]
  rfl

/-- An index of the array is in point `t`'s block iff each coordinate is in the block's range on its axis. -/
theorem mem_blk4_10 (t : Fin cfg4.N) (i : S50000x64.Idx) :
    i ∈ ((cfg4.win 10).blk t).view.set ↔ ∀ a : Fin 2, win4_10.index t a * S5000x64.size a ≤ (i a).val ∧ (i a).val < win4_10.index t a * S5000x64.size a + S5000x64.size a := by
  show i ∈ ((View.whole main_v65_1).slice (win4_10.rect t)).set ↔ _
  rw [View.set_slice_whole, Rect.mem_set_unit]
  exact Iff.rfl

/-- Row `r` is in the block of point `r / 5000`. -/
theorem rows_cover4_10 (i : S50000x64.Idx) :
    ∃ t : Fin cfg4.N, (cfg4.win 10).flush t = true ∧ i ∈ ((cfg4.win 10).blk t).view.set := by
  have hi0 : (i 0).val < 50000 := (i 0).isLt
  have hi1 : (i 1).val < 64 := (i 1).isLt
  have hN : cfg4.N = 10 := N_4
  refine ⟨⟨(i 0).val / 5000, by rw [hN]; omega⟩, flush4_10 _, ?_⟩
  rw [mem_blk4_10]
  obtain ⟨e0, e1⟩ := idx4_10 ⟨(i 0).val / 5000, by rw [hN]; omega⟩
  intro a
  match a with
  | ⟨0, _⟩ =>
    show win4_10.index _ (0 : Fin 2) * 5000 ≤ (i 0).val ∧ (i 0).val < win4_10.index _ (0 : Fin 2) * 5000 + 5000
    rw [e0]; show (i 0).val / 5000 * 5000 ≤ (i 0).val ∧ (i 0).val < (i 0).val / 5000 * 5000 + 5000; omega
  | ⟨1, _⟩ =>
    show win4_10.index _ (1 : Fin 2) * 64 ≤ (i 1).val ∧ (i 1).val < win4_10.index _ (1 : Fin 2) * 64 + 64
    rw [e1]; omega

/-- The result array after the region: the dense layer of the operand arrays as the region finds them. -/
theorem final4_10 : (dat4 (F := Ideal) V c).arrAt 10 cfg4.N = Cert.Spec.linT64 (Cert.Spec.bnT (V c main_v46) (V c main_v61) (V c main_v62) (V c main_v63) (V c main_v64)) (V c main_v58) (V c main_v60) :=
  (dat4 V c).arrAt_eq_of_cover 10 (Cert.Spec.linT64 (Cert.Spec.bnT (V c main_v46) (V c main_v61) (V c main_v62) (V c main_v63) (V c main_v64)) (V c main_v58) (V c main_v60)) (fun t _ => flushed4_10_eq V c t) rows_cover4_10

end Cert.KernelIdeal.LinearValue

end
-- ==== Proof.CombineValue.lean ====
/-
  The three "combine" regions of the blocked program, as whole-array values.

  Each region walks the 50000 rows in ten blocks of 5000 rows; at a block it holds the aggregate's rows, the
  count's rows (a column) and the root term's rows, and leaves `agg / cnt + xr` entry by entry. Read over the
  whole array that is `Cert.Spec.combT128` (`combT64` for the last layer) of the three arrays the region finds.
  The last region also leaves the row-wise log-softmax of that result.
-/
import proofs.«139878_j75204877353213_2_alg».proof.Proof.Gen.KernelIdeal.Frame
import proofs.«139878_j75204877353213_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CombineValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Layout: a column against a matrix -/

/-- The zero offsets of a rank-2 rectangle, however spelt. -/
theorem zero_off : (![0, 0] : Fin 2 → Nat) = fun _ => 0 := funext fun a => by fin_cases a <;> rfl

/-- An `[a, 1]` column broadcast to `[a, b]` reads, at `(p, q)`, the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The exponential of a vector at an index is the exponential of the element. -/
theorem exp_apply {s : Shape} {φ : FTy} (x : FVec Ideal s φ) (i : s.Idx) : exp x i = Ideal.exp (x i) := rfl
/-- The logarithm of a vector at an index is the logarithm of the element. -/
theorem log_apply {s : Shape} {φ : FTy} (x : FVec Ideal s φ) (i : s.Idx) : log x i = Ideal.log (x i) := rfl

/-! ## Region 1: `agg / cnt + xr` over 128 features -/

/-- The body's arithmetic at row `p`, feature `q` of a block. -/
theorem k1_pay1_apply (x0 : Vec Ideal S5000x128 .f32) (x1 : Vec Ideal S5000x1 .f32) (x2 : Vec Ideal S5000x128 .f32)
    (p : Fin 5000) (q : Fin 128) :
    k1_pay1 x0 x1 x2 (ix2 p q) = Ideal.div (x0 (ix2 p q)) (x1 (ix2 p (0 : Fin 1))) + x2 (ix2 p q) := by
  unfold k1_pay1
  simp only [shapeCast_self]
  show Ideal.div (x0 (ix2 p q)) (broadcastTo S5000x128 x1 broadcasts_S5000x1_S5000x128 (ix2 p q)) + x2 (ix2 p q) = _
  rw [broadcastTo_a1_ab_apply]

/-- What the body leaves in the output block, at row `p`, feature `q`. -/
theorem out1_3_apply (x0 : Vec Ideal S5000x128 .f32) (x1 : Vec Ideal S5000x1 .f32) (x2 : Vec Ideal S5000x128 .f32)
    (p : Fin 5000) (q : Fin 128) :
    out1_3 x0 x1 x2 (ix2 p q) = Ideal.div (x0 (ix2 p q)) (x1 (ix2 p (0 : Fin 1))) + x2 (ix2 p q) := by
  unfold out1_3
  rw [View.canon_unit_zero zero_off]
  simp only [View.ld_unit_zero (S := S5000x128) zero_off, View.ld_unit_zero (S := S5000x1) zero_off]
  exact k1_pay1_apply x0 x1 x2 p q

/-- The printed index maps over the ten points: block `t` of every window starts at row block `t`, column block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b)) (c : Dev nD)

/-- Row `p`, feature `q` of the output's block at point `t` is row `5000 t + p` of the array. -/
theorem emb1_3 (t : Fin cfg1.N) (p : Fin 5000) (q : Fin 128) (r : Fin 50000) (hr : r.val = t.val * 5000 + p.val) :
    ((cfg1.win 3).blk t).view.emb (ix2 p q) = (ix2 r q : S50000x128.Idx) := by
  obtain ⟨-, -, -, -, -, -, e0, e1⟩ := idx_facts1 t
  funext a; apply Fin.ext
  match a with
  | ⟨0, _⟩ => show win1_3.index t (0 : Fin 2) * 5000 + 1 * p.val = r.val; rw [e0, hr]; omega
  | ⟨1, _⟩ => show win1_3.index t (1 : Fin 2) * 128 + 1 * q.val = q.val; rw [e1]; omega

/-- The aggregate's block at point `t` is rows `5000 t …` of its array. -/
theorem iblk1_0_apply (t : Fin cfg1.N) (p : Fin 5000) (q : Fin 128) (r : Fin 50000) (hr : r.val = t.val * 5000 + p.val) :
    (iblk1 V c 0 t : Vec Ideal S5000x128 .f32) (ix2 p q) = (V c main_v19 : S50000x128.Idx → EReal) (ix2 r q) := by
  obtain ⟨e0, e1, -⟩ := idx_facts1 t
  show (V c main_v19 : S50000x128.Idx → EReal) (((cfg1.win 0).blk t).view.emb (ix2 p q)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- The count's block at point `t` is rows `5000 t …` of its column. -/
theorem iblk1_1_apply (t : Fin cfg1.N) (p : Fin 5000) (r : Fin 50000) (hr : r.val = t.val * 5000 + p.val) :
    (iblk1 V c 1 t : Vec Ideal S5000x1 .f32) (ix2 p (0 : Fin 1)) = (V c main_v20 : S50000x1.Idx → EReal) (ix2 r (0 : Fin 1)) := by
  obtain ⟨-, -, e0, e1, -⟩ := idx_facts1 t
  show (V c main_v20 : S50000x1.Idx → EReal) (((cfg1.win 1).blk t).view.emb (ix2 p (0 : Fin 1))) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 1 + 1 * 0 = 0; rw [e1]

/-- The root term's block at point `t` is rows `5000 t …` of its array. -/
theorem iblk1_2_apply (t : Fin cfg1.N) (p : Fin 5000) (q : Fin 128) (r : Fin 50000) (hr : r.val = t.val * 5000 + p.val) :
    (iblk1 V c 2 t : Vec Ideal S5000x128 .f32) (ix2 p q) = (V c main_v15_1 : S50000x128.Idx → EReal) (ix2 r q) := by
  obtain ⟨-, -, -, -, e0, e1, -⟩ := idx_facts1 t
  show (V c main_v15_1 : S50000x128.Idx → EReal) (((cfg1.win 2).blk t).view.emb (ix2 p q)) = _
  refine congrArg _ (funext fun a => Fin.ext ?_)
  match a with
  | ⟨0, _⟩ => show win1_2.index t (0 : Fin 2) * 5000 + 1 * p.val = r.val; rw [e0, hr]; omega
  | ⟨1, _⟩ => show win1_2.index t (1 : Fin 2) * 128 + 1 * q.val = q.val; rw [e1]; omega

/-- What point `t` writes back is block `t` of `agg / cnt + xr` of the arrays the region finds. -/
theorem flushed1_3_eq (t : Fin cfg1.N) :
    (dat1 (F := Ideal) V c).flushed 3 t
      = ((cfg1.win 3).blk t).view.read (Elt Ideal) (Cert.Spec.combT128 (V c main_v19) (V c main_v20) (V c main_v15_1)) := by
  show (cfg1.win 3).cut (grid1.coords t) ((dat1 V c).after 3 t) = _
  rw [after1_3]
  funext j
  obtain ⟨p, q, rfl⟩ : ∃ (p : Fin 5000) (q : Fin 128), j = ix2 p q := ⟨j 0, j 1, eq_ix2 j⟩
  have ht : t.val < 10 := lt_of_lt_of_eq t.isLt N_1
  have hr : t.val * 5000 + p.val < 50000 := by have := p.isLt; omega
  show out1_3 (iblk1 V c 0 t) (iblk1 V c 1 t) (iblk1 V c 2 t) (ix2 p q)
    = Cert.Spec.combT128 (V c main_v19) (V c main_v20) (V c main_v15_1) (((cfg1.win 3).blk t).view.emb (ix2 p q))
  refine (out1_3_apply (iblk1 V c 0 t) (iblk1 V c 1 t) (iblk1 V c 2 t) p q).trans ?_
  rw [emb1_3 t p q ⟨_, hr⟩ rfl, Cert.Spec.combT128_apply, iblk1_0_apply V c t p q ⟨_, hr⟩ rfl,
    iblk1_1_apply V c t p ⟨_, hr⟩ rfl, iblk1_2_apply V c t p q ⟨_, hr⟩ rfl]

/-- An index of the array is in point `t`'s block iff each coordinate is in the block's range on its axis. -/
theorem mem_blk1_3 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v21).slice (win1_3.rect t)).set ↔ _
  rw [View.set_slice_whole, Rect.mem_set_unit]
  exact Iff.rfl

/-- Row `r` is in the block of point `r / 5000`: the ten blocks cover the array. -/
theorem covered1_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_3 _, ?_⟩
  rw [mem_blk1_3]
  obtain ⟨-, -, -, -, -, -, e0, e1⟩ := idx_facts1 ⟨(i 0).val / 5000, ht⟩
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-- REGION 1's output array: `agg / cnt + xr` of the three arrays the region finds, entry by entry. -/
theorem final1_3 : (dat1 (F := Ideal) V c).arrAt 3 cfg1.N
    = Cert.Spec.combT128 (V c main_v19) (V c main_v20) (V c main_v15_1) :=
  (dat1 (F := Ideal) V c).arrAt_eq_of_cover 3 _ (fun t _ => flushed1_3_eq V c t) covered1_3

/-! ## Region 5: `agg / cnt + xr` over 64 features, and its row-wise log-softmax -/

/-- The body's first result at row `p`, feature `q` of a block. -/
theorem k5_pay1_apply (x0 : Vec Ideal S5000x64 .f32) (x1 : Vec Ideal S5000x1 .f32) (x2 : Vec Ideal S5000x64 .f32)
    (p : Fin 5000) (q : Fin 64) :
    k5_pay1 x0 x1 x2 (ix2 p q) = Ideal.div (x0 (ix2 p q)) (x1 (ix2 p (0 : Fin 1))) + x2 (ix2 p q) := by
  unfold k5_pay1
  simp only [shapeCast_self]
  show Ideal.div (x0 (ix2 p q)) (broadcastTo S5000x64 x1 broadcasts_S5000x1_S5000x64 (ix2 p q)) + x2 (ix2 p q) = _
  rw [broadcastTo_a1_ab_apply]

/-- The word the row maximum starts from is `-∞`. -/
theorem ofBits_neg_inf : Ideal.ofBits .f32 0xFF800000#32 = (⊥ : EReal) := by simp [Ideal.ofBits, Ideal.ieee]

/-- Over row `p` of a `[5000, 64]` block, the index with lane `j` put back is `(p, j)`. -/
theorem lift_row (p : Fin 5000) (j : Fin 64) :
    reduces_S5000x64_S5000.lift (ix1 p) j = (ix2 p j : S5000x64.Idx) := by
  funext d; apply Fin.ext
  match d with
  | ⟨0, _⟩ => rfl
  | ⟨1, _⟩ => rfl

/-- A block's maximum along the lanes, at row `p`: the fold of `max` from `-∞` over the row. -/
theorem rowMax_block (h : FVec Ideal S5000x64 .f32) (hφ : FKind.Formats .f32)
    (hacc : (0xFF800000#32 : BitVec FTy.f32.bits) = 0xFF800000#32) (p : Fin 5000) :
    multiReduction .maximumf [1] S5000 h 0xFF800000#32 reduces_S5000x64_S5000 hφ hacc (ix1 p)
      = (Finset.univ : Finset (Fin 64)).fold max ⊥ (fun j => h (ix2 p j)) := by
  refine (Ideal.multiReduction_maximumf_single h 0xFF800000#32 reduces_S5000x64_S5000 hφ hacc (ix1 p)).trans ?_
  show (Finset.univ : Finset (Fin 64)).fold max (Ideal.ofBits .f32 0xFF800000#32)
    (fun j => h (reduces_S5000x64_S5000.lift (ix1 p) j)) = _
  rw [ofBits_neg_inf]
  exact congrArg (fun f => (Finset.univ : Finset (Fin 64)).fold max ⊥ f) (funext fun j => congrArg h (lift_row p j))

/-- A block's sum along the lanes, at row `p`: the sum over the row. -/
theorem rowSum_block (h : FVec Ideal S5000x64 .f32) (hφ : FKind.Formats .f32)
    (hacc : (0x00000000#32 : BitVec FTy.f32.bits) = 0x00000000#32) (p : Fin 5000) :
    multiReduction .add [1] S5000 h 0x00000000#32 reduces_S5000x64_S5000 hφ hacc (ix1 p) = ∑ j : Fin 64, h (ix2 p j) := by
  refine (Ideal.multiReduction_add_single h 0x00000000#32 reduces_S5000x64_S5000 hφ hacc (ix1 p)).trans ?_
  show ∑ j : Fin 64, h (reduces_S5000x64_S5000.lift (ix1 p) j) = _
  exact Finset.sum_congr rfl fun j _ => congrArg h (lift_row p j)

/-- The body's second result at row `p`, feature `q`: the log-softmax of the first result's row `p` (`g`). -/
theorem k5_pay2_apply (x0 : Vec Ideal S5000x64 .f32) (x1 : Vec Ideal S5000x1 .f32) (x2 : Vec Ideal S5000x64 .f32)
    (p : Fin 5000) (q : Fin 64) (g : Fin 64 → EReal) (hg : ∀ j, k5_pay1 x0 x1 x2 (ix2 p j) = g j) :
    k5_pay2 x0 x1 x2 (ix2 p q)
      = (g q - (Finset.univ : Finset (Fin 64)).fold max ⊥ g)
        - Ideal.log (∑ j : Fin 64, Ideal.exp (g j - (Finset.univ : Finset (Fin 64)).fold max ⊥ g)) := by
  unfold k5_pay2
  generalize k5_pay1 x0 x1 x2 = h at hg ⊢
  simp only [subf_apply, log_apply, broadcastTo_a1_ab_apply, shapeCast_a_a1_apply, hg]
  have hM : ∀ hφ hacc, multiReduction (F := Ideal) .maximumf [1] S5000 h 0xFF800000#32 reduces_S5000x64_S5000 hφ hacc (ix1 p)
      = (Finset.univ : Finset (Fin 64)).fold max ⊥ g := fun hφ hacc =>
    (rowMax_block h hφ hacc p).trans (congrArg (fun f => (Finset.univ : Finset (Fin 64)).fold max ⊥ f) (funext hg))
  refine congrArg₂ (· - ·) (congrArg (g q - ·) (hM _ _)) (congrArg Ideal.log ((rowSum_block _ _ _ p).trans
    (Finset.sum_congr rfl fun j _ => ?_)))
  show Ideal.exp (h (ix2 p j) - broadcastTo S5000x64 (shapeCast S5000x1 _ shapeCasts_S5000_S5000x1) broadcasts_S5000x1_S5000x64 (ix2 p j)) = _
  rw [broadcastTo_a1_ab_apply, shapeCast_a_a1_apply]
  exact congrArg Ideal.exp (congrArg₂ (· - ·) (hg j) (hM _ _))

/-- What the body leaves in the first output block, at row `p`, feature `q`. -/
theorem out5_3_apply (x0 : Vec Ideal S5000x64 .f32) (x1 : Vec Ideal S5000x1 .f32) (x2 : Vec Ideal S5000x64 .f32)
    (p : Fin 5000) (q : Fin 64) :
    out5_3 x0 x1 x2 (ix2 p q) = Ideal.div (x0 (ix2 p q)) (x1 (ix2 p (0 : Fin 1))) + x2 (ix2 p q) := by
  unfold out5_3
  rw [View.canon_unit_zero zero_off]
  simp only [View.ld_unit_zero (S := S5000x64) zero_off, View.ld_unit_zero (S := S5000x1) zero_off]
  exact k5_pay1_apply x0 x1 x2 p q

/-- What the body leaves in the second output block, at row `p`, feature `q`: the log-softmax of row `p` (`g`) of
    `agg / cnt + xr`. -/
theorem out5_4_apply (x0 : Vec Ideal S5000x64 .f32) (x1 : Vec Ideal S5000x1 .f32) (x2 : Vec Ideal S5000x64 .f32)
    (p : Fin 5000) (q : Fin 64) (g : Fin 64 → EReal)
    (hg : ∀ j, Ideal.div (x0 (ix2 p j)) (x1 (ix2 p (0 : Fin 1))) + x2 (ix2 p j) = g j) :
    out5_4 x0 x1 x2 (ix2 p q)
      = (g q - (Finset.univ : Finset (Fin 64)).fold max ⊥ g)
        - Ideal.log (∑ j : Fin 64, Ideal.exp (g j - (Finset.univ : Finset (Fin 64)).fold max ⊥ g)) := by
  unfold out5_4
  rw [View.canon_unit_zero zero_off]
  simp only [View.ld_unit_zero (S := S5000x64) zero_off, View.ld_unit_zero (S := S5000x1) zero_off]
  exact k5_pay2_apply x0 x1 x2 p q g fun j => (k5_pay1_apply x0 x1 x2 p j).trans (hg j)

/-- The printed index maps over the ten points: block `t` of every window starts at row block `t`, column block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- Row `p`, feature `q` of the first output's block at point `t` is row `5000 t + p` of the array. -/
theorem emb5_3 (t : Fin cfg5.N) (p : Fin 5000) (q : Fin 64) (r : Fin 50000) (hr : r.val = t.val * 5000 + p.val) :
    ((cfg5.win 3).blk t).view.emb (ix2 p q) = (ix2 r q : S50000x64.Idx) := by
  obtain ⟨-, -, -, -, -, -, e0, e1, -⟩ := idx_facts5 t
  funext a; apply Fin.ext
  match a with
  | ⟨0, _⟩ => show win5_3.index t (0 : Fin 2) * 5000 + 1 * p.val = r.val; rw [e0, hr]; omega
  | ⟨1, _⟩ => show win5_3.index t (1 : Fin 2) * 64 + 1 * q.val = q.val; rw [e1]; omega

/-- Row `p`, feature `q` of the second output's block at point `t` is row `5000 t + p` of the array. -/
theorem emb5_4 (t : Fin cfg5.N) (p : Fin 5000) (q : Fin 64) (r : Fin 50000) (hr : r.val = t.val * 5000 + p.val) :
    ((cfg5.win 4).blk t).view.emb (ix2 p q) = (ix2 r q : S50000x64.Idx) := by
  obtain ⟨-, -, -, -, -, -, -, -, e0, e1⟩ := idx_facts5 t
  funext a; apply Fin.ext
  match a with
  | ⟨0, _⟩ => show win5_4.index t (0 : Fin 2) * 5000 + 1 * p.val = r.val; rw [e0, hr]; omega
  | ⟨1, _⟩ => show win5_4.index t (1 : Fin 2) * 64 + 1 * q.val = q.val; rw [e1]; omega

/-- The aggregate's block at point `t` is rows `5000 t …` of its array. -/
theorem iblk5_0_apply (t : Fin cfg5.N) (p : Fin 5000) (q : Fin 64) (r : Fin 50000) (hr : r.val = t.val * 5000 + p.val) :
    (iblk5 V c 0 t : Vec Ideal S5000x64 .f32) (ix2 p q) = (V c main_v69 : S50000x64.Idx → EReal) (ix2 r q) := by
  obtain ⟨e0, e1, -⟩ := idx_facts5 t
  show (V c main_v69 : S50000x64.Idx → EReal) (((cfg5.win 0).blk t).view.emb (ix2 p q)) = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 64 + 1 * q.val = q.val; rw [e1]; omega

/-- The count's block at point `t` is rows `5000 t …` of its column. -/
theorem iblk5_1_apply (t : Fin cfg5.N) (p : Fin 5000) (r : Fin 50000) (hr : r.val = t.val * 5000 + p.val) :
    (iblk5 V c 1 t : Vec Ideal S5000x1 .f32) (ix2 p (0 : Fin 1)) = (V c main_v70 : S50000x1.Idx → EReal) (ix2 r (0 : Fin 1)) := by
  obtain ⟨-, -, e0, e1, -⟩ := idx_facts5 t
  show (V c main_v70 : S50000x1.Idx → EReal) (((cfg5.win 1).blk t).view.emb (ix2 p (0 : Fin 1))) = _
  refine congrArg _ (funext fun a => Fin.ext ?_)
  match a with
  | ⟨0, _⟩ => show win5_1.index t (0 : Fin 2) * 5000 + 1 * p.val = r.val; rw [e0, hr]; omega
  | ⟨1, _⟩ => show win5_1.index t (1 : Fin 2) * 1 + 1 * 0 = 0; rw [e1]

/-- The root term's block at point `t` is rows `5000 t …` of its array. -/
theorem iblk5_2_apply (t : Fin cfg5.N) (p : Fin 5000) (q : Fin 64) (r : Fin 50000) (hr : r.val = t.val * 5000 + p.val) :
    (iblk5 V c 2 t : Vec Ideal S5000x64 .f32) (ix2 p q) = (V c main_v65_1 : S50000x64.Idx → EReal) (ix2 r q) := by
  obtain ⟨-, -, -, -, e0, e1, -⟩ := idx_facts5 t
  show (V c main_v65_1 : S50000x64.Idx → EReal) (((cfg5.win 2).blk t).view.emb (ix2 p q)) = _
  refine congrArg _ (funext fun a => Fin.ext ?_)
  match a with
  | ⟨0, _⟩ => show win5_2.index t (0 : Fin 2) * 5000 + 1 * p.val = r.val; rw [e0, hr]; omega
  | ⟨1, _⟩ => show win5_2.index t (1 : Fin 2) * 64 + 1 * q.val = q.val; rw [e1]; omega

/-- At row `p`, feature `q` of point `t`'s blocks, `agg / cnt + xr` is the whole arrays' at row `5000 t + p`. -/
theorem comb5_block (t : Fin cfg5.N) (p : Fin 5000) (q : Fin 64) (r : Fin 50000) (hr : r.val = t.val * 5000 + p.val) :
    Ideal.div ((iblk5 V c 0 t : Vec Ideal S5000x64 .f32) (ix2 p q)) ((iblk5 V c 1 t : Vec Ideal S5000x1 .f32) (ix2 p (0 : Fin 1)))
        + (iblk5 V c 2 t : Vec Ideal S5000x64 .f32) (ix2 p q)
      = Cert.Spec.combT64 (V c main_v69) (V c main_v70) (V c main_v65_1) (ix2 r q) := by
  rw [Cert.Spec.combT64_apply, iblk5_0_apply V c t p q r hr, iblk5_1_apply V c t p r hr, iblk5_2_apply V c t p q r hr]

/-- What point `t` writes back to the first output is block `t` of `agg / cnt + xr` of the arrays the region finds. -/
theorem flushed5_3_eq (t : Fin cfg5.N) :
    (dat5 (F := Ideal) V c).flushed 3 t
      = ((cfg5.win 3).blk t).view.read (Elt Ideal) (Cert.Spec.combT64 (V c main_v69) (V c main_v70) (V c main_v65_1)) := by
  show (cfg5.win 3).cut (grid5.coords t) ((dat5 V c).after 3 t) = _
  rw [after5_3]
  funext j
  obtain ⟨p, q, rfl⟩ : ∃ (p : Fin 5000) (q : Fin 64), j = ix2 p q := ⟨j 0, j 1, eq_ix2 j⟩
  have ht : t.val < 10 := lt_of_lt_of_eq t.isLt N_5
  have hr : t.val * 5000 + p.val < 50000 := by have := p.isLt; omega
  show out5_3 (iblk5 V c 0 t) (iblk5 V c 1 t) (iblk5 V c 2 t) (ix2 p q)
    = Cert.Spec.combT64 (V c main_v69) (V c main_v70) (V c main_v65_1) (((cfg5.win 3).blk t).view.emb (ix2 p q))
  refine (out5_3_apply (iblk5 V c 0 t) (iblk5 V c 1 t) (iblk5 V c 2 t) p q).trans ?_
  rw [emb5_3 t p q ⟨_, hr⟩ rfl]
  exact comb5_block V c t p q ⟨_, hr⟩ rfl

/-- What point `t` writes back to the second output is block `t` of the row-wise log-softmax of `agg / cnt + xr`. -/
theorem flushed5_4_eq (t : Fin cfg5.N) :
    (dat5 (F := Ideal) V c).flushed 4 t
      = ((cfg5.win 4).blk t).view.read (Elt Ideal)
          (Cert.Spec.lsm (Cert.Spec.combT64 (V c main_v69) (V c main_v70) (V c main_v65_1))) := by
  show (cfg5.win 4).cut (grid5.coords t) ((dat5 V c).after 4 t) = _
  rw [after5_4]
  funext j
  obtain ⟨p, q, rfl⟩ : ∃ (p : Fin 5000) (q : Fin 64), j = ix2 p q := ⟨j 0, j 1, eq_ix2 j⟩
  have ht : t.val < 10 := lt_of_lt_of_eq t.isLt N_5
  have hr : t.val * 5000 + p.val < 50000 := by have := p.isLt; omega
  show out5_4 (iblk5 V c 0 t) (iblk5 V c 1 t) (iblk5 V c 2 t) (ix2 p q)
    = Cert.Spec.lsm (Cert.Spec.combT64 (V c main_v69) (V c main_v70) (V c main_v65_1)) (((cfg5.win 4).blk t).view.emb (ix2 p q))
  refine (out5_4_apply (iblk5 V c 0 t) (iblk5 V c 1 t) (iblk5 V c 2 t) p q
    (fun j => Cert.Spec.combT64 (V c main_v69) (V c main_v70) (V c main_v65_1) (ix2 ⟨_, hr⟩ j))
    (fun j => comb5_block V c t p j ⟨_, hr⟩ rfl)).trans ?_
  rw [emb5_4 t p q ⟨_, hr⟩ rfl, Cert.Spec.lsm_apply]
  rfl

/-- An index of the array is in point `t`'s block of the first output iff each coordinate is in the block's range. -/
theorem mem_blk5_3 (t : Fin cfg5.N) (i : S50000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v71_0).slice (win5_3.rect t)).set ↔ _
  rw [View.set_slice_whole, Rect.mem_set_unit]
  exact Iff.rfl

/-- The same for the second output. -/
theorem mem_blk5_4 (t : Fin cfg5.N) (i : S50000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v71_1).slice (win5_4.rect t)).set ↔ _
  rw [View.set_slice_whole, Rect.mem_set_unit]
  exact Iff.rfl

/-- Row `r` is in the block of point `r / 5000`: the ten blocks cover the first output. -/
theorem covered5_3 (i : S50000x64.Idx) :
    ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  have ht : (i 0).val / 5000 < cfg5.N := by rw [hN]; omega
  refine ⟨⟨(i 0).val / 5000, ht⟩, flush5_3 _, ?_⟩
  rw [mem_blk5_3]
  obtain ⟨-, -, -, -, -, -, e0, e1, -⟩ := idx_facts5 ⟨(i 0).val / 5000, ht⟩
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_3.index ⟨(i 0).val / 5000, ht⟩ (1 : Fin 2) * 64 ≤ (i 1).val
      ∧ (i 1).val < win5_3.index ⟨(i 0).val / 5000, ht⟩ (1 : Fin 2) * 64 + 64
    rw [e1]; omega

/-- And the second. -/
theorem covered5_4 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  have ht : (i 0).val / 5000 < cfg5.N := by rw [hN]; omega
  refine ⟨⟨(i 0).val / 5000, ht⟩, flush5_4 _, ?_⟩
  rw [mem_blk5_4]
  obtain ⟨-, -, -, -, -, -, -, -, e0, e1⟩ := idx_facts5 ⟨(i 0).val / 5000, ht⟩
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ (1 : Fin 2) * 64 ≤ (i 1).val
      ∧ (i 1).val < win5_4.index ⟨(i 0).val / 5000, ht⟩ (1 : Fin 2) * 64 + 64
    rw [e1]; omega

/-- REGION 5's first output array: `agg / cnt + xr` of the three arrays the region finds, entry by entry. -/
theorem final5_3 : (dat5 (F := Ideal) V c).arrAt 3 cfg5.N
    = Cert.Spec.combT64 (V c main_v69) (V c main_v70) (V c main_v65_1) :=
  (dat5 (F := Ideal) V c).arrAt_eq_of_cover 3 _ (fun t _ => flushed5_3_eq V c t) covered5_3

/-- REGION 5's second output array: the row-wise log-softmax of the first. -/
theorem final5_4 : (dat5 (F := Ideal) V c).arrAt 4 cfg5.N
    = Cert.Spec.lsm (Cert.Spec.combT64 (V c main_v69) (V c main_v70) (V c main_v65_1)) :=
  (dat5 (F := Ideal) V c).arrAt_eq_of_cover 4 _ (fun t _ => flushed5_4_eq V c t) covered5_4

/-! ## Region 3: `agg / cnt + xr` over 128 features -/

/-- The body's arithmetic at row `p`, feature `q` of a block. -/
theorem k3_pay1_apply (x0 : Vec Ideal S5000x128 .f32) (x1 : Vec Ideal S5000x1 .f32) (x2 : Vec Ideal S5000x128 .f32)
    (p : Fin 5000) (q : Fin 128) :
    k3_pay1 x0 x1 x2 (ix2 p q) = Ideal.div (x0 (ix2 p q)) (x1 (ix2 p (0 : Fin 1))) + x2 (ix2 p q) := by
  unfold k3_pay1
  simp only [shapeCast_self]
  show Ideal.div (x0 (ix2 p q)) (broadcastTo S5000x128 x1 broadcasts_S5000x1_S5000x128 (ix2 p q)) + x2 (ix2 p q) = _
  rw [broadcastTo_a1_ab_apply]

/-- What the body leaves in the output block, at row `p`, feature `q`. -/
theorem out3_3_apply (x0 : Vec Ideal S5000x128 .f32) (x1 : Vec Ideal S5000x1 .f32) (x2 : Vec Ideal S5000x128 .f32)
    (p : Fin 5000) (q : Fin 128) :
    out3_3 x0 x1 x2 (ix2 p q) = Ideal.div (x0 (ix2 p q)) (x1 (ix2 p (0 : Fin 1))) + x2 (ix2 p q) := by
  unfold out3_3
  rw [View.canon_unit_zero zero_off]
  simp only [View.ld_unit_zero (S := S5000x128) zero_off, View.ld_unit_zero (S := S5000x1) zero_off]
  exact k3_pay1_apply x0 x1 x2 p q

/-- The printed index maps over the ten points: block `t` of every window starts at row block `t`, column block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p`, feature `q` of the output's block at point `t` is row `5000 t + p` of the array. -/
theorem emb3_3 (t : Fin cfg3.N) (p : Fin 5000) (q : Fin 128) (r : Fin 50000) (hr : r.val = t.val * 5000 + p.val) :
    ((cfg3.win 3).blk t).view.emb (ix2 p q) = (ix2 r q : S50000x128.Idx) := by
  obtain ⟨-, -, -, -, -, -, e0, e1⟩ := idx_facts3 t
  funext a; apply Fin.ext
  match a with
  | ⟨0, _⟩ => show win3_3.index t (0 : Fin 2) * 5000 + 1 * p.val = r.val; rw [e0, hr]; omega
  | ⟨1, _⟩ => show win3_3.index t (1 : Fin 2) * 128 + 1 * q.val = q.val; rw [e1]; omega

/-- The aggregate's block at point `t` is rows `5000 t …` of its array. -/
theorem iblk3_0_apply (t : Fin cfg3.N) (p : Fin 5000) (q : Fin 128) (r : Fin 50000) (hr : r.val = t.val * 5000 + p.val) :
    (iblk3 V c 0 t : Vec Ideal S5000x128 .f32) (ix2 p q) = (V c main_v44 : S50000x128.Idx → EReal) (ix2 r q) := by
  obtain ⟨e0, e1, -⟩ := idx_facts3 t
  show (V c main_v44 : S50000x128.Idx → EReal) (((cfg3.win 0).blk t).view.emb (ix2 p q)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

/-- The count's block at point `t` is rows `5000 t …` of its column. -/
theorem iblk3_1_apply (t : Fin cfg3.N) (p : Fin 5000) (r : Fin 50000) (hr : r.val = t.val * 5000 + p.val) :
    (iblk3 V c 1 t : Vec Ideal S5000x1 .f32) (ix2 p (0 : Fin 1)) = (V c main_v45 : S50000x1.Idx → EReal) (ix2 r (0 : Fin 1)) := by
  obtain ⟨-, -, e0, e1, -⟩ := idx_facts3 t
  show (V c main_v45 : S50000x1.Idx → EReal) (((cfg3.win 1).blk t).view.emb (ix2 p (0 : Fin 1))) = _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 1 + 1 * 0 = 0; rw [e1]

/-- The root term's block at point `t` is rows `5000 t …` of its array. -/
theorem iblk3_2_apply (t : Fin cfg3.N) (p : Fin 5000) (q : Fin 128) (r : Fin 50000) (hr : r.val = t.val * 5000 + p.val) :
    (iblk3 V c 2 t : Vec Ideal S5000x128 .f32) (ix2 p q) = (V c main_v40_1 : S50000x128.Idx → EReal) (ix2 r q) := by
  obtain ⟨-, -, -, -, e0, e1, -⟩ := idx_facts3 t
  show (V c main_v40_1 : S50000x128.Idx → EReal) (((cfg3.win 2).blk t).view.emb (ix2 p q)) = _
  refine congrArg _ (funext fun a => Fin.ext ?_)
  match a with
  | ⟨0, _⟩ => show win3_2.index t (0 : Fin 2) * 5000 + 1 * p.val = r.val; rw [e0, hr]; omega
  | ⟨1, _⟩ => show win3_2.index t (1 : Fin 2) * 128 + 1 * q.val = q.val; rw [e1]; omega

/-- What point `t` writes back is block `t` of `agg / cnt + xr` of the arrays the region finds. -/
theorem flushed3_3_eq (t : Fin cfg3.N) :
    (dat3 (F := Ideal) V c).flushed 3 t
      = ((cfg3.win 3).blk t).view.read (Elt Ideal) (Cert.Spec.combT128 (V c main_v44) (V c main_v45) (V c main_v40_1)) := by
  show (cfg3.win 3).cut (grid3.coords t) ((dat3 V c).after 3 t) = _
  rw [after3_3]
  funext j
  obtain ⟨p, q, rfl⟩ : ∃ (p : Fin 5000) (q : Fin 128), j = ix2 p q := ⟨j 0, j 1, eq_ix2 j⟩
  have ht : t.val < 10 := lt_of_lt_of_eq t.isLt N_3
  have hr : t.val * 5000 + p.val < 50000 := by have := p.isLt; omega
  show out3_3 (iblk3 V c 0 t) (iblk3 V c 1 t) (iblk3 V c 2 t) (ix2 p q)
    = Cert.Spec.combT128 (V c main_v44) (V c main_v45) (V c main_v40_1) (((cfg3.win 3).blk t).view.emb (ix2 p q))
  refine (out3_3_apply (iblk3 V c 0 t) (iblk3 V c 1 t) (iblk3 V c 2 t) p q).trans ?_
  rw [emb3_3 t p q ⟨_, hr⟩ rfl, Cert.Spec.combT128_apply, iblk3_0_apply V c t p q ⟨_, hr⟩ rfl,
    iblk3_1_apply V c t p ⟨_, hr⟩ rfl, iblk3_2_apply V c t p q ⟨_, hr⟩ rfl]

/-- An index of the array is in point `t`'s block iff each coordinate is in the block's range on its axis. -/
theorem mem_blk3_3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v46).slice (win3_3.rect t)).set ↔ _
  rw [View.set_slice_whole, Rect.mem_set_unit]
  exact Iff.rfl

/-- Row `r` is in the block of point `r / 5000`: the ten blocks cover the array. -/
theorem covered3_3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have ht : (i 0).val / 5000 < cfg3.N := by rw [hN]; omega
  refine ⟨⟨(i 0).val / 5000, ht⟩, flush3_3 _, ?_⟩
  rw [mem_blk3_3]
  obtain ⟨-, -, -, -, -, -, e0, e1⟩ := idx_facts3 ⟨(i 0).val / 5000, ht⟩
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- REGION 3's output array: `agg / cnt + xr` of the three arrays the region finds, entry by entry. -/
theorem final3_3 : (dat3 (F := Ideal) V c).arrAt 3 cfg3.N
    = Cert.Spec.combT128 (V c main_v44) (V c main_v45) (V c main_v40_1) :=
  (dat3 (F := Ideal) V c).arrAt_eq_of_cover 3 _ (fun t _ => flushed3_3_eq V c t) covered3_3

end Cert.KernelIdeal.CombineValue

end
-- ==== Proof.RefRead.lean ====
/-
  The reference program's host operations, read index by index over the extended reals.

  Each lemma takes arrays as variables and says that a composition of the reference's printed operations is one of the
  functions of Proof/Spec.lean: the dense layer (a contraction with the transposed weight plus the bias repeated down
  the rows), the mean aggregation's last step (a quotient by the count repeated across the columns, plus the root
  term), the batch normalisation's affine step given its statistics, and the row-wise log-softmax. After them, the
  same specification functions from operands laid out as a blocked program holds them: the weight already transposed,
  a per-feature vector as a one-row matrix, the count as a one-column matrix.

  Every proof is the same walk: fix an index (p, q), read each elementwise operation at it, read each layout
  operation (a repetition along a new or unit axis, a transposition, a change of shape) at it, and re-index the
  contraction's and the reductions' index sets by their one coordinate.
-/
import proofs.«139878_j75204877353213_2_alg».proof.ReferenceIdeal
import proofs.«139878_j75204877353213_2_alg».proof.KernelIdeal
import proofs.«139878_j75204877353213_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StackMember
import Idealize.ShloMosaic.PureOps.Ideal.Laws

noncomputable section

namespace Cert.ReferenceIdeal.RefRead

open Idealize.ShloMosaic Idealize.ShloMosaic.ValueIdx
open scoped BigOperators

/-! ## Layout operations at an index -/

section Layout
variable {α : Type}

/-- A vector laid out as the one row of a [1, n] matrix reads, at (u, q), the vector at q. -/
theorem bcast_row_apply {n : ℕ} (h : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] h x (ix2 u q) = x (ix1 q) := by
  refine broadcastInDim_apply ![1] h x (ix2 u q) (ix1 q) ?_
  intro a
  match a with
  | ⟨0, _⟩ =>
    show q.val = if n = 1 then 0 else q.val
    split_ifs with hn
    · have := q.isLt; omega
    · rfl

/-- A vector laid out as the one column of an [m, 1] matrix reads, at (p, u), the vector at p. -/
theorem bcast_toCol_apply {m : ℕ} (h : (⟨1, ![m]⟩ : Shape).BroadcastsInDim ⟨2, ![m, 1]⟩ ![0])
    (x : (⟨1, ![m]⟩ : Shape).Idx → α) (p : Fin m) (u : Fin 1) :
    broadcastInDim ⟨2, ![m, 1]⟩ ![0] h x (ix2 p u) = x (ix1 p) := by
  refine broadcastInDim_apply ![0] h x (ix2 p u) (ix1 p) ?_
  intro a
  match a with
  | ⟨0, _⟩ =>
    show p.val = if m = 1 then 0 else p.val
    split_ifs with hm
    · have := p.isLt; omega
    · rfl

/-- A one-column matrix repeated across n columns reads, at (p, q), the column at (p, 0). -/
theorem bcast_oneCol_apply {m n : ℕ} (h : (⟨2, ![m, 1]⟩ : Shape).BroadcastsInDim ⟨2, ![m, n]⟩ ![0, 1])
    (y : (⟨2, ![m, 1]⟩ : Shape).Idx → α) (p : Fin m) (q : Fin n) :
    broadcastInDim ⟨2, ![m, n]⟩ ![0, 1] h y (ix2 p q) = y (ix2 p (0 : Fin 1)) := by
  refine broadcastInDim_apply ![0, 1] h y (ix2 p q) (ix2 p (0 : Fin 1)) ?_
  intro a
  match a with
  | ⟨0, _⟩ =>
    show p.val = if m = 1 then 0 else p.val
    split_ifs with hm
    · have := p.isLt; omega
    · rfl
  | ⟨1, _⟩ =>
    show (0 : ℕ) = if (1 : ℕ) = 1 then 0 else q.val
    rw [if_pos rfl]

/-- A vector repeated down m rows (through a one-row matrix) reads, at (p, q), the vector at q. -/
theorem bcast_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (p : Fin m) (q : Fin n) :
    broadcastInDim ⟨2, ![m, n]⟩ ![0, 1] h2 (broadcastInDim ⟨2, ![1, n]⟩ ![1] h1 v) (ix2 p q) = v (ix1 q) :=
  (broadcastInDim_oneRow_apply h2 _ p q).trans (bcast_row_apply h1 v 0 q)

/-- A vector repeated across n columns (through a one-column matrix) reads, at (p, q), the vector at p. -/
theorem bcast_vec_cols_apply {m n : ℕ} (h1 : (⟨1, ![m]⟩ : Shape).BroadcastsInDim ⟨2, ![m, 1]⟩ ![0])
    (h2 : (⟨2, ![m, 1]⟩ : Shape).BroadcastsInDim ⟨2, ![m, n]⟩ ![0, 1]) (v : (⟨1, ![m]⟩ : Shape).Idx → α)
    (p : Fin m) (q : Fin n) :
    broadcastInDim ⟨2, ![m, n]⟩ ![0, 1] h2 (broadcastInDim ⟨2, ![m, 1]⟩ ![0] h1 v) (ix2 p q) = v (ix1 p) :=
  (bcast_oneCol_apply h2 _ p q).trans (bcast_toCol_apply h1 v p 0)

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over a [m, n] array reduced along its second axis, the source index over row p with coordinate k inserted is (p, k). -/
theorem lift_row {m n : ℕ} (hR : (⟨2, ![m, n]⟩ : Shape).Reduces [1] ⟨1, ![m]⟩) (p : Fin m) (k : Fin n) :
    hR.lift (ix1 p) k = ix2 p k := by
  funext c
  apply Fin.ext
  match c with
  | ⟨0, _⟩ => rfl
  | ⟨1, _⟩ => rfl

end Layout

/-- The f32 pattern 0xFF800000 denotes -∞. -/
theorem ofBits_neg_inf_f32 : Ideal.ofBits .f32 0xFF800000#32 = ⊥ := by
  simp [Ideal.ofBits, Ideal.ieee]

/-! ## Host operations at an index -/

section HostAtIndex
variable {s : Shape} {φ : FTy}

/-- The host's logarithm at an index is the logarithm of the element. -/
theorem hostLog_apply (a : FVec Ideal s φ) (i : s.Idx) : Host.log a i = Ideal.log (a i) := rfl
/-- The host's exponential at an index is the exponential of the element. -/
theorem hostExp_apply (a : FVec Ideal s φ) (i : s.Idx) : Host.exp a i = Ideal.exp (a i) := rfl
/-- The host's reciprocal square root at an index is that of the element. -/
theorem hostRsqrt_apply (a : FVec Ideal s φ) (i : s.Idx) : Host.rsqrt a i = Ideal.rsqrt (a i) := rfl

/-- A host reduction along the second axis of an [m, n] array also has the shape fact a vector reduction states. -/
theorem reduces_of_reducesTo {m n : ℕ} (hT : (⟨2, ![m, n]⟩ : Shape).ReducesTo [1] ⟨1, ![m]⟩) :
    (⟨2, ![m, n]⟩ : Shape).Reduces [1] ⟨1, ![m]⟩ := by
  obtain ⟨h1, h2⟩ := hT
  exact ⟨h1, Nat.one_pos, h2⟩

/-- The host's sum along the second axis of an [m, n] array, from the zero word, is at row p the sum of the row. -/
theorem hostReduceAdd_rows_apply {m n : ℕ} (hT : (⟨2, ![m, n]⟩ : Shape).ReducesTo [1] ⟨1, ![m]⟩)
    (hu : 0 < (⟨0, ![]⟩ : Shape).numel) (x : FVec Ideal ⟨2, ![m, n]⟩ .f32) (p : Fin m) :
    Host.reduceAdd x (constant (F := Ideal) ⟨0, ![]⟩ .f32 0x00000000#32) hT hu (ix1 p) = ∑ k : Fin n, x (ix2 p k) := by
  have hR := reduces_of_reducesTo hT
  rw [hostReduceAdd_apply, Ideal.hostReduceAdd_single hT hR]
  show Ideal.ofBits .f32 0x00000000#32 + ∑ k : Fin n, x (hR.lift (ix1 p) k) = ∑ k : Fin n, x (ix2 p k)
  rw [Ideal.ofBits_zero_f32, zero_add]
  exact Finset.sum_congr rfl fun k _ => congrArg x (lift_row hR p k)

/-- The host's maximum along the second axis of an [m, n] array, from the -∞ word, is at row p the fold of max from -∞
    over the row. -/
theorem hostReduceMax_rows_apply {m n : ℕ} (hT : (⟨2, ![m, n]⟩ : Shape).ReducesTo [1] ⟨1, ![m]⟩)
    (hu : 0 < (⟨0, ![]⟩ : Shape).numel) (x : FVec Ideal ⟨2, ![m, n]⟩ .f32) (p : Fin m) :
    Host.reduce (FloatOps.maximumf (F := Ideal) (φ := .f32)) x (constant (F := Ideal) ⟨0, ![]⟩ .f32 0xFF800000#32) hT hu (ix1 p)
      = (Finset.univ : Finset (Fin n)).fold max ⊥ (fun j => x (ix2 p j)) := by
  have hR := reduces_of_reducesTo hT
  rw [Host.reduce_eq_fold_single (FloatOps.maximumf (F := Ideal) (φ := .f32)) x _ hT hR hu (ix1 p)]
  show (Finset.univ : Finset (Fin n)).fold max (Ideal.ofBits .f32 0xFF800000#32) (fun j => x (hR.lift (ix1 p) j))
    = (Finset.univ : Finset (Fin n)).fold max ⊥ (fun j => x (ix2 p j))
  rw [ofBits_neg_inf_f32]
  exact congrArg (fun f => (Finset.univ : Finset (Fin n)).fold max ⊥ f) (funext fun j => congrArg x (lift_row hR p j))

end HostAtIndex

/-! ## The reference's operations -/

section Reference
variable [Facts₀]
open Facts₀

/-- The [50000,128] by [128,128] contraction's dimension numbers are the plain matrix product's. -/
theorem dot128_eq_plain : dot_S50000x128_S128x128_S50000x128_1_0_0_1_n_n = DotDims.plain 50000 128 128 := rfl

/-- The [50000,128] by [128,64] contraction's dimension numbers are the plain matrix product's. -/
theorem dot64_eq_plain : dot_S50000x128_S128x64_S50000x64_1_0_0_1_n_n = DotDims.plain 50000 128 64 := rfl

/-- The mean aggregation's last step (128 features): the quotient by the count repeated across the columns, plus the
    root term. -/
theorem ref_comb128 (agg : FVec Ideal S50000x128 .f32) (cn : FVec Ideal S50000 .f32) (xr : FVec Ideal S50000x128 .f32) :
    addf (Host.divf agg (broadcastInDim S50000x128 ![0, 1] bcast_S50000x1_S50000x128_0_1
      (broadcastInDim S50000x1 ![0] bcast_S50000_S50000x1_0 cn))) xr = Cert.Spec.comb128 agg cn xr := by
  funext i
  obtain ⟨p, q, rfl⟩ : ∃ (p : Fin 50000) (q : Fin 128), i = ix2 p q := ⟨i 0, i 1, eq_ix2 i⟩
  rw [Cert.Spec.comb128_apply, addf_apply, hostDivf_apply, bcast_vec_cols_apply]

/-- The mean aggregation's last step (64 features). -/
theorem ref_comb64 (agg : FVec Ideal S50000x64 .f32) (cn : FVec Ideal S50000 .f32) (xr : FVec Ideal S50000x64 .f32) :
    addf (Host.divf agg (broadcastInDim S50000x64 ![0, 1] bcast_S50000x1_S50000x64_0_1
      (broadcastInDim S50000x1 ![0] bcast_S50000_S50000x1_0 cn))) xr = Cert.Spec.comb64 agg cn xr := by
  funext i
  obtain ⟨p, q, rfl⟩ : ∃ (p : Fin 50000) (q : Fin 64), i = ix2 p q := ⟨i 0, i 1, eq_ix2 i⟩
  rw [Cert.Spec.comb64_apply, addf_apply, hostDivf_apply, bcast_vec_cols_apply]

/-- The dense layer (128 → 128): the contraction with the transposed weight, plus the bias repeated down the rows. -/
theorem ref_lin128 (x : FVec Ideal S50000x128 .f32) (W : FVec Ideal S128x128 .f32) (b : FVec Ideal S128 .f32) :
    addf (Host.dotGeneral dot_S50000x128_S128x128_S50000x128_1_0_0_1_n_n none x
        (transpose S128x128 [1, 0] W transposes_S128x128_S128x128_1_0))
      (broadcastInDim S50000x128 ![0, 1] bcast_S1x128_S50000x128_0_1 (broadcastInDim S1x128 ![1] bcast_S128_S1x128_1 b))
    = Cert.Spec.lin128 x W b := by
  funext i
  obtain ⟨p, q, rfl⟩ : ∃ (p : Fin 50000) (q : Fin 128), i = ix2 p q := ⟨i 0, i 1, eq_ix2 i⟩
  rw [Cert.Spec.lin128_apply, addf_apply, bcast_vec_rows_apply, dot128_eq_plain, StackMember.dotGeneral_plain_apply]
  unfold Cert.Spec.linAt128
  refine congrArg (· + b (ix1 q)) (Finset.sum_congr rfl fun k _ => ?_)
  rw [transpose_ix2_apply]

/-- The dense layer (128 → 64). -/
theorem ref_lin64 (x : FVec Ideal S50000x128 .f32) (W : FVec Ideal S64x128 .f32) (b : FVec Ideal S64 .f32) :
    addf (Host.dotGeneral dot_S50000x128_S128x64_S50000x64_1_0_0_1_n_n none x
        (transpose S128x64 [1, 0] W transposes_S64x128_S128x64_1_0))
      (broadcastInDim S50000x64 ![0, 1] bcast_S1x64_S50000x64_0_1 (broadcastInDim S1x64 ![1] bcast_S64_S1x64_1 b))
    = Cert.Spec.lin64 x W b := by
  funext i
  obtain ⟨p, q, rfl⟩ : ∃ (p : Fin 50000) (q : Fin 64), i = ix2 p q := ⟨i 0, i 1, eq_ix2 i⟩
  rw [Cert.Spec.lin64_apply, addf_apply, bcast_vec_rows_apply, dot64_eq_plain, StackMember.dotGeneral_plain_apply]
  unfold Cert.Spec.linAt64
  refine congrArg (· + b (ix1 q)) (Finset.sum_congr rfl fun k _ => ?_)
  rw [transpose_ix2_apply]

/-- The batch normalisation's affine step, given the mean and the variance: each per-feature vector repeated down the
    rows, the ε constant repeated over the features. -/
theorem ref_bn (h : FVec Ideal S50000x128 .f32) (mu vr g be : FVec Ideal S128 .f32) :
    addf
      (mulf
        (mulf
          (subf h (broadcastInDim S50000x128 ![0, 1] bcast_S1x128_S50000x128_0_1
            (broadcastInDim S1x128 ![1] bcast_S128_S1x128_1 mu)))
          (broadcastInDim S50000x128 ![0, 1] bcast_S1x128_S50000x128_0_1
            (broadcastInDim S1x128 ![1] bcast_S128_S1x128_1
              (Host.rsqrt (addf vr (broadcastInDim S128 ![] bcast_S_S128 (constant (F := Ideal) S_ .f32 0x3727C5AC#32)))))))
        (broadcastInDim S50000x128 ![0, 1] bcast_S1x128_S50000x128_0_1
          (broadcastInDim S1x128 ![1] bcast_S128_S1x128_1 g)))
      (broadcastInDim S50000x128 ![0, 1] bcast_S1x128_S50000x128_0_1
        (broadcastInDim S1x128 ![1] bcast_S128_S1x128_1 be))
    = Cert.Spec.bn h mu vr g be := by
  funext i
  obtain ⟨p, q, rfl⟩ : ∃ (p : Fin 50000) (q : Fin 128), i = ix2 p q := ⟨i 0, i 1, eq_ix2 i⟩
  rw [Cert.Spec.bn_apply]
  simp only [addf_apply, mulf_apply, subf_apply]
  rw [bcast_vec_rows_apply, bcast_vec_rows_apply, bcast_vec_rows_apply, bcast_vec_rows_apply]
  show (h (ix2 p q) - mu (ix1 q))
      * Ideal.rsqrt (vr (ix1 q) + broadcastInDim S128 ![] bcast_S_S128 (constant (F := Ideal) S_ .f32 0x3727C5AC#32) (ix1 q))
      * g (ix1 q) + be (ix1 q) = _
  rw [broadcastInDim_scalar_apply]
  rfl

/-- The reference's row maximum — the fold of max from -∞ along the second axis, then the maximum with -∞ again — is
    the specification's. -/
theorem ref_rowMax (h : FVec Ideal S50000x64 .f32) (p : Fin 50000) :
    maximumf (broadcastInDim S50000 ![] bcast_S_S50000 (constant (F := Ideal) S_ .f32 0xFF800000#32))
      (Host.reduce (FloatOps.maximumf (F := Ideal) (φ := .f32)) h (constant (F := Ideal) S_ .f32 0xFF800000#32)
        reducesTo_S50000x64_S50000_d1 h_S_) (ix1 p)
    = Cert.Spec.rowMax h p := by
  rw [maximumf_apply, broadcastInDim_scalar_apply, hostReduceMax_rows_apply, constant_apply, ofBits_neg_inf_f32, max_bot_left]
  rfl

/-- The row-wise log-softmax: the logits less their row maximum, less the logarithm of the row sum of the
    exponentials of those differences. -/
theorem ref_lsm (h : FVec Ideal S50000x64 .f32) :
    subf
      (subf h (broadcastInDim S50000x64 ![0, 1] bcast_S50000x1_S50000x64_0_1
        (broadcastInDim S50000x1 ![0] bcast_S50000_S50000x1_0
          (maximumf (broadcastInDim S50000 ![] bcast_S_S50000 (constant (F := Ideal) S_ .f32 0xFF800000#32))
            (Host.reduce (FloatOps.maximumf (F := Ideal) (φ := .f32)) h (constant (F := Ideal) S_ .f32 0xFF800000#32)
              reducesTo_S50000x64_S50000_d1 h_S_)))))
      (broadcastInDim S50000x64 ![0, 1] bcast_S50000x1_S50000x64_0_1
        (Host.log (broadcastInDim S50000x1 ![0] bcast_S50000_S50000x1_0
          (Host.reduceAdd
            (Host.exp (subf h (broadcastInDim S50000x64 ![0, 1] bcast_S50000x1_S50000x64_0_1
              (broadcastInDim S50000x1 ![0] bcast_S50000_S50000x1_0
                (maximumf (broadcastInDim S50000 ![] bcast_S_S50000 (constant (F := Ideal) S_ .f32 0xFF800000#32))
                  (Host.reduce (FloatOps.maximumf (F := Ideal) (φ := .f32)) h (constant (F := Ideal) S_ .f32 0xFF800000#32)
                    reducesTo_S50000x64_S50000_d1 h_S_))))))
            (constant (F := Ideal) S_ .f32 0x00000000#32) reducesTo_S50000x64_S50000_d1 h_S_))))
    = Cert.Spec.lsm h := by
  have hD : ∀ (p : Fin 50000) (q : Fin 64),
      subf h (broadcastInDim S50000x64 ![0, 1] bcast_S50000x1_S50000x64_0_1
        (broadcastInDim S50000x1 ![0] bcast_S50000_S50000x1_0
          (maximumf (broadcastInDim S50000 ![] bcast_S_S50000 (constant (F := Ideal) S_ .f32 0xFF800000#32))
            (Host.reduce (FloatOps.maximumf (F := Ideal) (φ := .f32)) h (constant (F := Ideal) S_ .f32 0xFF800000#32)
              reducesTo_S50000x64_S50000_d1 h_S_)))) (ix2 p q) = h (ix2 p q) - Cert.Spec.rowMax h p := by
    intro p q
    rw [subf_apply, bcast_vec_cols_apply, ref_rowMax]
  funext i
  obtain ⟨p, q, rfl⟩ : ∃ (p : Fin 50000) (q : Fin 64), i = ix2 p q := ⟨i 0, i 1, eq_ix2 i⟩
  rw [Cert.Spec.lsm_apply, subf_apply, hD, bcast_oneCol_apply, hostLog_apply, bcast_toCol_apply, hostReduceAdd_rows_apply]
  refine congrArg (fun s => h (ix2 p q) - Cert.Spec.rowMax h p - Ideal.log s) (Finset.sum_congr rfl fun k _ => ?_)
  rw [hostExp_apply, hD]

end Reference

/-! ## The specification's functions from operands in a blocked program's layout -/

section KernelOperands
variable [Cert.KernelIdeal.Facts₀]

/-- The dense layer from the transposed weight and the bias as a one-row matrix (128 → 128). -/
theorem linT128_of (x : FVec Ideal S50000x128 .f32) (W : FVec Ideal S128x128 .f32) (b : FVec Ideal S128 .f32) :
    Cert.Spec.linT128 x (transpose S128x128 [1, 0] W Cert.KernelIdeal.Facts₀.transposes_S128x128_S128x128_1_0)
      (shapeCast S1x128 b Cert.KernelIdeal.Facts₀.shapeCasts_S128_S1x128) = Cert.Spec.lin128 x W b := by
  funext i
  obtain ⟨p, q, rfl⟩ : ∃ (p : Fin 50000) (q : Fin 128), i = ix2 p q := ⟨i 0, i 1, eq_ix2 i⟩
  rw [Cert.Spec.linT128_apply, Cert.Spec.lin128_apply, shapeCast_a_1a_apply]
  unfold Cert.Spec.linAt128
  refine congrArg (· + b (ix1 q)) (Finset.sum_congr rfl fun k _ => ?_)
  rw [transpose_ix2_apply]

/-- The dense layer from the transposed weight and the bias as a one-row matrix (128 → 64). -/
theorem linT64_of (x : FVec Ideal S50000x128 .f32) (W : FVec Ideal S64x128 .f32) (b : FVec Ideal S64 .f32) :
    Cert.Spec.linT64 x (transpose S128x64 [1, 0] W Cert.KernelIdeal.Facts₀.transposes_S64x128_S128x64_1_0)
      (shapeCast S1x64 b Cert.KernelIdeal.Facts₀.shapeCasts_S64_S1x64) = Cert.Spec.lin64 x W b := by
  funext i
  obtain ⟨p, q, rfl⟩ : ∃ (p : Fin 50000) (q : Fin 64), i = ix2 p q := ⟨i 0, i 1, eq_ix2 i⟩
  rw [Cert.Spec.linT64_apply, Cert.Spec.lin64_apply, shapeCast_a_1a_apply]
  unfold Cert.Spec.linAt64
  refine congrArg (· + b (ix1 q)) (Finset.sum_congr rfl fun k _ => ?_)
  rw [transpose_ix2_apply]

/-- The batch normalisation's affine step from its four per-feature vectors as one-row matrices. -/
theorem bnT_of (h : FVec Ideal S50000x128 .f32) (mu vr g be : FVec Ideal S128 .f32) :
    Cert.Spec.bnT h (shapeCast S1x128 mu Cert.KernelIdeal.Facts₀.shapeCasts_S128_S1x128)
      (shapeCast S1x128 vr Cert.KernelIdeal.Facts₀.shapeCasts_S128_S1x128)
      (shapeCast S1x128 g Cert.KernelIdeal.Facts₀.shapeCasts_S128_S1x128)
      (shapeCast S1x128 be Cert.KernelIdeal.Facts₀.shapeCasts_S128_S1x128) = Cert.Spec.bn h mu vr g be := by
  funext i
  obtain ⟨p, q, rfl⟩ : ∃ (p : Fin 50000) (q : Fin 128), i = ix2 p q := ⟨i 0, i 1, eq_ix2 i⟩
  rw [Cert.Spec.bnT_apply, Cert.Spec.bn_apply]
  simp only [shapeCast_a_1a_apply]

/-- The mean aggregation's last step from the count as a one-column matrix (128 features). -/
theorem combT128_of (agg : FVec Ideal S50000x128 .f32) (cn : FVec Ideal S50000 .f32) (xr : FVec Ideal S50000x128 .f32) :
    Cert.Spec.combT128 agg (shapeCast S50000x1 cn Cert.KernelIdeal.Facts₀.shapeCasts_S50000_S50000x1) xr
      = Cert.Spec.comb128 agg cn xr := by
  funext i
  obtain ⟨p, q, rfl⟩ : ∃ (p : Fin 50000) (q : Fin 128), i = ix2 p q := ⟨i 0, i 1, eq_ix2 i⟩
  rw [Cert.Spec.combT128_apply, Cert.Spec.comb128_apply, shapeCast_a_a1_apply]

/-- The mean aggregation's last step from the count as a one-column matrix (64 features). -/
theorem combT64_of (agg : FVec Ideal S50000x64 .f32) (cn : FVec Ideal S50000 .f32) (xr : FVec Ideal S50000x64 .f32) :
    Cert.Spec.combT64 agg (shapeCast S50000x1 cn Cert.KernelIdeal.Facts₀.shapeCasts_S50000_S50000x1) xr
      = Cert.Spec.comb64 agg cn xr := by
  funext i
  obtain ⟨p, q, rfl⟩ : ∃ (p : Fin 50000) (q : Fin 64), i = ix2 p q := ⟨i 0, i 1, eq_ix2 i⟩
  rw [Cert.Spec.combT64_apply, Cert.Spec.comb64_apply, shapeCast_a_a1_apply]

end KernelOperands

end Cert.ReferenceIdeal.RefRead

end
-- ==== Proof.Chain.lean ====
/-
  The idealized kernel's results as functions of its arguments.  The run's last boundary holds, at the two result
  buffers, what the fold of @main's segments leaves; read back segment by segment: each blocked region's output
  array is a specification function (a dense layer, the mean aggregation's last step, the log-softmax) of the
  arrays the region found, each host stretch between two regions is a gather, a scatter-add, or a mean and a
  variance over the nodes, and the buffers a later segment reads are the ones an earlier one wrote.
-/
import proofs.«139878_j75204877353213_2_alg».proof.Proof.Gen.KernelIdeal.Frame
import proofs.«139878_j75204877353213_2_alg».proof.Proof.ChainNet
import proofs.«139878_j75204877353213_2_alg».proof.Proof.ChainKeep
import proofs.«139878_j75204877353213_2_alg».proof.Proof.ChainKeepB
import proofs.«139878_j75204877353213_2_alg».proof.Proof.HostReads
import proofs.«139878_j75204877353213_2_alg».proof.Proof.HostReadsT
import proofs.«139878_j75204877353213_2_alg».proof.Proof.LinearValue0
import proofs.«139878_j75204877353213_2_alg».proof.Proof.LinearValue2
import proofs.«139878_j75204877353213_2_alg».proof.Proof.LinearValue4
import proofs.«139878_j75204877353213_2_alg».proof.Proof.CombineValue
import proofs.«139878_j75204877353213_2_alg».proof.Proof.RefRead

set_option maxRecDepth 16384

noncomputable section

namespace Cert.KernelIdeal.Chain

open Cert.KernelIdeal Cert.KernelIdeal.Gen
open Idealize.ShloMosaic Idealize.ShloMosaic.TcCoe Idealize.SL.Sem
open Cert.ReferenceIdeal.RefRead (linT128_of linT64_of bnT_of combT128_of combT64_of)

variable (m : (ℓ : Loc nD τ sig) → Buf (Elt Ideal) ℓ) (ρ : Dev nD → PrngReg) (c : Dev nD)

set_option quotPrecheck false in
local notation "𝔞 " j:max => m ((c : Thread nD τ).loc j)

/-! ## Before the first region: the edge lists, the count, the first layer's operands -/

theorem e1_v5 : W1 m ρ c (Proc.devRef .tc main_v5) = kS (𝔞 main_arg1) := r0_v5 (W0 m ρ c)

theorem e1_v6 : W1 m ρ c (Proc.devRef .tc main_v6) = kD (𝔞 main_arg1) := r0_v6 (W0 m ρ c)

theorem e1_v10 : W1 m ρ c (Proc.devRef .tc main_v10) = (kCnt (kD (𝔞 main_arg1))) := r0_v10 (W0 m ρ c)

theorem V1_arg0 : V1 m ρ c main_arg0 = (𝔞 main_arg0) := W1_arg0 m ρ c

theorem V1_v11 : V1 m ρ c main_v11 = (transpose S128x128 [1, 0] (𝔞 main_arg2) transposes_S128x128_S128x128_1_0) := r0_v11 (W0 m ρ c)

theorem V1_v12 : V1 m ρ c main_v12 = (transpose S128x128 [1, 0] (𝔞 main_arg4) transposes_S128x128_S128x128_1_0) := r0_v12 (W0 m ρ c)

theorem V1_v13 : V1 m ρ c main_v13 = (shapeCast S1x128 (𝔞 main_arg3) shapeCasts_S128_S1x128) := r0_v13 (W0 m ρ c)

theorem V1_v14 : V1 m ρ c main_v14 = (shapeCast S1x128 (𝔞 main_arg5) shapeCasts_S128_S1x128) := r0_v14 (W0 m ρ c)

/-! ## The first layer -/

theorem e2_xl : W2 m ρ c (Proc.devRef .tc main_v15_0) = (Cert.Spec.lin128 (𝔞 main_arg0) (𝔞 main_arg2) (𝔞 main_arg3)) := by
  refine (W2_arr m ρ c 5).trans ?_
  rw [LinearValue.final0_5 (V1 m ρ) c, V1_arg0, V1_v11, V1_v13]
  exact linT128_of _ _ _

theorem e2_xr : W2 m ρ c (Proc.devRef .tc main_v15_1) = (Cert.Spec.lin128 (𝔞 main_arg0) (𝔞 main_arg4) (𝔞 main_arg5)) := by
  refine (W2_arr m ρ c 6).trans ?_
  rw [LinearValue.final0_6 (V1 m ρ) c, V1_arg0, V1_v12, V1_v14]
  exact linT128_of _ _ _

theorem e3_v16 : W3 m ρ c (Proc.devRef .tc main_v16) = kTake128 (Cert.Spec.lin128 (𝔞 main_arg0) (𝔞 main_arg2) (𝔞 main_arg3)) (kS (𝔞 main_arg1)) := by
  refine (r1_v16 (W2 m ρ c)).trans ?_
  rw [e2_xl, W2_v5, e1_v5]

theorem V4_v19 : V4 m ρ c main_v19 = kScat128 (kD (𝔞 main_arg1)) (kTake128 (Cert.Spec.lin128 (𝔞 main_arg0) (𝔞 main_arg2) (𝔞 main_arg3)) (kS (𝔞 main_arg1))) := by
  refine (r11_v19 (W3 m ρ c)).trans ?_
  rw [W3_v6, e1_v6, e3_v16]

theorem V4_v20 : V4 m ρ c main_v20 = (shapeCast S50000x1 (kCnt (kD (𝔞 main_arg1))) shapeCasts_S50000_S50000x1) := by
  refine (r11_v20 (W3 m ρ c)).trans ?_
  rw [W3_v10, e1_v10]

theorem V4_v15_1 : V4 m ρ c main_v15_1 = (Cert.Spec.lin128 (𝔞 main_arg0) (𝔞 main_arg4) (𝔞 main_arg5)) := (W4_v15_1 m ρ c).trans (e2_xr m ρ c)

theorem e5_h0 : W5 m ρ c (Proc.devRef .tc main_v21) = (kLayer128 (𝔞 main_arg0) (𝔞 main_arg1) (𝔞 main_arg2) (𝔞 main_arg3) (𝔞 main_arg4) (𝔞 main_arg5)) := by
  refine (W5_arr m ρ c 3).trans ?_
  rw [CombineValue.final1_3 (V4 m ρ) c, V4_v19, V4_v20, V4_v15_1]
  unfold kLayer128
  exact combT128_of _ _ _

/-! ## The second layer: the first layer's output normalised over the nodes, then projected -/

theorem V6_v21 : V6 m ρ c main_v21 = (kLayer128 (𝔞 main_arg0) (𝔞 main_arg1) (𝔞 main_arg2) (𝔞 main_arg3) (𝔞 main_arg4) (𝔞 main_arg5)) := (W6_v21 m ρ c).trans (e5_h0 m ρ c)

theorem V6_v36 : V6 m ρ c main_v36 = (shapeCast S1x128 (kMean (kLayer128 (𝔞 main_arg0) (𝔞 main_arg1) (𝔞 main_arg2) (𝔞 main_arg3) (𝔞 main_arg4) (𝔞 main_arg5))) shapeCasts_S128_S1x128) := by
  refine (r2_v36 (W5 m ρ c)).trans ?_
  rw [e5_h0]

theorem V6_v37 : V6 m ρ c main_v37 = (shapeCast S1x128 (kVar (kLayer128 (𝔞 main_arg0) (𝔞 main_arg1) (𝔞 main_arg2) (𝔞 main_arg3) (𝔞 main_arg4) (𝔞 main_arg5)) (kMean (kLayer128 (𝔞 main_arg0) (𝔞 main_arg1) (𝔞 main_arg2) (𝔞 main_arg3) (𝔞 main_arg4) (𝔞 main_arg5)))) shapeCasts_S128_S1x128) := by
  refine (r2_v37 (W5 m ρ c)).trans ?_
  rw [e5_h0]

theorem V6_v38 : V6 m ρ c main_v38 = (shapeCast S1x128 (𝔞 main_arg14) shapeCasts_S128_S1x128) := by
  refine (r2_v38 (W5 m ρ c)).trans ?_
  rw [W5_arg14]

theorem V6_v39 : V6 m ρ c main_v39 = (shapeCast S1x128 (𝔞 main_arg15) shapeCasts_S128_S1x128) := by
  refine (r2_v39 (W5 m ρ c)).trans ?_
  rw [W5_arg15]

theorem V6_v32 : V6 m ρ c main_v32 = (transpose S128x128 [1, 0] (𝔞 main_arg6) transposes_S128x128_S128x128_1_0) := by
  refine (r2_v32 (W5 m ρ c)).trans ?_
  rw [W5_arg6]

theorem V6_v34 : V6 m ρ c main_v34 = (shapeCast S1x128 (𝔞 main_arg7) shapeCasts_S128_S1x128) := by
  refine (r2_v34 (W5 m ρ c)).trans ?_
  rw [W5_arg7]

theorem V6_v33 : V6 m ρ c main_v33 = (transpose S128x128 [1, 0] (𝔞 main_arg8) transposes_S128x128_S128x128_1_0) := by
  refine (r2_v33 (W5 m ρ c)).trans ?_
  rw [W5_arg8]

theorem V6_v35 : V6 m ρ c main_v35 = (shapeCast S1x128 (𝔞 main_arg9) shapeCasts_S128_S1x128) := by
  refine (r2_v35 (W5 m ρ c)).trans ?_
  rw [W5_arg9]

theorem e7_xl : W7 m ρ c (Proc.devRef .tc main_v40_0) = (Cert.Spec.lin128 (kNorm (kLayer128 (𝔞 main_arg0) (𝔞 main_arg1) (𝔞 main_arg2) (𝔞 main_arg3) (𝔞 main_arg4) (𝔞 main_arg5)) (𝔞 main_arg14) (𝔞 main_arg15)) (𝔞 main_arg6) (𝔞 main_arg7)) := by
  refine (W7_arr m ρ c 9).trans ?_
  rw [LinearValue.final2_9 (V6 m ρ) c, V6_v21, V6_v36, V6_v37, V6_v38, V6_v39, V6_v32, V6_v34, bnT_of]
  unfold kNorm
  exact linT128_of _ _ _

theorem e7_xr : W7 m ρ c (Proc.devRef .tc main_v40_1) = (Cert.Spec.lin128 (kNorm (kLayer128 (𝔞 main_arg0) (𝔞 main_arg1) (𝔞 main_arg2) (𝔞 main_arg3) (𝔞 main_arg4) (𝔞 main_arg5)) (𝔞 main_arg14) (𝔞 main_arg15)) (𝔞 main_arg8) (𝔞 main_arg9)) := by
  refine (W7_arr m ρ c 10).trans ?_
  rw [LinearValue.final2_10 (V6 m ρ) c, V6_v21, V6_v36, V6_v37, V6_v38, V6_v39, V6_v33, V6_v35, bnT_of]
  unfold kNorm
  exact linT128_of _ _ _

theorem e8_v41 : W8 m ρ c (Proc.devRef .tc main_v41) = kTake128 (Cert.Spec.lin128 (kNorm (kLayer128 (𝔞 main_arg0) (𝔞 main_arg1) (𝔞 main_arg2) (𝔞 main_arg3) (𝔞 main_arg4) (𝔞 main_arg5)) (𝔞 main_arg14) (𝔞 main_arg15)) (𝔞 main_arg6) (𝔞 main_arg7)) (kS (𝔞 main_arg1)) := by
  refine (r3_v41 (W7 m ρ c)).trans ?_
  rw [e7_xl, W7_v5, e1_v5]

theorem V9_v44 : V9 m ρ c main_v44 = kScat128 (kD (𝔞 main_arg1)) (kTake128 (Cert.Spec.lin128 (kNorm (kLayer128 (𝔞 main_arg0) (𝔞 main_arg1) (𝔞 main_arg2) (𝔞 main_arg3) (𝔞 main_arg4) (𝔞 main_arg5)) (𝔞 main_arg14) (𝔞 main_arg15)) (𝔞 main_arg6) (𝔞 main_arg7)) (kS (𝔞 main_arg1))) := by
  refine (r31_v44 (W8 m ρ c)).trans ?_
  rw [W8_v6, e1_v6, e8_v41]

theorem V9_v45 : V9 m ρ c main_v45 = (shapeCast S50000x1 (kCnt (kD (𝔞 main_arg1))) shapeCasts_S50000_S50000x1) := by
  refine (r31_v45 (W8 m ρ c)).trans ?_
  rw [W8_v10, e1_v10]

theorem V9_v40_1 : V9 m ρ c main_v40_1 = (Cert.Spec.lin128 (kNorm (kLayer128 (𝔞 main_arg0) (𝔞 main_arg1) (𝔞 main_arg2) (𝔞 main_arg3) (𝔞 main_arg4) (𝔞 main_arg5)) (𝔞 main_arg14) (𝔞 main_arg15)) (𝔞 main_arg8) (𝔞 main_arg9)) := (W9_v40_1 m ρ c).trans (e7_xr m ρ c)

theorem e10_h1 : W10 m ρ c (Proc.devRef .tc main_v46) = (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) := by
  refine (W10_arr m ρ c 3).trans ?_
  rw [CombineValue.final3_3 (V9 m ρ) c, V9_v44, V9_v45, V9_v40_1]
  unfold kLayer128
  exact combT128_of _ _ _

/-! ## The third layer and the log-softmax -/

theorem V11_v46 : V11 m ρ c main_v46 = (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) := (W11_v46 m ρ c).trans (e10_h1 m ρ c)

theorem V11_v61 : V11 m ρ c main_v61 = (shapeCast S1x128 (kMean (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9))) shapeCasts_S128_S1x128) := by
  refine (r4_v61 (W10 m ρ c)).trans ?_
  rw [e10_h1]

theorem V11_v62 : V11 m ρ c main_v62 = (shapeCast S1x128 (kVar (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (kMean (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)))) shapeCasts_S128_S1x128) := by
  refine (r4_v62 (W10 m ρ c)).trans ?_
  rw [e10_h1]

theorem V11_v63 : V11 m ρ c main_v63 = (shapeCast S1x128 (𝔞 main_arg16) shapeCasts_S128_S1x128) := by
  refine (r4_v63 (W10 m ρ c)).trans ?_
  rw [W10_arg16]

theorem V11_v64 : V11 m ρ c main_v64 = (shapeCast S1x128 (𝔞 main_arg17) shapeCasts_S128_S1x128) := by
  refine (r4_v64 (W10 m ρ c)).trans ?_
  rw [W10_arg17]

theorem V11_v57 : V11 m ρ c main_v57 = (transpose S128x64 [1, 0] (𝔞 main_arg10) transposes_S64x128_S128x64_1_0) := by
  refine (r4_v57 (W10 m ρ c)).trans ?_
  rw [W10_arg10]

theorem V11_v59 : V11 m ρ c main_v59 = (shapeCast S1x64 (𝔞 main_arg11) shapeCasts_S64_S1x64) := by
  refine (r4_v59 (W10 m ρ c)).trans ?_
  rw [W10_arg11]

theorem V11_v58 : V11 m ρ c main_v58 = (transpose S128x64 [1, 0] (𝔞 main_arg12) transposes_S64x128_S128x64_1_0) := by
  refine (r4_v58 (W10 m ρ c)).trans ?_
  rw [W10_arg12]

theorem V11_v60 : V11 m ρ c main_v60 = (shapeCast S1x64 (𝔞 main_arg13) shapeCasts_S64_S1x64) := by
  refine (r4_v60 (W10 m ρ c)).trans ?_
  rw [W10_arg13]

theorem e12_xl : W12 m ρ c (Proc.devRef .tc main_v65_0) = (Cert.Spec.lin64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg10) (𝔞 main_arg11)) := by
  refine (W12_arr m ρ c 9).trans ?_
  rw [LinearValue.final4_9 (V11 m ρ) c, V11_v46, V11_v61, V11_v62, V11_v63, V11_v64, V11_v57, V11_v59, bnT_of]
  unfold kNorm
  exact linT64_of _ _ _

theorem e12_xr : W12 m ρ c (Proc.devRef .tc main_v65_1) = (Cert.Spec.lin64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg12) (𝔞 main_arg13)) := by
  refine (W12_arr m ρ c 10).trans ?_
  rw [LinearValue.final4_10 (V11 m ρ) c, V11_v46, V11_v61, V11_v62, V11_v63, V11_v64, V11_v58, V11_v60, bnT_of]
  unfold kNorm
  exact linT64_of _ _ _

theorem e13_v66 : W13 m ρ c (Proc.devRef .tc main_v66) = kTake64 (Cert.Spec.lin64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg10) (𝔞 main_arg11)) (kS (𝔞 main_arg1)) := by
  refine (r5_v66 (W12 m ρ c)).trans ?_
  rw [e12_xl, W12_v5, e1_v5]

theorem V14_v69 : V14 m ρ c main_v69 = kScat64 (kD (𝔞 main_arg1)) (kTake64 (Cert.Spec.lin64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg10) (𝔞 main_arg11)) (kS (𝔞 main_arg1))) := by
  refine (r51_v69 (W13 m ρ c)).trans ?_
  rw [W13_v6, e1_v6, e13_v66]

theorem V14_v70 : V14 m ρ c main_v70 = (shapeCast S50000x1 (kCnt (kD (𝔞 main_arg1))) shapeCasts_S50000_S50000x1) := by
  refine (r51_v70 (W13 m ρ c)).trans ?_
  rw [W13_v10, e1_v10]

theorem V14_v65_1 : V14 m ρ c main_v65_1 = (Cert.Spec.lin64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg12) (𝔞 main_arg13)) := (W14_v65_1 m ρ c).trans (e12_xr m ρ c)

theorem e15_h : W15 m ρ c (Proc.devRef .tc main_v71_0) = (kLayer64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg1) (𝔞 main_arg10) (𝔞 main_arg11) (𝔞 main_arg12) (𝔞 main_arg13)) := by
  refine (W15_arr m ρ c 3).trans ?_
  rw [CombineValue.final5_3 (V14 m ρ) c, V14_v69, V14_v70, V14_v65_1]
  unfold kLayer64
  exact combT64_of _ _ _

theorem e15_logp : W15 m ρ c (Proc.devRef .tc main_v71_1) = Cert.Spec.lsm (kLayer64 (kNorm (kLayer128 (kNorm (kLayer128 (𝔞 main_arg0) (𝔞 main_arg1) (𝔞 main_arg2) (𝔞 main_arg3) (𝔞 main_arg4) (𝔞 main_arg5)) (𝔞 main_arg14) (𝔞 main_arg15)) (𝔞 main_arg1) (𝔞 main_arg6) (𝔞 main_arg7) (𝔞 main_arg8) (𝔞 main_arg9)) (𝔞 main_arg16) (𝔞 main_arg17)) (𝔞 main_arg1) (𝔞 main_arg10) (𝔞 main_arg11) (𝔞 main_arg12) (𝔞 main_arg13)) := by
  refine (W15_arr m ρ c 4).trans ?_
  rw [CombineValue.final5_4 (V14 m ρ) c, V14_v69, V14_v70, V14_v65_1]
  unfold kLayer64
  rw [combT64_of]

end Cert.KernelIdeal.Chain

end
-- ==== Proof.RefList.lean ====
/-
  The reference program's @main as one straight line of its 229 host operations — the three outlined gathers
  (each with its own outlined select) and the outlined log-softmax written out at their call sites over the call's
  buffers — cut into ten stretches; its run as the fold of the operations' results over the launch contents; and that
  no operation writes an argument.
-/
import proofs.«139878_j75204877353213_2_alg».proof.ReferenceIdeal
import proofs.«139878_j75204877353213_2_alg».proof.Proof.Gen.ReferenceIdeal
import Idealize.ShloMosaic.Lib.StableHlo.Run
import Idealize.ShloMosaic.Lib.Pipeline.Regions
import proofs.«139878_j75204877353213_2_alg».proof.Defs

noncomputable section

namespace Cert.ReferenceIdeal.RefRun

open Idealize.ShloMosaic Idealize.SL.Sem Idealize.ShloMosaic.StableHlo

/-! ## Lists of stretches -/

section Lists

variable {nD : Nat} {τ : Topo} {sig : RefSig} {Val : EltTy → Type} {Λ : Labels}

/-- Stretches run one after the other are their concatenation run as one. -/
theorem chain_map_seq : ∀ ls : List (List (HloOp τ sig Val)),
    (Pipeline.chain (ls.map (seq (nD := nD) (Λ := Λ))) : Prog (TpuEff nD τ sig Val Λ .tc) PUnit) = seq ls.flatten
  | [] => rfl
  | l :: ls => by
    rw [List.map_cons, Pipeline.chain_cons, chain_map_seq ls, List.flatten_cons, seq_append]

/-- The fold over a concatenation is the fold over the second part from the fold over the first. -/
theorem after_append' : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- An operation writing the one buffer `y` writes inside any list of references holding `y`. -/
theorem wsub {op : HloOp τ sig Val} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

end Lists

open Cert.ReferenceIdeal Cert.ReferenceIdeal.Gen

variable {F : FTy → Type} [FloatOps F]

/-! ## The ten stretches -/

/-- Layer 1 before the gather: the two edge rows, the two dense maps of the features, the self loops, the source and destination index vectors. 17 operations. -/
abbrev opsA1 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.unary main_arg4 main_v9 ((transpose S128x128 [1, 0] · transposes_S128x128_S128x128_1_0) : (⟨S128x128, .f32⟩ : BufTy).Contents (Elt F) → (⟨S128x128, .f32⟩ : BufTy).Contents (Elt F)),
    StableHlo.binary main_arg0 main_v9 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    StableHlo.nullary main_v14 (iotaInDim S50000 32 0),
    StableHlo.binary main_v1 main_v14 main_v15 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v14 main_v16 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

theorem opsA1_sub : (opsA1 : List (HloOp τ sig (Elt F))).Forall fun op => op.bufs ⊆ tcRefs τ sig :=
  ⟨unary_bufs_sub .., reshape_bufs_sub .., unary_bufs_sub .., reshape_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., binary_bufs_sub ..⟩

theorem opsA1_fresh : (opsA1 : List (HloOp τ sig (Elt F))).Forall fun op => op.fresh = ∅ :=
  ⟨rfl, rfl, rfl, rfl, rfl, rfl, rfl, rfl, rfl, rfl, rfl, rfl, rfl, rfl, rfl, rfl, rfl⟩

/-- The buffers `opsA1` writes, in order: one per operation. -/
abbrev wA1 : List (Ref sig .tc) :=
  [main_v0, main_v1, main_v2, main_v3, main_v4, main_v5, main_v6, main_v7, main_v8, main_v9, main_v10, main_v11, main_v12, main_v13, main_v14, main_v15, main_v16]

theorem opsA1_writes : (opsA1 : List (HloOp τ sig (Elt F))).Forall fun op => op.writes ⊆ ((wA1).map (Proc.devRef (τ := τ) .tc)).toFinset :=
  ⟨wsub main_v0 rfl (by decide), wsub main_v1 rfl (by decide), wsub main_v2 rfl (by decide), wsub main_v3 rfl (by decide), wsub main_v4 rfl (by decide), wsub main_v5 rfl (by decide), wsub main_v6 rfl (by decide), wsub main_v7 rfl (by decide), wsub main_v8 rfl (by decide), wsub main_v9 rfl (by decide), wsub main_v10 rfl (by decide), wsub main_v11 rfl (by decide), wsub main_v12 rfl (by decide), wsub main_v13 rfl (by decide), wsub main_v14 rfl (by decide), wsub main_v15 rfl (by decide), wsub main_v16 rfl (by decide)⟩

/-- A buffer `opsA1` does not write keeps its contents. -/
theorem opsA1_pass (V : Valuation τ sig (Elt F)) {r : Ref sig .tc} (hr : r ∉ wA1) :
    after opsA1 V (Proc.devRef .tc r) = V (Proc.devRef .tc r) :=
  after_of_writes_sub opsA1 V opsA1_writes hr

/-- Layer 1's gather of the source rows (negative indices wrapped, out-of-range rows NaN). 23 operations. -/
abbrev opsT1 : List (HloOp τ sig (Elt F)) :=
  [ StableHlo.TRef.nullary main_call0.c (constantI S_ 32 0#32),
    StableHlo.TRef.unary main_call0.c main_call0.v0 (broadcastInDim S850000 ![] bcast_S_S850000),
    StableHlo.TRef.binary (.of main_v15 : StableHlo.TRef sig ⟨S850000, .i32⟩) main_call0.v0 main_call0.v1 (cmpi .slt),
    StableHlo.TRef.nullary main_call0.c_0 (constantI S_ 32 50000#32),
    StableHlo.TRef.unary main_call0.c_0 main_call0.v2 (broadcastInDim S850000 ![] bcast_S_S850000),
    StableHlo.TRef.binary (.of main_v15 : StableHlo.TRef sig ⟨S850000, .i32⟩) main_call0.v2 main_call0.v3 addi,
    StableHlo.TRef.ternary main_call0.v1 main_call0.v3 (.of main_v15 : StableHlo.TRef sig ⟨S850000, .i32⟩) main_call0.call0.v0 select,
    StableHlo.TRef.unary main_call0.call0.v0 main_call0.v5 (broadcastInDim S850000x1 ![0] bcast_S850000_S850000x1_0),
    StableHlo.TRef.nullary main_call0.c_1 (constantI S1 32 49999#32),
    StableHlo.TRef.nullary main_call0.c_2 (constantI S_ 32 0#32),
    StableHlo.TRef.unary main_call0.c_2 main_call0.v6 (broadcastInDim S850000x1 ![] bcast_S_S850000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S850000x1 ![0, 1] bcast_S1x1_S850000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S850000x1_S850000_d1 h_S_),
    StableHlo.TRef.binary (.of main_v8 : StableHlo.TRef sig ⟨S50000x128, .f32⟩) main_call0.v5 main_call0.v13 (fun x i => Host.gather gather_S50000x128_S850000x1_S850000x128_1_0_n_n_0_1_1128 x i),
    StableHlo.TRef.unary main_call0.v12 main_call0.v14 (broadcastInDim S850000x128 ![0] bcast_S850000_S850000x128_0),
    StableHlo.TRef.nullary main_call0.cst (constant S_ .f32 0x7FC00000#32),
    StableHlo.TRef.unary main_call0.cst main_call0.v15 (broadcastInDim S850000x128 ![] bcast_S_S850000x128),
    StableHlo.TRef.ternary main_call0.v14 main_call0.v13 main_call0.v15 main_call0.v16 select ]

theorem opsT1_sub : (opsT1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsT1_fresh : (opsT1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers `opsT1` writes, in order: one per operation. -/
abbrev wT1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v17]

theorem opsT1_writes : (opsT1 : List (HloOp τ sig (Elt F))).Forall fun op => op.writes ⊆ ((wT1).map (Proc.devRef (τ := τ) .tc)).toFinset :=
  ⟨wsub main_call0_c rfl (by decide), wsub main_call0_v0 rfl (by decide), wsub main_call0_v1 rfl (by decide), wsub main_call0_c_0 rfl (by decide), wsub main_call0_v2 rfl (by decide), wsub main_call0_v3 rfl (by decide), wsub main_call0_v4 rfl (by decide), wsub main_call0_v5 rfl (by decide), wsub main_call0_c_1 rfl (by decide), wsub main_call0_c_2 rfl (by decide), wsub main_call0_v6 rfl (by decide), wsub main_call0_v7 rfl (by decide), wsub main_call0_v8 rfl (by decide), wsub main_call0_v9 rfl (by decide), wsub main_call0_v10 rfl (by decide), wsub main_call0_v11 rfl (by decide), wsub main_call0_c_3 rfl (by decide), wsub main_call0_v12 rfl (by decide), wsub main_call0_v13 rfl (by decide), wsub main_call0_v14 rfl (by decide), wsub main_call0_cst rfl (by decide), wsub main_call0_v15 rfl (by decide), wsub main_v17 rfl (by decide)⟩

/-- A buffer `opsT1` does not write keeps its contents. -/
theorem opsT1_pass (V : Valuation τ sig (Elt F)) {r : Ref sig .tc} (hr : r ∉ wT1) :
    after opsT1 V (Proc.devRef .tc r) = V (Proc.devRef .tc r) :=
  after_of_writes_sub opsT1 V opsT1_writes hr

/-- Layer 1 after the gather: the scatter-add, the in-degree, the mean aggregation, then the batch statistics and the normalisation up to the scale by γ and β's row. 42 operations. -/
abbrev opsB1 : List (HloOp τ sig (Elt F)) :=
  [ StableHlo.nullary main_cst (constant S_ .f32 0x00000000#32),
    StableHlo.unary main_cst main_v18 (broadcastInDim S50000x128 ![] bcast_S_S50000x128 : (⟨S_, .f32⟩ : BufTy).Contents (Elt F) → (⟨S50000x128, .f32⟩ : BufTy).Contents (Elt F)),
    StableHlo.unary main_v16 main_v19 (broadcastInDim S850000x1 ![0] bcast_S850000_S850000x1_0 : (⟨S850000, .i32⟩ : BufTy).Contents (Elt F) → (⟨S850000x1, .i32⟩ : BufTy).Contents (Elt F)),
    StableHlo.ternary main_v18 main_v19 main_v17 main_v20 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_0 (constant S_ .f32 0x3F800000#32),
    StableHlo.unary main_cst_0 main_v21 (broadcastInDim S850000 ![] bcast_S_S850000 : (⟨S_, .f32⟩ : BufTy).Contents (Elt F) → (⟨S850000, .f32⟩ : BufTy).Contents (Elt F)),
    StableHlo.nullary main_cst_1 (constant S_ .f32 0x00000000#32),
    StableHlo.unary main_cst_1 main_v22 (broadcastInDim S50000 ![] bcast_S_S50000 : (⟨S_, .f32⟩ : BufTy).Contents (Elt F) → (⟨S50000, .f32⟩ : BufTy).Contents (Elt F)),
    StableHlo.unary main_v16 main_v23 (broadcastInDim S850000x1 ![0] bcast_S850000_S850000x1_0 : (⟨S850000, .i32⟩ : BufTy).Contents (Elt F) → (⟨S850000x1, .i32⟩ : BufTy).Contents (Elt F)),
    StableHlo.ternary main_v22 main_v23 main_v21 main_v24 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v24 main_v25 (broadcastInDim S50000x1 ![0] bcast_S50000_S50000x1_0 : (⟨S50000, .f32⟩ : BufTy).Contents (Elt F) → (⟨S50000x1, .f32⟩ : BufTy).Contents (Elt F)),
    StableHlo.unary main_v25 main_v26 (broadcastInDim S50000x128 ![0, 1] bcast_S50000x1_S50000x128_0_1 : (⟨S50000x1, .f32⟩ : BufTy).Contents (Elt F) → (⟨S50000x128, .f32⟩ : BufTy).Contents (Elt F)),
    StableHlo.binary main_v20 main_v26 main_v27 (Host.divf : (⟨S50000x128, .f32⟩ : BufTy).Contents (Elt F) → (⟨S50000x128, .f32⟩ : BufTy).Contents (Elt F) → (⟨S50000x128, .f32⟩ : BufTy).Contents (Elt F)),
    StableHlo.binary main_v27 main_v13 main_v28 (addf : (⟨S50000x128, .f32⟩ : BufTy).Contents (Elt F) → (⟨S50000x128, .f32⟩ : BufTy).Contents (Elt F) → (⟨S50000x128, .f32⟩ : BufTy).Contents (Elt F)),
    StableHlo.nullary main_cst_2 (constant S_ .f32 0x00000000#32),
    StableHlo.binary main_v28 main_cst_2 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_3 (constant S_ .f32 0x47435000#32),
    StableHlo.unary main_cst_3 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.unary main_v31 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v33 main_v34 (subf : (⟨S50000x128, .f32⟩ : BufTy).Contents (Elt F) → (⟨S50000x128, .f32⟩ : BufTy).Contents (Elt F) → (⟨S50000x128, .f32⟩ : BufTy).Contents (Elt F)),
    StableHlo.binary main_v34 main_v34 main_v35 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v35 main_cst_4 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v37 (broadcastInDim S128 ![] bcast_S_S128 : (⟨S_, .f32⟩ : BufTy).Contents (Elt F) → (⟨S128, .f32⟩ : BufTy).Contents (Elt F)),
    StableHlo.binary main_v36 main_v37 main_v38 (Host.divf : (⟨S128, .f32⟩ : BufTy).Contents (Elt F) → (⟨S128, .f32⟩ : BufTy).Contents (Elt F) → (⟨S128, .f32⟩ : BufTy).Contents (Elt F)),
    StableHlo.unary main_v31 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v40 main_v41 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v42 (broadcastInDim S128 ![] bcast_S_S128 : (⟨S_, .f32⟩ : BufTy).Contents (Elt F) → (⟨S128, .f32⟩ : BufTy).Contents (Elt F)),
    StableHlo.binary main_v38 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v46 main_v47 (mulf : (⟨S50000x128, .f32⟩ : BufTy).Contents (Elt F) → (⟨S50000x128, .f32⟩ : BufTy).Contents (Elt F) → (⟨S50000x128, .f32⟩ : BufTy).Contents (Elt F)),
    StableHlo.unary main_arg14 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg15 main_v51 (broadcastInDim S1x128 ![1] bcast_S128_S1x128_1 : (⟨S128, .f32⟩ : BufTy).Contents (Elt F) → (⟨S1x128, .f32⟩ : BufTy).Contents (Elt F)) ]

theorem opsB1_sub : (opsB1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

theorem opsB1_fresh : (opsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `opsB1` writes, in order: one per operation. -/
abbrev wB1 : List (Ref sig .tc) :=
  [main_cst, main_v18, main_v19, main_v20, main_cst_0, main_v21, main_cst_1, main_v22, main_v23, main_v24, main_v25, main_v26, main_v27, main_v28, main_cst_2, main_v29, main_cst_3, main_v30, main_v31, main_v32, main_v33, main_v34, main_v35, main_cst_4, main_v36, main_cst_5, main_v37, main_v38, main_v39, main_v40, main_v41, main_cst_6, main_v42, main_v43, main_v44, main_v45, main_v46, main_v47, main_v48, main_v49, main_v50, main_v51]

theorem opsB1_writes : (opsB1 : List (HloOp τ sig (Elt F))).Forall fun op => op.writes ⊆ ((wB1).map (Proc.devRef (τ := τ) .tc)).toFinset :=
  ⟨wsub main_cst rfl (by decide), wsub main_v18 rfl (by decide), wsub main_v19 rfl (by decide), wsub main_v20 rfl (by decide), wsub main_cst_0 rfl (by decide), wsub main_v21 rfl (by decide), wsub main_cst_1 rfl (by decide), wsub main_v22 rfl (by decide), wsub main_v23 rfl (by decide), wsub main_v24 rfl (by decide), wsub main_v25 rfl (by decide), wsub main_v26 rfl (by decide), wsub main_v27 rfl (by decide), wsub main_v28 rfl (by decide), wsub main_cst_2 rfl (by decide), wsub main_v29 rfl (by decide), wsub main_cst_3 rfl (by decide), wsub main_v30 rfl (by decide), wsub main_v31 rfl (by decide), wsub main_v32 rfl (by decide), wsub main_v33 rfl (by decide), wsub main_v34 rfl (by decide), wsub main_v35 rfl (by decide), wsub main_cst_4 rfl (by decide), wsub main_v36 rfl (by decide), wsub main_cst_5 rfl (by decide), wsub main_v37 rfl (by decide), wsub main_v38 rfl (by decide), wsub main_v39 rfl (by decide), wsub main_v40 rfl (by decide), wsub main_v41 rfl (by decide), wsub main_cst_6 rfl (by decide), wsub main_v42 rfl (by decide), wsub main_v43 rfl (by decide), wsub main_v44 rfl (by decide), wsub main_v45 rfl (by decide), wsub main_v46 rfl (by decide), wsub main_v47 rfl (by decide), wsub main_v48 rfl (by decide), wsub main_v49 rfl (by decide), wsub main_v50 rfl (by decide), wsub main_v51 rfl (by decide)⟩

/-- A buffer `opsB1` does not write keeps its contents. -/
theorem opsB1_pass (V : Valuation τ sig (Elt F)) {r : Ref sig .tc} (hr : r ∉ wB1) :
    after opsB1 V (Proc.devRef .tc r) = V (Proc.devRef .tc r) :=
  after_of_writes_sub opsB1 V opsB1_writes hr

/-- The shift by β closing the first normalisation, then layer 2 before the gather. 15 operations. -/
abbrev opsA2 : List (HloOp τ sig (Elt F)) :=
  [ StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)),
    StableHlo.unary main_arg6 main_v54 ((transpose S128x128 [1, 0] · transposes_S128x128_S128x128_1_0) : (⟨S128x128, .f32⟩ : BufTy).Contents (Elt F) → (⟨S128x128, .f32⟩ : BufTy).Contents (Elt F)),
    StableHlo.binary main_v53 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v57 main_v58 (addf : (⟨S50000x128, .f32⟩ : BufTy).Contents (Elt F) → (⟨S50000x128, .f32⟩ : BufTy).Contents (Elt F) → (⟨S50000x128, .f32⟩ : BufTy).Contents (Elt F)),
    StableHlo.unary main_arg8 main_v59 ((transpose S128x128 [1, 0] · transposes_S128x128_S128x128_1_0) : (⟨S128x128, .f32⟩ : BufTy).Contents (Elt F) → (⟨S128x128, .f32⟩ : BufTy).Contents (Elt F)),
    StableHlo.binary main_v53 main_v59 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.nullary main_v64 (iotaInDim S50000 32 0),
    StableHlo.binary main_v1 main_v64 main_v65 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v64 main_v66 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

theorem opsA2_sub : (opsA2 : List (HloOp τ sig (Elt F))).Forall fun op => op.bufs ⊆ tcRefs τ sig :=
  ⟨unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., binary_bufs_sub ..⟩

theorem opsA2_fresh : (opsA2 : List (HloOp τ sig (Elt F))).Forall fun op => op.fresh = ∅ :=
  ⟨rfl, rfl, rfl, rfl, rfl, rfl, rfl, rfl, rfl, rfl, rfl, rfl, rfl, rfl, rfl⟩

/-- The buffers `opsA2` writes, in order: one per operation. -/
abbrev wA2 : List (Ref sig .tc) :=
  [main_v52, main_v53, main_v54, main_v55, main_v56, main_v57, main_v58, main_v59, main_v60, main_v61, main_v62, main_v63, main_v64, main_v65, main_v66]

theorem opsA2_writes : (opsA2 : List (HloOp τ sig (Elt F))).Forall fun op => op.writes ⊆ ((wA2).map (Proc.devRef (τ := τ) .tc)).toFinset :=
  ⟨wsub main_v52 rfl (by decide), wsub main_v53 rfl (by decide), wsub main_v54 rfl (by decide), wsub main_v55 rfl (by decide), wsub main_v56 rfl (by decide), wsub main_v57 rfl (by decide), wsub main_v58 rfl (by decide), wsub main_v59 rfl (by decide), wsub main_v60 rfl (by decide), wsub main_v61 rfl (by decide), wsub main_v62 rfl (by decide), wsub main_v63 rfl (by decide), wsub main_v64 rfl (by decide), wsub main_v65 rfl (by decide), wsub main_v66 rfl (by decide)⟩

/-- A buffer `opsA2` does not write keeps its contents. -/
theorem opsA2_pass (V : Valuation τ sig (Elt F)) {r : Ref sig .tc} (hr : r ∉ wA2) :
    after opsA2 V (Proc.devRef .tc r) = V (Proc.devRef .tc r) :=
  after_of_writes_sub opsA2 V opsA2_writes hr

/-- Layer 2's gather. 23 operations. -/
abbrev opsT2 : List (HloOp τ sig (Elt F)) :=
  [ StableHlo.TRef.nullary main_call1.c (constantI S_ 32 0#32),
    StableHlo.TRef.unary main_call1.c main_call1.v0 (broadcastInDim S850000 ![] bcast_S_S850000),
    StableHlo.TRef.binary (.of main_v65 : StableHlo.TRef sig ⟨S850000, .i32⟩) main_call1.v0 main_call1.v1 (cmpi .slt),
    StableHlo.TRef.nullary main_call1.c_0 (constantI S_ 32 50000#32),
    StableHlo.TRef.unary main_call1.c_0 main_call1.v2 (broadcastInDim S850000 ![] bcast_S_S850000),
    StableHlo.TRef.binary (.of main_v65 : StableHlo.TRef sig ⟨S850000, .i32⟩) main_call1.v2 main_call1.v3 addi,
    StableHlo.TRef.ternary main_call1.v1 main_call1.v3 (.of main_v65 : StableHlo.TRef sig ⟨S850000, .i32⟩) main_call1.call0.v0 select,
    StableHlo.TRef.unary main_call1.call0.v0 main_call1.v5 (broadcastInDim S850000x1 ![0] bcast_S850000_S850000x1_0),
    StableHlo.TRef.nullary main_call1.c_1 (constantI S1 32 49999#32),
    StableHlo.TRef.nullary main_call1.c_2 (constantI S_ 32 0#32),
    StableHlo.TRef.unary main_call1.c_2 main_call1.v6 (broadcastInDim S850000x1 ![] bcast_S_S850000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S850000x1 ![0, 1] bcast_S1x1_S850000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S850000x1_S850000_d1 h_S_),
    StableHlo.TRef.binary (.of main_v58 : StableHlo.TRef sig ⟨S50000x128, .f32⟩) main_call1.v5 main_call1.v13 (fun x i => Host.gather gather_S50000x128_S850000x1_S850000x128_1_0_n_n_0_1_1128 x i),
    StableHlo.TRef.unary main_call1.v12 main_call1.v14 (broadcastInDim S850000x128 ![0] bcast_S850000_S850000x128_0),
    StableHlo.TRef.nullary main_call1.cst (constant S_ .f32 0x7FC00000#32),
    StableHlo.TRef.unary main_call1.cst main_call1.v15 (broadcastInDim S850000x128 ![] bcast_S_S850000x128),
    StableHlo.TRef.ternary main_call1.v14 main_call1.v13 main_call1.v15 main_call1.v16 select ]

theorem opsT2_sub : (opsT2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsT2_fresh : (opsT2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers `opsT2` writes, in order: one per operation. -/
abbrev wT2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v67]

theorem opsT2_writes : (opsT2 : List (HloOp τ sig (Elt F))).Forall fun op => op.writes ⊆ ((wT2).map (Proc.devRef (τ := τ) .tc)).toFinset :=
  ⟨wsub main_call1_c rfl (by decide), wsub main_call1_v0 rfl (by decide), wsub main_call1_v1 rfl (by decide), wsub main_call1_c_0 rfl (by decide), wsub main_call1_v2 rfl (by decide), wsub main_call1_v3 rfl (by decide), wsub main_call1_v4 rfl (by decide), wsub main_call1_v5 rfl (by decide), wsub main_call1_c_1 rfl (by decide), wsub main_call1_c_2 rfl (by decide), wsub main_call1_v6 rfl (by decide), wsub main_call1_v7 rfl (by decide), wsub main_call1_v8 rfl (by decide), wsub main_call1_v9 rfl (by decide), wsub main_call1_v10 rfl (by decide), wsub main_call1_v11 rfl (by decide), wsub main_call1_c_3 rfl (by decide), wsub main_call1_v12 rfl (by decide), wsub main_call1_v13 rfl (by decide), wsub main_call1_v14 rfl (by decide), wsub main_call1_cst rfl (by decide), wsub main_call1_v15 rfl (by decide), wsub main_v67 rfl (by decide)⟩

/-- A buffer `opsT2` does not write keeps its contents. -/
theorem opsT2_pass (V : Valuation τ sig (Elt F)) {r : Ref sig .tc} (hr : r ∉ wT2) :
    after opsT2 V (Proc.devRef .tc r) = V (Proc.devRef .tc r) :=
  after_of_writes_sub opsT2 V opsT2_writes hr

/-- Layer 2 after the gather, and the second normalisation. 44 operations. -/
abbrev opsB2 : List (HloOp τ sig (Elt F)) :=
  [ StableHlo.nullary main_cst_7 (constant S_ .f32 0x00000000#32),
    StableHlo.unary main_cst_7 main_v68 (broadcastInDim S50000x128 ![] bcast_S_S50000x128 : (⟨S_, .f32⟩ : BufTy).Contents (Elt F) → (⟨S50000x128, .f32⟩ : BufTy).Contents (Elt F)),
    StableHlo.unary main_v66 main_v69 (broadcastInDim S850000x1 ![0] bcast_S850000_S850000x1_0 : (⟨S850000, .i32⟩ : BufTy).Contents (Elt F) → (⟨S850000x1, .i32⟩ : BufTy).Contents (Elt F)),
    StableHlo.ternary main_v68 main_v69 main_v67 main_v70 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.nullary main_cst_8 (constant S_ .f32 0x3F800000#32),
    StableHlo.unary main_cst_8 main_v71 (broadcastInDim S850000 ![] bcast_S_S850000 : (⟨S_, .f32⟩ : BufTy).Contents (Elt F) → (⟨S850000, .f32⟩ : BufTy).Contents (Elt F)),
    StableHlo.nullary main_cst_9 (constant S_ .f32 0x00000000#32),
    StableHlo.unary main_cst_9 main_v72 (broadcastInDim S50000 ![] bcast_S_S50000 : (⟨S_, .f32⟩ : BufTy).Contents (Elt F) → (⟨S50000, .f32⟩ : BufTy).Contents (Elt F)),
    StableHlo.unary main_v66 main_v73 (broadcastInDim S850000x1 ![0] bcast_S850000_S850000x1_0 : (⟨S850000, .i32⟩ : BufTy).Contents (Elt F) → (⟨S850000x1, .i32⟩ : BufTy).Contents (Elt F)),
    StableHlo.ternary main_v72 main_v73 main_v71 main_v74 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v74 main_v75 (broadcastInDim S50000x1 ![0] bcast_S50000_S50000x1_0 : (⟨S50000, .f32⟩ : BufTy).Contents (Elt F) → (⟨S50000x1, .f32⟩ : BufTy).Contents (Elt F)),
    StableHlo.unary main_v75 main_v76 (broadcastInDim S50000x128 ![0, 1] bcast_S50000x1_S50000x128_0_1 : (⟨S50000x1, .f32⟩ : BufTy).Contents (Elt F) → (⟨S50000x128, .f32⟩ : BufTy).Contents (Elt F)),
    StableHlo.binary main_v70 main_v76 main_v77 (Host.divf : (⟨S50000x128, .f32⟩ : BufTy).Contents (Elt F) → (⟨S50000x128, .f32⟩ : BufTy).Contents (Elt F) → (⟨S50000x128, .f32⟩ : BufTy).Contents (Elt F)),
    StableHlo.binary main_v77 main_v63 main_v78 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v78 main_cst_10 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v83 main_v84 (subf : (⟨S50000x128, .f32⟩ : BufTy).Contents (Elt F) → (⟨S50000x128, .f32⟩ : BufTy).Contents (Elt F) → (⟨S50000x128, .f32⟩ : BufTy).Contents (Elt F)),
    StableHlo.binary main_v84 main_v84 main_v85 (mulf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v85 main_cst_12 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)),
    StableHlo.unary main_v81 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v90 main_v91 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v96 main_v97 (mulf : (⟨S50000x128, .f32⟩ : BufTy).Contents (Elt F) → (⟨S50000x128, .f32⟩ : BufTy).Contents (Elt F) → (⟨S50000x128, .f32⟩ : BufTy).Contents (Elt F)),
    StableHlo.unary main_arg16 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v99 main_v100 (mulf : (⟨S50000x128, .f32⟩ : BufTy).Contents (Elt F) → (⟨S50000x128, .f32⟩ : BufTy).Contents (Elt F) → (⟨S50000x128, .f32⟩ : BufTy).Contents (Elt F)),
    StableHlo.unary main_arg17 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)) ]

theorem opsB2_sub : (opsB2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsB2_fresh : (opsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers `opsB2` writes, in order: one per operation. -/
abbrev wB2 : List (Ref sig .tc) :=
  [main_cst_7, main_v68, main_v69, main_v70, main_cst_8, main_v71, main_cst_9, main_v72, main_v73, main_v74, main_v75, main_v76, main_v77, main_v78, main_cst_10, main_v79, main_cst_11, main_v80, main_v81, main_v82, main_v83, main_v84, main_v85, main_cst_12, main_v86, main_cst_13, main_v87, main_v88, main_v89, main_v90, main_v91, main_cst_14, main_v92, main_v93, main_v94, main_v95, main_v96, main_v97, main_v98, main_v99, main_v100, main_v101, main_v102, main_v103]

theorem opsB2_writes : (opsB2 : List (HloOp τ sig (Elt F))).Forall fun op => op.writes ⊆ ((wB2).map (Proc.devRef (τ := τ) .tc)).toFinset :=
  ⟨wsub main_cst_7 rfl (by decide), wsub main_v68 rfl (by decide), wsub main_v69 rfl (by decide), wsub main_v70 rfl (by decide), wsub main_cst_8 rfl (by decide), wsub main_v71 rfl (by decide), wsub main_cst_9 rfl (by decide), wsub main_v72 rfl (by decide), wsub main_v73 rfl (by decide), wsub main_v74 rfl (by decide), wsub main_v75 rfl (by decide), wsub main_v76 rfl (by decide), wsub main_v77 rfl (by decide), wsub main_v78 rfl (by decide), wsub main_cst_10 rfl (by decide), wsub main_v79 rfl (by decide), wsub main_cst_11 rfl (by decide), wsub main_v80 rfl (by decide), wsub main_v81 rfl (by decide), wsub main_v82 rfl (by decide), wsub main_v83 rfl (by decide), wsub main_v84 rfl (by decide), wsub main_v85 rfl (by decide), wsub main_cst_12 rfl (by decide), wsub main_v86 rfl (by decide), wsub main_cst_13 rfl (by decide), wsub main_v87 rfl (by decide), wsub main_v88 rfl (by decide), wsub main_v89 rfl (by decide), wsub main_v90 rfl (by decide), wsub main_v91 rfl (by decide), wsub main_cst_14 rfl (by decide), wsub main_v92 rfl (by decide), wsub main_v93 rfl (by decide), wsub main_v94 rfl (by decide), wsub main_v95 rfl (by decide), wsub main_v96 rfl (by decide), wsub main_v97 rfl (by decide), wsub main_v98 rfl (by decide), wsub main_v99 rfl (by decide), wsub main_v100 rfl (by decide), wsub main_v101 rfl (by decide), wsub main_v102 rfl (by decide), wsub main_v103 rfl (by decide)⟩

/-- A buffer `opsB2` does not write keeps its contents. -/
theorem opsB2_pass (V : Valuation τ sig (Elt F)) {r : Ref sig .tc} (hr : r ∉ wB2) :
    after opsB2 V (Proc.devRef .tc r) = V (Proc.devRef .tc r) :=
  after_of_writes_sub opsB2 V opsB2_writes hr

/-- Layer 3 before the gather. 13 operations. -/
abbrev opsA3 : List (HloOp τ sig (Elt F)) :=
  [ StableHlo.unary main_arg10 main_v104 ((transpose S128x64 [1, 0] · transposes_S64x128_S128x64_1_0) : (⟨S64x128, .f32⟩ : BufTy).Contents (Elt F) → (⟨S128x64, .f32⟩ : BufTy).Contents (Elt F)),
    StableHlo.binary main_v103 main_v104 main_v105 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v106 (broadcastInDim S1x64 ![1] bcast_S64_S1x64_1 : (⟨S64, .f32⟩ : BufTy).Contents (Elt F) → (⟨S1x64, .f32⟩ : BufTy).Contents (Elt F)),
    StableHlo.unary main_v106 main_v107 (broadcastInDim S50000x64 ![0, 1] bcast_S1x64_S50000x64_0_1 : (⟨S1x64, .f32⟩ : BufTy).Contents (Elt F) → (⟨S50000x64, .f32⟩ : BufTy).Contents (Elt F)),
    StableHlo.binary main_v105 main_v107 main_v108 (addf : (⟨S50000x64, .f32⟩ : BufTy).Contents (Elt F) → (⟨S50000x64, .f32⟩ : BufTy).Contents (Elt F) → (⟨S50000x64, .f32⟩ : BufTy).Contents (Elt F)),
    StableHlo.unary main_arg12 main_v109 ((transpose S128x64 [1, 0] · transposes_S64x128_S128x64_1_0) : (⟨S64x128, .f32⟩ : BufTy).Contents (Elt F) → (⟨S128x64, .f32⟩ : BufTy).Contents (Elt F)),
    StableHlo.binary main_v103 main_v109 main_v110 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg13 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)),
    StableHlo.nullary main_v114 (iotaInDim S50000 32 0),
    StableHlo.binary main_v1 main_v114 main_v115 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v114 main_v116 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

theorem opsA3_sub : (opsA3 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., binary_bufs_sub ..⟩

theorem opsA3_fresh : (opsA3 : List (HloOp τ sig (Elt F))).Forall fun op => op.fresh = ∅ :=
  ⟨rfl, rfl, rfl, rfl, rfl, rfl, rfl, rfl, rfl, rfl, rfl, rfl, rfl⟩

/-- The buffers `opsA3` writes, in order: one per operation. -/
abbrev wA3 : List (Ref sig .tc) :=
  [main_v104, main_v105, main_v106, main_v107, main_v108, main_v109, main_v110, main_v111, main_v112, main_v113, main_v114, main_v115, main_v116]

theorem opsA3_writes : (opsA3 : List (HloOp τ sig (Elt F))).Forall fun op => op.writes ⊆ ((wA3).map (Proc.devRef (τ := τ) .tc)).toFinset :=
  ⟨wsub main_v104 rfl (by decide), wsub main_v105 rfl (by decide), wsub main_v106 rfl (by decide), wsub main_v107 rfl (by decide), wsub main_v108 rfl (by decide), wsub main_v109 rfl (by decide), wsub main_v110 rfl (by decide), wsub main_v111 rfl (by decide), wsub main_v112 rfl (by decide), wsub main_v113 rfl (by decide), wsub main_v114 rfl (by decide), wsub main_v115 rfl (by decide), wsub main_v116 rfl (by decide)⟩

/-- A buffer `opsA3` does not write keeps its contents. -/
theorem opsA3_pass (V : Valuation τ sig (Elt F)) {r : Ref sig .tc} (hr : r ∉ wA3) :
    after opsA3 V (Proc.devRef .tc r) = V (Proc.devRef .tc r) :=
  after_of_writes_sub opsA3 V opsA3_writes hr

/-- Layer 3's gather (64 features). 23 operations. -/
abbrev opsT3 : List (HloOp τ sig (Elt F)) :=
  [ StableHlo.TRef.nullary main_call2.c (constantI S_ 32 0#32),
    StableHlo.TRef.unary main_call2.c main_call2.v0 (broadcastInDim S850000 ![] bcast_S_S850000),
    StableHlo.TRef.binary (.of main_v115 : StableHlo.TRef sig ⟨S850000, .i32⟩) main_call2.v0 main_call2.v1 (cmpi .slt),
    StableHlo.TRef.nullary main_call2.c_0 (constantI S_ 32 50000#32),
    StableHlo.TRef.unary main_call2.c_0 main_call2.v2 (broadcastInDim S850000 ![] bcast_S_S850000),
    StableHlo.TRef.binary (.of main_v115 : StableHlo.TRef sig ⟨S850000, .i32⟩) main_call2.v2 main_call2.v3 addi,
    StableHlo.TRef.ternary main_call2.v1 main_call2.v3 (.of main_v115 : StableHlo.TRef sig ⟨S850000, .i32⟩) main_call2.call0.v0 select,
    StableHlo.TRef.unary main_call2.call0.v0 main_call2.v5 (broadcastInDim S850000x1 ![0] bcast_S850000_S850000x1_0),
    StableHlo.TRef.nullary main_call2.c_1 (constantI S1 32 49999#32),
    StableHlo.TRef.nullary main_call2.c_2 (constantI S_ 32 0#32),
    StableHlo.TRef.unary main_call2.c_2 main_call2.v6 (broadcastInDim S850000x1 ![] bcast_S_S850000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S850000x1 ![0, 1] bcast_S1x1_S850000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S850000x1_S850000_d1 h_S_),
    StableHlo.TRef.binary (.of main_v108 : StableHlo.TRef sig ⟨S50000x64, .f32⟩) main_call2.v5 main_call2.v13 (fun x i => Host.gather gather_S50000x64_S850000x1_S850000x64_1_0_n_n_0_1_164 x i),
    StableHlo.TRef.unary main_call2.v12 main_call2.v14 (broadcastInDim S850000x64 ![0] bcast_S850000_S850000x64_0),
    StableHlo.TRef.nullary main_call2.cst (constant S_ .f32 0x7FC00000#32),
    StableHlo.TRef.unary main_call2.cst main_call2.v15 (broadcastInDim S850000x64 ![] bcast_S_S850000x64),
    StableHlo.TRef.ternary main_call2.v14 main_call2.v13 main_call2.v15 main_call2.v16 select ]

theorem opsT3_sub : (opsT3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsT3_fresh : (opsT3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers `opsT3` writes, in order: one per operation. -/
abbrev wT3 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v117]

theorem opsT3_writes : (opsT3 : List (HloOp τ sig (Elt F))).Forall fun op => op.writes ⊆ ((wT3).map (Proc.devRef (τ := τ) .tc)).toFinset :=
  ⟨wsub main_call2_c rfl (by decide), wsub main_call2_v0 rfl (by decide), wsub main_call2_v1 rfl (by decide), wsub main_call2_c_0 rfl (by decide), wsub main_call2_v2 rfl (by decide), wsub main_call2_v3 rfl (by decide), wsub main_call2_v4 rfl (by decide), wsub main_call2_v5 rfl (by decide), wsub main_call2_c_1 rfl (by decide), wsub main_call2_c_2 rfl (by decide), wsub main_call2_v6 rfl (by decide), wsub main_call2_v7 rfl (by decide), wsub main_call2_v8 rfl (by decide), wsub main_call2_v9 rfl (by decide), wsub main_call2_v10 rfl (by decide), wsub main_call2_v11 rfl (by decide), wsub main_call2_c_3 rfl (by decide), wsub main_call2_v12 rfl (by decide), wsub main_call2_v13 rfl (by decide), wsub main_call2_v14 rfl (by decide), wsub main_call2_cst rfl (by decide), wsub main_call2_v15 rfl (by decide), wsub main_v117 rfl (by decide)⟩

/-- A buffer `opsT3` does not write keeps its contents. -/
theorem opsT3_pass (V : Valuation τ sig (Elt F)) {r : Ref sig .tc} (hr : r ∉ wT3) :
    after opsT3 V (Proc.devRef .tc r) = V (Proc.devRef .tc r) :=
  after_of_writes_sub opsT3 V opsT3_writes hr

/-- Layer 3 after the gather: the network's second result. 14 operations. -/
abbrev opsB3 : List (HloOp τ sig (Elt F)) :=
  [ StableHlo.nullary main_cst_15 (constant S_ .f32 0x00000000#32),
    StableHlo.unary main_cst_15 main_v118 (broadcastInDim S50000x64 ![] bcast_S_S50000x64 : (⟨S_, .f32⟩ : BufTy).Contents (Elt F) → (⟨S50000x64, .f32⟩ : BufTy).Contents (Elt F)),
    StableHlo.unary main_v116 main_v119 (broadcastInDim S850000x1 ![0] bcast_S850000_S850000x1_0 : (⟨S850000, .i32⟩ : BufTy).Contents (Elt F) → (⟨S850000x1, .i32⟩ : BufTy).Contents (Elt F)),
    StableHlo.ternary main_v118 main_v119 main_v117 main_v120 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.nullary main_cst_16 (constant S_ .f32 0x3F800000#32),
    StableHlo.unary main_cst_16 main_v121 (broadcastInDim S850000 ![] bcast_S_S850000 : (⟨S_, .f32⟩ : BufTy).Contents (Elt F) → (⟨S850000, .f32⟩ : BufTy).Contents (Elt F)),
    StableHlo.nullary main_cst_17 (constant S_ .f32 0x00000000#32),
    StableHlo.unary main_cst_17 main_v122 (broadcastInDim S50000 ![] bcast_S_S50000 : (⟨S_, .f32⟩ : BufTy).Contents (Elt F) → (⟨S50000, .f32⟩ : BufTy).Contents (Elt F)),
    StableHlo.unary main_v116 main_v123 (broadcastInDim S850000x1 ![0] bcast_S850000_S850000x1_0 : (⟨S850000, .i32⟩ : BufTy).Contents (Elt F) → (⟨S850000x1, .i32⟩ : BufTy).Contents (Elt F)),
    StableHlo.ternary main_v122 main_v123 main_v121 main_v124 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v124 main_v125 (broadcastInDim S50000x1 ![0] bcast_S50000_S50000x1_0 : (⟨S50000, .f32⟩ : BufTy).Contents (Elt F) → (⟨S50000x1, .f32⟩ : BufTy).Contents (Elt F)),
    StableHlo.unary main_v125 main_v126 (broadcastInDim S50000x64 ![0, 1] bcast_S50000x1_S50000x64_0_1 : (⟨S50000x1, .f32⟩ : BufTy).Contents (Elt F) → (⟨S50000x64, .f32⟩ : BufTy).Contents (Elt F)),
    StableHlo.binary main_v120 main_v126 main_v127 (Host.divf : (⟨S50000x64, .f32⟩ : BufTy).Contents (Elt F) → (⟨S50000x64, .f32⟩ : BufTy).Contents (Elt F) → (⟨S50000x64, .f32⟩ : BufTy).Contents (Elt F)),
    StableHlo.binary main_v127 main_v113 main_v128 (addf : (⟨S50000x64, .f32⟩ : BufTy).Contents (Elt F) → (⟨S50000x64, .f32⟩ : BufTy).Contents (Elt F) → (⟨S50000x64, .f32⟩ : BufTy).Contents (Elt F)) ]

theorem opsB3_sub : (opsB3 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., binary_bufs_sub ..⟩

theorem opsB3_fresh : (opsB3 : List (HloOp τ sig (Elt F))).Forall fun op => op.fresh = ∅ :=
  ⟨rfl, rfl, rfl, rfl, rfl, rfl, rfl, rfl, rfl, rfl, rfl, rfl, rfl, rfl⟩

/-- The buffers `opsB3` writes, in order: one per operation. -/
abbrev wB3 : List (Ref sig .tc) :=
  [main_cst_15, main_v118, main_v119, main_v120, main_cst_16, main_v121, main_cst_17, main_v122, main_v123, main_v124, main_v125, main_v126, main_v127, main_v128]

theorem opsB3_writes : (opsB3 : List (HloOp τ sig (Elt F))).Forall fun op => op.writes ⊆ ((wB3).map (Proc.devRef (τ := τ) .tc)).toFinset :=
  ⟨wsub main_cst_15 rfl (by decide), wsub main_v118 rfl (by decide), wsub main_v119 rfl (by decide), wsub main_v120 rfl (by decide), wsub main_cst_16 rfl (by decide), wsub main_v121 rfl (by decide), wsub main_cst_17 rfl (by decide), wsub main_v122 rfl (by decide), wsub main_v123 rfl (by decide), wsub main_v124 rfl (by decide), wsub main_v125 rfl (by decide), wsub main_v126 rfl (by decide), wsub main_v127 rfl (by decide), wsub main_v128 rfl (by decide)⟩

/-- A buffer `opsB3` does not write keeps its contents. -/
theorem opsB3_pass (V : Valuation τ sig (Elt F)) {r : Ref sig .tc} (hr : r ∉ wB3) :
    after opsB3 V (Proc.devRef .tc r) = V (Proc.devRef .tc r) :=
  after_of_writes_sub opsB3 V opsB3_writes hr

/-- The row-wise log-softmax: the network's first result. 15 operations. -/
abbrev opsL : List (HloOp τ sig (Elt F)) :=
  [ StableHlo.TRef.nullary main_call3.cst (constant S_ .f32 0xFF800000#32),
    StableHlo.TRef.binary (.of main_v128 : StableHlo.TRef sig ⟨S50000x64, .f32⟩) main_call3.cst main_call3.v0 (fun x v => Host.reduce FloatOps.maximumf x v reducesTo_S50000x64_S50000_d1 h_S_),
    StableHlo.TRef.nullary main_call3.cst_0 (constant S_ .f32 0xFF800000#32),
    StableHlo.TRef.unary main_call3.cst_0 main_call3.v1 (broadcastInDim S50000 ![] bcast_S_S50000),
    StableHlo.TRef.binary main_call3.v1 main_call3.v0 main_call3.v2 maximumf,
    StableHlo.TRef.unary main_call3.v2 main_call3.v3 (broadcastInDim S50000x1 ![0] bcast_S50000_S50000x1_0),
    StableHlo.TRef.unary main_call3.v3 main_call3.v4 (broadcastInDim S50000x64 ![0, 1] bcast_S50000x1_S50000x64_0_1),
    StableHlo.TRef.binary (.of main_v128 : StableHlo.TRef sig ⟨S50000x64, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S50000x64_S50000_d1 h_S_),
    StableHlo.TRef.unary main_call3.v7 main_call3.v8 (broadcastInDim S50000x1 ![0] bcast_S50000_S50000x1_0),
    StableHlo.TRef.unary main_call3.v8 main_call3.v9 Host.log,
    StableHlo.TRef.unary main_call3.v9 main_call3.v10 (broadcastInDim S50000x64 ![0, 1] bcast_S50000x1_S50000x64_0_1),
    StableHlo.TRef.binary main_call3.v5 main_call3.v10 main_call3.v11 subf ]

theorem opsL_sub : (opsL : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem opsL_fresh : (opsL : List (HloOp τ sig (Elt F))).Forall fun op => op.fresh = ∅ :=
  ⟨rfl, rfl, rfl, rfl, rfl, rfl, rfl, rfl, rfl, rfl, rfl, rfl, rfl, rfl, rfl⟩

/-- The buffers `opsL` writes, in order: one per operation. -/
abbrev wL : List (Ref sig .tc) :=
  [main_call3_cst, main_call3_v0, main_call3_cst_0, main_call3_v1, main_call3_v2, main_call3_v3, main_call3_v4, main_call3_v5, main_call3_v6, main_call3_cst_1, main_call3_v7, main_call3_v8, main_call3_v9, main_call3_v10, main_v129]

theorem opsL_writes : (opsL : List (HloOp τ sig (Elt F))).Forall fun op => op.writes ⊆ ((wL).map (Proc.devRef (τ := τ) .tc)).toFinset :=
  ⟨wsub main_call3_cst rfl (by decide), wsub main_call3_v0 rfl (by decide), wsub main_call3_cst_0 rfl (by decide), wsub main_call3_v1 rfl (by decide), wsub main_call3_v2 rfl (by decide), wsub main_call3_v3 rfl (by decide), wsub main_call3_v4 rfl (by decide), wsub main_call3_v5 rfl (by decide), wsub main_call3_v6 rfl (by decide), wsub main_call3_cst_1 rfl (by decide), wsub main_call3_v7 rfl (by decide), wsub main_call3_v8 rfl (by decide), wsub main_call3_v9 rfl (by decide), wsub main_call3_v10 rfl (by decide), wsub main_v129 rfl (by decide)⟩

/-- A buffer `opsL` does not write keeps its contents. -/
theorem opsL_pass (V : Valuation τ sig (Elt F)) {r : Ref sig .tc} (hr : r ∉ wL) :
    after opsL V (Proc.devRef .tc r) = V (Proc.devRef .tc r) :=
  after_of_writes_sub opsL V opsL_writes hr

/-! ## @main is the line -/

/-- All 229 operations, in order. -/
def ops : List (HloOp τ sig (Elt F)) :=
  opsA1 ++ (opsT1 ++ (opsB1 ++ (opsA2 ++ (opsT2 ++ (opsB2 ++ (opsA3 ++ (opsT3 ++ (opsB3 ++ (opsL)))))))))

theorem ops_def : (ops : List (HloOp τ sig (Elt F))) = opsA1 ++ (opsT1 ++ (opsB1 ++ (opsA2 ++ (opsT2 ++ (opsB2 ++ (opsA3 ++ (opsT3 ++ (opsB3 ++ (opsL))))))))) := rfl

/-- @main's first window is its three stretches in order (the last in tail position). -/
theorem main_part0_chain (c : Dev nD) : main_part0 (F := F) c
    = (Pipeline.chainK [seq opsA1, seq opsT1] (seq opsB1) : Prog (TpuEff nD τ sig (Elt F) (Pipeline.Sig Λ₀ (Fin 0) fun p => (pcfgs (F := F) p).Adm) .tc) PUnit) := by
  chain_rfl

theorem main_part1_chain (c : Dev nD) : main_part1 (F := F) c
    = (Pipeline.chainK [seq opsA2, seq opsT2] (seq opsB2) : Prog (TpuEff nD τ sig (Elt F) (Pipeline.Sig Λ₀ (Fin 0) fun p => (pcfgs (F := F) p).Adm) .tc) PUnit) := by
  chain_rfl

theorem main_part2_chain (c : Dev nD) : main_part2 (F := F) c
    = (Pipeline.chain [seq opsA3, seq opsT3, seq opsB3, seq opsL] : Prog (TpuEff nD τ sig (Elt F) (Pipeline.Sig Λ₀ (Fin 0) fun p => (pcfgs (F := F) p).Adm) .tc) PUnit) := by
  chain_rfl

/-- @main is the ten stretches in order. -/
theorem main_chain (c : Dev nD) : main (F := F) c
    = (Pipeline.chain [seq opsA1, seq opsT1, seq opsB1, seq opsA2, seq opsT2, seq opsB2, seq opsA3, seq opsT3, seq opsB3, seq opsL] : Prog (TpuEff nD τ sig (Elt F) (Pipeline.Sig Λ₀ (Fin 0) fun p => (pcfgs (F := F) p).Adm) .tc) PUnit) := by
  show (main_part0 (F := F) c >>= fun _ => (main_part1 (F := F) c >>= fun _ => main_part2 (F := F) c)) = _
  rewrite [main_part2_chain, main_part1_chain, Pipeline.chainK_bind_chain, main_part0_chain, Pipeline.chainK_bind_chain]
  rfl

/-- @main is the straight line of its 229 operations. -/
theorem main_eq (c : Dev nD) : main (F := F) c = seq ops := by
  rw [main_chain c, ops_def]
  refine (chain_map_seq [opsA1, opsT1, opsB1, opsA2, opsT2, opsB2, opsA3, opsT3, opsB3, opsL]).trans (congrArg seq ?_)
  simp only [List.flatten_cons, List.flatten_nil, List.append_nil]

theorem ops_sub : (ops : List (HloOp τ sig (Elt F))).Forall fun op => op.bufs ⊆ tcRefs τ sig := by
  rw [ops_def]
  exact List.forall_append.mpr ⟨opsA1_sub, List.forall_append.mpr ⟨opsT1_sub, List.forall_append.mpr ⟨opsB1_sub, List.forall_append.mpr ⟨opsA2_sub, List.forall_append.mpr ⟨opsT2_sub, List.forall_append.mpr ⟨opsB2_sub, List.forall_append.mpr ⟨opsA3_sub, List.forall_append.mpr ⟨opsT3_sub, List.forall_append.mpr ⟨opsB3_sub, opsL_sub⟩⟩⟩⟩⟩⟩⟩⟩⟩

theorem ops_fresh : (ops : List (HloOp τ sig (Elt F))).Forall fun op => op.fresh = ∅ := by
  rw [ops_def]
  exact List.forall_append.mpr ⟨opsA1_fresh, List.forall_append.mpr ⟨opsT1_fresh, List.forall_append.mpr ⟨opsB1_fresh, List.forall_append.mpr ⟨opsA2_fresh, List.forall_append.mpr ⟨opsT2_fresh, List.forall_append.mpr ⟨opsB2_fresh, List.forall_append.mpr ⟨opsA3_fresh, List.forall_append.mpr ⟨opsT3_fresh, List.forall_append.mpr ⟨opsB3_fresh, opsL_fresh⟩⟩⟩⟩⟩⟩⟩⟩⟩

/-- The fold over the line is the folds over the stretches, one inside the other. -/
theorem after_ops (V : Valuation τ sig (Elt F)) :
    after ops V = after opsL (after opsB3 (after opsT3 (after opsA3 (after opsB2 (after opsT2 (after opsA2 (after opsB1 (after opsT1 (after opsA1 (V)))))))))) := by
  simp only [ops_def, after_append']

/-- A buffer none of the stretches writes keeps its contents through the whole line. -/
theorem ops_pass (V : Valuation τ sig (Elt F)) {r : Ref sig .tc}
    (h0 : r ∉ wA1) (h1 : r ∉ wT1) (h2 : r ∉ wB1) (h3 : r ∉ wA2) (h4 : r ∉ wT2) (h5 : r ∉ wB2) (h6 : r ∉ wA3) (h7 : r ∉ wT3) (h8 : r ∉ wB3) (h9 : r ∉ wL) :
    after ops V (Proc.devRef .tc r) = V (Proc.devRef .tc r) := by
  rw [after_ops, opsL_pass _ h9, opsB3_pass _ h8, opsT3_pass _ h7, opsA3_pass _ h6, opsB2_pass _ h5, opsT2_pass _ h4, opsA2_pass _ h3, opsB1_pass _ h2, opsT1_pass _ h1, opsA1_pass _ h0]

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of @main
    terminates, and every final state has each buffer at the fold of the 229 operations' results over the launch
    contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- No operation writes an argument: the line leaves each argument's buffer as it was. -/
theorem arg_pass (V : Valuation τ sig (Elt F)) {r : Ref sig .tc} (hr : r ∈ [main_arg0, main_arg1, main_arg2, main_arg3, main_arg4, main_arg5, main_arg6, main_arg7, main_arg8, main_arg9, main_arg10, main_arg11, main_arg12, main_arg13, main_arg14, main_arg15, main_arg16, main_arg17]) :
    after ops V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl <;>
    exact ops_pass V (by decide) (by decide) (by decide) (by decide) (by decide) (by decide) (by decide) (by decide) (by decide) (by decide)

/-- The reference runs (terminates, no fault) and its argument arrays end unchanged. -/
theorem frame [Cert.ReferenceIdeal.Facts] [Cert.Pre_finite_inputs.Facts] : Cert.frame_ReferenceIdeal :=
  fun m ρ _ => (θ_run _ _ _).mono
    (fun _ h c => ⟨(h c main_arg0).trans (arg_pass (launchContents m c) (by decide)), ⟨(h c main_arg1).trans (arg_pass (launchContents m c) (by decide)), ⟨(h c main_arg2).trans (arg_pass (launchContents m c) (by decide)), ⟨(h c main_arg3).trans (arg_pass (launchContents m c) (by decide)), ⟨(h c main_arg4).trans (arg_pass (launchContents m c) (by decide)), ⟨(h c main_arg5).trans (arg_pass (launchContents m c) (by decide)), ⟨(h c main_arg6).trans (arg_pass (launchContents m c) (by decide)), ⟨(h c main_arg7).trans (arg_pass (launchContents m c) (by decide)), ⟨(h c main_arg8).trans (arg_pass (launchContents m c) (by decide)), ⟨(h c main_arg9).trans (arg_pass (launchContents m c) (by decide)), ⟨(h c main_arg10).trans (arg_pass (launchContents m c) (by decide)), ⟨(h c main_arg11).trans (arg_pass (launchContents m c) (by decide)), ⟨(h c main_arg12).trans (arg_pass (launchContents m c) (by decide)), ⟨(h c main_arg13).trans (arg_pass (launchContents m c) (by decide)), ⟨(h c main_arg14).trans (arg_pass (launchContents m c) (by decide)), ⟨(h c main_arg15).trans (arg_pass (launchContents m c) (by decide)), ⟨(h c main_arg16).trans (arg_pass (launchContents m c) (by decide)), (h c main_arg17).trans (arg_pass (launchContents m c) (by decide))⟩⟩⟩⟩⟩⟩⟩⟩⟩⟩⟩⟩⟩⟩⟩⟩⟩)
    (run_fold (F := Ideal) m ρ)

end Cert.ReferenceIdeal.RefRun

end
-- ==== Proof.RefRun.lean ====
/-
  The reference's run read back stage by stage: each stretch of its 229 operations computes one stage of the network
  from the contents before it, and the stretches composed are the network of the arguments.
-/
import proofs.«139878_j75204877353213_2_alg».proof.Proof.RefOps
import proofs.«139878_j75204877353213_2_alg».proof.Proof.RefList

set_option maxRecDepth 8192
set_option maxHeartbeats 4000000

noncomputable section

namespace Cert.ReferenceIdeal.RefRun

open Cert.ReferenceIdeal Cert.ReferenceIdeal.Gen Idealize.ShloMosaic Idealize.SL.Sem Idealize.ShloMosaic.StableHlo

/-- The contents of the device's buffers, over the extended reals. -/
abbrev VI : Type := Valuation τ sig (Elt Ideal)

variable {F : FTy → Type} [FloatOps F]

/-! ## The outlined functions' stretches over plain references

A stretch inlined from an outlined function is stated over typed references, whose operations move each function
along the reference's type equation — the identity at a literal reference. The same stretch over the buffers
themselves, and the two equal (each operation of the one unfolds to the operation of the other). -/

/-- `opsT1` over the buffers themselves. -/
abbrev opsT1' : List (HloOp τ sig (Elt F)) :=
  [ StableHlo.nullary main_call0_c (constantI S_ 32 0#32),
    StableHlo.unary main_call0_c main_call0_v0 ((broadcastInDim S850000 ![] bcast_S_S850000) : (⟨S_, .i32⟩ : BufTy).Contents (Elt F) → (⟨S850000, .i32⟩ : BufTy).Contents (Elt F)),
    StableHlo.binary main_v15 main_call0_v0 main_call0_v1 ((cmpi .slt) : (⟨S850000, .i32⟩ : BufTy).Contents (Elt F) → (⟨S850000, .i32⟩ : BufTy).Contents (Elt F) → (⟨S850000, .i1⟩ : BufTy).Contents (Elt F)),
    StableHlo.nullary main_call0_c_0 (constantI S_ 32 50000#32),
    StableHlo.unary main_call0_c_0 main_call0_v2 ((broadcastInDim S850000 ![] bcast_S_S850000) : (⟨S_, .i32⟩ : BufTy).Contents (Elt F) → (⟨S850000, .i32⟩ : BufTy).Contents (Elt F)),
    StableHlo.binary main_v15 main_call0_v2 main_call0_v3 ((addi) : (⟨S850000, .i32⟩ : BufTy).Contents (Elt F) → (⟨S850000, .i32⟩ : BufTy).Contents (Elt F) → (⟨S850000, .i32⟩ : BufTy).Contents (Elt F)),
    StableHlo.ternary main_call0_v1 main_call0_v3 main_v15 main_call0_v4 ((select) : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_call0_v4 main_call0_v5 ((broadcastInDim S850000x1 ![0] bcast_S850000_S850000x1_0) : (⟨S850000, .i32⟩ : BufTy).Contents (Elt F) → (⟨S850000x1, .i32⟩ : BufTy).Contents (Elt F)),
    StableHlo.nullary main_call0_c_1 (constantI S1 32 49999#32),
    StableHlo.nullary main_call0_c_2 (constantI S_ 32 0#32),
    StableHlo.unary main_call0_c_2 main_call0_v6 ((broadcastInDim S850000x1 ![] bcast_S_S850000x1) : (⟨S_, .i32⟩ : BufTy).Contents (Elt F) → (⟨S850000x1, .i32⟩ : BufTy).Contents (Elt F)),
    StableHlo.binary main_call0_v5 main_call0_v6 main_call0_v7 ((cmpi .sge) : (⟨S850000x1, .i32⟩ : BufTy).Contents (Elt F) → (⟨S850000x1, .i32⟩ : BufTy).Contents (Elt F) → (⟨S850000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S850000x1 ![0, 1] bcast_S1x1_S850000x1_0_1) : (⟨S1x1, .i32⟩ : BufTy).Contents (Elt F) → (⟨S850000x1, .i32⟩ : BufTy).Contents (Elt F)),
    StableHlo.binary main_call0_v5 main_call0_v9 main_call0_v10 ((cmpi .sle) : (⟨S850000x1, .i32⟩ : BufTy).Contents (Elt F) → (⟨S850000x1, .i32⟩ : BufTy).Contents (Elt F) → (⟨S850000x1, .i1⟩ : BufTy).Contents (Elt F)),
    StableHlo.binary main_call0_v7 main_call0_v10 main_call0_v11 ((andi) : (⟨S850000x1, .i1⟩ : BufTy).Contents (Elt F) → (⟨S850000x1, .i1⟩ : BufTy).Contents (Elt F) → (⟨S850000x1, .i1⟩ : BufTy).Contents (Elt F)),
    StableHlo.nullary main_call0_c_3 (constantI S_ 1 1#1),
    StableHlo.binary main_call0_v11 main_call0_c_3 main_call0_v12 ((fun x v => Host.reduce IntOp.andi x v reducesTo_S850000x1_S850000_d1 h_S_) : (⟨S850000x1, .i1⟩ : BufTy).Contents (Elt F) → (⟨S_, .i1⟩ : BufTy).Contents (Elt F) → (⟨S850000, .i1⟩ : BufTy).Contents (Elt F)),
    StableHlo.binary main_v8 main_call0_v5 main_call0_v13 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_call0_v12 main_call0_v14 ((broadcastInDim S850000x128 ![0] bcast_S850000_S850000x128_0) : (⟨S850000, .i1⟩ : BufTy).Contents (Elt F) → (⟨S850000x128, .i1⟩ : BufTy).Contents (Elt F)),
    StableHlo.nullary main_call0_cst (constant S_ .f32 0x7FC00000#32),
    StableHlo.unary main_call0_cst main_call0_v15 ((broadcastInDim S850000x128 ![] bcast_S_S850000x128) : (⟨S_, .f32⟩ : BufTy).Contents (Elt F) → (⟨S850000x128, .f32⟩ : BufTy).Contents (Elt F)),
    StableHlo.ternary main_call0_v14 main_call0_v13 main_call0_v15 main_v17 ((select) : (⟨S850000x128, .i1⟩ : BufTy).Contents (Elt F) → (⟨S850000x128, .f32⟩ : BufTy).Contents (Elt F) → (⟨S850000x128, .f32⟩ : BufTy).Contents (Elt F) → (⟨S850000x128, .f32⟩ : BufTy).Contents (Elt F)) ]

theorem opsT1_eq : (opsT1 : List (HloOp τ sig (Elt F))) = opsT1' := by
  chain_rfl

/-- `opsT2` over the buffers themselves. -/
abbrev opsT2' : List (HloOp τ sig (Elt F)) :=
  [ StableHlo.nullary main_call1_c (constantI S_ 32 0#32),
    StableHlo.unary main_call1_c main_call1_v0 ((broadcastInDim S850000 ![] bcast_S_S850000) : (⟨S_, .i32⟩ : BufTy).Contents (Elt F) → (⟨S850000, .i32⟩ : BufTy).Contents (Elt F)),
    StableHlo.binary main_v65 main_call1_v0 main_call1_v1 ((cmpi .slt) : (⟨S850000, .i32⟩ : BufTy).Contents (Elt F) → (⟨S850000, .i32⟩ : BufTy).Contents (Elt F) → (⟨S850000, .i1⟩ : BufTy).Contents (Elt F)),
    StableHlo.nullary main_call1_c_0 (constantI S_ 32 50000#32),
    StableHlo.unary main_call1_c_0 main_call1_v2 ((broadcastInDim S850000 ![] bcast_S_S850000) : (⟨S_, .i32⟩ : BufTy).Contents (Elt F) → (⟨S850000, .i32⟩ : BufTy).Contents (Elt F)),
    StableHlo.binary main_v65 main_call1_v2 main_call1_v3 ((addi) : (⟨S850000, .i32⟩ : BufTy).Contents (Elt F) → (⟨S850000, .i32⟩ : BufTy).Contents (Elt F) → (⟨S850000, .i32⟩ : BufTy).Contents (Elt F)),
    StableHlo.ternary main_call1_v1 main_call1_v3 main_v65 main_call1_v4 ((select) : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_call1_v4 main_call1_v5 ((broadcastInDim S850000x1 ![0] bcast_S850000_S850000x1_0) : (⟨S850000, .i32⟩ : BufTy).Contents (Elt F) → (⟨S850000x1, .i32⟩ : BufTy).Contents (Elt F)),
    StableHlo.nullary main_call1_c_1 (constantI S1 32 49999#32),
    StableHlo.nullary main_call1_c_2 (constantI S_ 32 0#32),
    StableHlo.unary main_call1_c_2 main_call1_v6 ((broadcastInDim S850000x1 ![] bcast_S_S850000x1) : (⟨S_, .i32⟩ : BufTy).Contents (Elt F) → (⟨S850000x1, .i32⟩ : BufTy).Contents (Elt F)),
    StableHlo.binary main_call1_v5 main_call1_v6 main_call1_v7 ((cmpi .sge) : (⟨S850000x1, .i32⟩ : BufTy).Contents (Elt F) → (⟨S850000x1, .i32⟩ : BufTy).Contents (Elt F) → (⟨S850000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S850000x1 ![0, 1] bcast_S1x1_S850000x1_0_1) : (⟨S1x1, .i32⟩ : BufTy).Contents (Elt F) → (⟨S850000x1, .i32⟩ : BufTy).Contents (Elt F)),
    StableHlo.binary main_call1_v5 main_call1_v9 main_call1_v10 ((cmpi .sle) : (⟨S850000x1, .i32⟩ : BufTy).Contents (Elt F) → (⟨S850000x1, .i32⟩ : BufTy).Contents (Elt F) → (⟨S850000x1, .i1⟩ : BufTy).Contents (Elt F)),
    StableHlo.binary main_call1_v7 main_call1_v10 main_call1_v11 ((andi) : (⟨S850000x1, .i1⟩ : BufTy).Contents (Elt F) → (⟨S850000x1, .i1⟩ : BufTy).Contents (Elt F) → (⟨S850000x1, .i1⟩ : BufTy).Contents (Elt F)),
    StableHlo.nullary main_call1_c_3 (constantI S_ 1 1#1),
    StableHlo.binary main_call1_v11 main_call1_c_3 main_call1_v12 ((fun x v => Host.reduce IntOp.andi x v reducesTo_S850000x1_S850000_d1 h_S_) : (⟨S850000x1, .i1⟩ : BufTy).Contents (Elt F) → (⟨S_, .i1⟩ : BufTy).Contents (Elt F) → (⟨S850000, .i1⟩ : BufTy).Contents (Elt F)),
    StableHlo.binary main_v58 main_call1_v5 main_call1_v13 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_call1_v12 main_call1_v14 ((broadcastInDim S850000x128 ![0] bcast_S850000_S850000x128_0) : (⟨S850000, .i1⟩ : BufTy).Contents (Elt F) → (⟨S850000x128, .i1⟩ : BufTy).Contents (Elt F)),
    StableHlo.nullary main_call1_cst (constant S_ .f32 0x7FC00000#32),
    StableHlo.unary main_call1_cst main_call1_v15 ((broadcastInDim S850000x128 ![] bcast_S_S850000x128) : (⟨S_, .f32⟩ : BufTy).Contents (Elt F) → (⟨S850000x128, .f32⟩ : BufTy).Contents (Elt F)),
    StableHlo.ternary main_call1_v14 main_call1_v13 main_call1_v15 main_v67 ((select) : (⟨S850000x128, .i1⟩ : BufTy).Contents (Elt F) → (⟨S850000x128, .f32⟩ : BufTy).Contents (Elt F) → (⟨S850000x128, .f32⟩ : BufTy).Contents (Elt F) → (⟨S850000x128, .f32⟩ : BufTy).Contents (Elt F)) ]

theorem opsT2_eq : (opsT2 : List (HloOp τ sig (Elt F))) = opsT2' := by
  chain_rfl

/-- `opsT3` over the buffers themselves. -/
abbrev opsT3' : List (HloOp τ sig (Elt F)) :=
  [ StableHlo.nullary main_call2_c (constantI S_ 32 0#32),
    StableHlo.unary main_call2_c main_call2_v0 ((broadcastInDim S850000 ![] bcast_S_S850000) : (⟨S_, .i32⟩ : BufTy).Contents (Elt F) → (⟨S850000, .i32⟩ : BufTy).Contents (Elt F)),
    StableHlo.binary main_v115 main_call2_v0 main_call2_v1 ((cmpi .slt) : (⟨S850000, .i32⟩ : BufTy).Contents (Elt F) → (⟨S850000, .i32⟩ : BufTy).Contents (Elt F) → (⟨S850000, .i1⟩ : BufTy).Contents (Elt F)),
    StableHlo.nullary main_call2_c_0 (constantI S_ 32 50000#32),
    StableHlo.unary main_call2_c_0 main_call2_v2 ((broadcastInDim S850000 ![] bcast_S_S850000) : (⟨S_, .i32⟩ : BufTy).Contents (Elt F) → (⟨S850000, .i32⟩ : BufTy).Contents (Elt F)),
    StableHlo.binary main_v115 main_call2_v2 main_call2_v3 ((addi) : (⟨S850000, .i32⟩ : BufTy).Contents (Elt F) → (⟨S850000, .i32⟩ : BufTy).Contents (Elt F) → (⟨S850000, .i32⟩ : BufTy).Contents (Elt F)),
    StableHlo.ternary main_call2_v1 main_call2_v3 main_v115 main_call2_v4 ((select) : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_call2_v4 main_call2_v5 ((broadcastInDim S850000x1 ![0] bcast_S850000_S850000x1_0) : (⟨S850000, .i32⟩ : BufTy).Contents (Elt F) → (⟨S850000x1, .i32⟩ : BufTy).Contents (Elt F)),
    StableHlo.nullary main_call2_c_1 (constantI S1 32 49999#32),
    StableHlo.nullary main_call2_c_2 (constantI S_ 32 0#32),
    StableHlo.unary main_call2_c_2 main_call2_v6 ((broadcastInDim S850000x1 ![] bcast_S_S850000x1) : (⟨S_, .i32⟩ : BufTy).Contents (Elt F) → (⟨S850000x1, .i32⟩ : BufTy).Contents (Elt F)),
    StableHlo.binary main_call2_v5 main_call2_v6 main_call2_v7 ((cmpi .sge) : (⟨S850000x1, .i32⟩ : BufTy).Contents (Elt F) → (⟨S850000x1, .i32⟩ : BufTy).Contents (Elt F) → (⟨S850000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S850000x1 ![0, 1] bcast_S1x1_S850000x1_0_1) : (⟨S1x1, .i32⟩ : BufTy).Contents (Elt F) → (⟨S850000x1, .i32⟩ : BufTy).Contents (Elt F)),
    StableHlo.binary main_call2_v5 main_call2_v9 main_call2_v10 ((cmpi .sle) : (⟨S850000x1, .i32⟩ : BufTy).Contents (Elt F) → (⟨S850000x1, .i32⟩ : BufTy).Contents (Elt F) → (⟨S850000x1, .i1⟩ : BufTy).Contents (Elt F)),
    StableHlo.binary main_call2_v7 main_call2_v10 main_call2_v11 ((andi) : (⟨S850000x1, .i1⟩ : BufTy).Contents (Elt F) → (⟨S850000x1, .i1⟩ : BufTy).Contents (Elt F) → (⟨S850000x1, .i1⟩ : BufTy).Contents (Elt F)),
    StableHlo.nullary main_call2_c_3 (constantI S_ 1 1#1),
    StableHlo.binary main_call2_v11 main_call2_c_3 main_call2_v12 ((fun x v => Host.reduce IntOp.andi x v reducesTo_S850000x1_S850000_d1 h_S_) : (⟨S850000x1, .i1⟩ : BufTy).Contents (Elt F) → (⟨S_, .i1⟩ : BufTy).Contents (Elt F) → (⟨S850000, .i1⟩ : BufTy).Contents (Elt F)),
    StableHlo.binary main_v108 main_call2_v5 main_call2_v13 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_call2_v12 main_call2_v14 ((broadcastInDim S850000x64 ![0] bcast_S850000_S850000x64_0) : (⟨S850000, .i1⟩ : BufTy).Contents (Elt F) → (⟨S850000x64, .i1⟩ : BufTy).Contents (Elt F)),
    StableHlo.nullary main_call2_cst (constant S_ .f32 0x7FC00000#32),
    StableHlo.unary main_call2_cst main_call2_v15 ((broadcastInDim S850000x64 ![] bcast_S_S850000x64) : (⟨S_, .f32⟩ : BufTy).Contents (Elt F) → (⟨S850000x64, .f32⟩ : BufTy).Contents (Elt F)),
    StableHlo.ternary main_call2_v14 main_call2_v13 main_call2_v15 main_v117 ((select) : (⟨S850000x64, .i1⟩ : BufTy).Contents (Elt F) → (⟨S850000x64, .f32⟩ : BufTy).Contents (Elt F) → (⟨S850000x64, .f32⟩ : BufTy).Contents (Elt F) → (⟨S850000x64, .f32⟩ : BufTy).Contents (Elt F)) ]

theorem opsT3_eq : (opsT3 : List (HloOp τ sig (Elt F))) = opsT3' := by
  chain_rfl

/-- `opsL` over the buffers themselves. -/
abbrev opsL' : List (HloOp τ sig (Elt F)) :=
  [ StableHlo.nullary main_call3_cst (constant S_ .f32 0xFF800000#32),
    StableHlo.binary main_v128 main_call3_cst main_call3_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.nullary main_call3_cst_0 (constant S_ .f32 0xFF800000#32),
    StableHlo.unary main_call3_cst_0 main_call3_v1 ((broadcastInDim S50000 ![] bcast_S_S50000) : (⟨S_, .f32⟩ : BufTy).Contents (Elt F) → (⟨S50000, .f32⟩ : BufTy).Contents (Elt F)),
    StableHlo.binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F)),
    StableHlo.unary main_call3_v2 main_call3_v3 ((broadcastInDim S50000x1 ![0] bcast_S50000_S50000x1_0) : (⟨S50000, .f32⟩ : BufTy).Contents (Elt F) → (⟨S50000x1, .f32⟩ : BufTy).Contents (Elt F)),
    StableHlo.unary main_call3_v3 main_call3_v4 ((broadcastInDim S50000x64 ![0, 1] bcast_S50000x1_S50000x64_0_1) : (⟨S50000x1, .f32⟩ : BufTy).Contents (Elt F) → (⟨S50000x64, .f32⟩ : BufTy).Contents (Elt F)),
    StableHlo.binary main_v128 main_call3_v4 main_call3_v5 ((subf) : (⟨S50000x64, .f32⟩ : BufTy).Contents (Elt F) → (⟨S50000x64, .f32⟩ : BufTy).Contents (Elt F) → (⟨S50000x64, .f32⟩ : BufTy).Contents (Elt F)),
    StableHlo.unary main_call3_v5 main_call3_v6 ((Host.exp) : (⟨S50000x64, .f32⟩ : BufTy).Contents (Elt F) → (⟨S50000x64, .f32⟩ : BufTy).Contents (Elt F)),
    StableHlo.nullary main_call3_cst_1 (constant S_ .f32 0x00000000#32),
    StableHlo.binary main_call3_v6 main_call3_cst_1 main_call3_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_call3_v7 main_call3_v8 ((broadcastInDim S50000x1 ![0] bcast_S50000_S50000x1_0) : (⟨S50000, .f32⟩ : BufTy).Contents (Elt F) → (⟨S50000x1, .f32⟩ : BufTy).Contents (Elt F)),
    StableHlo.unary main_call3_v8 main_call3_v9 ((Host.log) : (⟨S50000x1, .f32⟩ : BufTy).Contents (Elt F) → (⟨S50000x1, .f32⟩ : BufTy).Contents (Elt F)),
    StableHlo.unary main_call3_v9 main_call3_v10 ((broadcastInDim S50000x64 ![0, 1] bcast_S50000x1_S50000x64_0_1) : (⟨S50000x1, .f32⟩ : BufTy).Contents (Elt F) → (⟨S50000x64, .f32⟩ : BufTy).Contents (Elt F)),
    StableHlo.binary main_call3_v5 main_call3_v10 main_v129 ((subf) : (⟨S50000x64, .f32⟩ : BufTy).Contents (Elt F) → (⟨S50000x64, .f32⟩ : BufTy).Contents (Elt F) → (⟨S50000x64, .f32⟩ : BufTy).Contents (Elt F)) ]

theorem opsL_eq : (opsL : List (HloOp τ sig (Elt F))) = opsL' := by
  chain_rfl

/-! ## Each stretch read at the buffers later stretches use

For a stretch `ops…` and any contents `V` before it: the fold unrolled, each operation's result read at its own buffer
and passed over at every other; what is left is the stage's definition unfolded, and the typed references' transports,
the identity at these literal references. -/

theorem A1_v1 (V : VI) :
    after opsA1 V (Proc.devRef .tc main_v1) = srcRow (V (Proc.devRef .tc main_arg1)) := by
  after_results_simp <;> rfl

theorem A1_v3 (V : VI) :
    after opsA1 V (Proc.devRef .tc main_v3) = dstRow (V (Proc.devRef .tc main_arg1)) := by
  after_results_simp <;> rfl

theorem A1_v8 (V : VI) :
    after opsA1 V (Proc.devRef .tc main_v8) = refLin128 (V (Proc.devRef .tc main_arg0)) (V (Proc.devRef .tc main_arg2)) (V (Proc.devRef .tc main_arg3)) := by
  after_results_simp <;> rfl

theorem A1_v13 (V : VI) :
    after opsA1 V (Proc.devRef .tc main_v13) = refLin128 (V (Proc.devRef .tc main_arg0)) (V (Proc.devRef .tc main_arg4)) (V (Proc.devRef .tc main_arg5)) := by
  after_results_simp <;> rfl

theorem A1_v15 (V : VI) :
    after opsA1 V (Proc.devRef .tc main_v15) = sIdx (V (Proc.devRef .tc main_arg1)) := by
  after_results_simp <;> rfl

theorem A1_v16 (V : VI) :
    after opsA1 V (Proc.devRef .tc main_v16) = dIdx (V (Proc.devRef .tc main_arg1)) := by
  after_results_simp <;> rfl

theorem T1_v17 (V : VI) :
    after opsT1 V (Proc.devRef .tc main_v17) = take128 (V (Proc.devRef .tc main_v8)) (V (Proc.devRef .tc main_v15)) := by
  rw [opsT1_eq]
  after_results_simp <;> rfl

theorem B1_v50 (V : VI) :
    after opsB1 V (Proc.devRef .tc main_v50) = bnScaled (refComb128 (scat128 (V (Proc.devRef .tc main_v16)) (V (Proc.devRef .tc main_v17))) (cnt (V (Proc.devRef .tc main_v16))) (V (Proc.devRef .tc main_v13))) (mean (refComb128 (scat128 (V (Proc.devRef .tc main_v16)) (V (Proc.devRef .tc main_v17))) (cnt (V (Proc.devRef .tc main_v16))) (V (Proc.devRef .tc main_v13)))) (var (refComb128 (scat128 (V (Proc.devRef .tc main_v16)) (V (Proc.devRef .tc main_v17))) (cnt (V (Proc.devRef .tc main_v16))) (V (Proc.devRef .tc main_v13))) (mean (refComb128 (scat128 (V (Proc.devRef .tc main_v16)) (V (Proc.devRef .tc main_v17))) (cnt (V (Proc.devRef .tc main_v16))) (V (Proc.devRef .tc main_v13))))) (V (Proc.devRef .tc main_arg14)) := by
  after_results_simp <;> rfl

theorem B1_v51 (V : VI) :
    after opsB1 V (Proc.devRef .tc main_v51) = broadcastInDim S1x128 ![1] bcast_S128_S1x128_1 (V (Proc.devRef .tc main_arg15)) := by
  after_results_simp <;> rfl

theorem A2_v58 (V : VI) :
    after opsA2 V (Proc.devRef .tc main_v58) = refLin128 (addf (F := Ideal) (V (Proc.devRef .tc main_v50)) (broadcastInDim S50000x128 ![0, 1] bcast_S1x128_S50000x128_0_1 (V (Proc.devRef .tc main_v51)))) (V (Proc.devRef .tc main_arg6)) (V (Proc.devRef .tc main_arg7)) := by
  after_results_simp <;> rfl

theorem A2_v63 (V : VI) :
    after opsA2 V (Proc.devRef .tc main_v63) = refLin128 (addf (F := Ideal) (V (Proc.devRef .tc main_v50)) (broadcastInDim S50000x128 ![0, 1] bcast_S1x128_S50000x128_0_1 (V (Proc.devRef .tc main_v51)))) (V (Proc.devRef .tc main_arg8)) (V (Proc.devRef .tc main_arg9)) := by
  after_results_simp <;> rfl

theorem A2_v65 (V : VI) :
    after opsA2 V (Proc.devRef .tc main_v65) = withLoops (V (Proc.devRef .tc main_v1)) := by
  after_results_simp <;> rfl

theorem A2_v66 (V : VI) :
    after opsA2 V (Proc.devRef .tc main_v66) = withLoops (V (Proc.devRef .tc main_v3)) := by
  after_results_simp <;> rfl

theorem T2_v67 (V : VI) :
    after opsT2 V (Proc.devRef .tc main_v67) = take128 (V (Proc.devRef .tc main_v58)) (V (Proc.devRef .tc main_v65)) := by
  rw [opsT2_eq]
  after_results_simp <;> rfl

theorem B2_v103 (V : VI) :
    after opsB2 V (Proc.devRef .tc main_v103) = norm (refComb128 (scat128 (V (Proc.devRef .tc main_v66)) (V (Proc.devRef .tc main_v67))) (cnt (V (Proc.devRef .tc main_v66))) (V (Proc.devRef .tc main_v63))) (V (Proc.devRef .tc main_arg16)) (V (Proc.devRef .tc main_arg17)) := by
  after_results_simp <;> rfl

theorem A3_v108 (V : VI) :
    after opsA3 V (Proc.devRef .tc main_v108) = refLin64 (V (Proc.devRef .tc main_v103)) (V (Proc.devRef .tc main_arg10)) (V (Proc.devRef .tc main_arg11)) := by
  after_results_simp <;> rfl

theorem A3_v113 (V : VI) :
    after opsA3 V (Proc.devRef .tc main_v113) = refLin64 (V (Proc.devRef .tc main_v103)) (V (Proc.devRef .tc main_arg12)) (V (Proc.devRef .tc main_arg13)) := by
  after_results_simp <;> rfl

theorem A3_v115 (V : VI) :
    after opsA3 V (Proc.devRef .tc main_v115) = withLoops (V (Proc.devRef .tc main_v1)) := by
  after_results_simp <;> rfl

theorem A3_v116 (V : VI) :
    after opsA3 V (Proc.devRef .tc main_v116) = withLoops (V (Proc.devRef .tc main_v3)) := by
  after_results_simp <;> rfl

theorem T3_v117 (V : VI) :
    after opsT3 V (Proc.devRef .tc main_v117) = take64 (V (Proc.devRef .tc main_v108)) (V (Proc.devRef .tc main_v115)) := by
  rw [opsT3_eq]
  after_results_simp <;> rfl

theorem B3_v128 (V : VI) :
    after opsB3 V (Proc.devRef .tc main_v128) = refComb64 (scat64 (V (Proc.devRef .tc main_v116)) (V (Proc.devRef .tc main_v117))) (cnt (V (Proc.devRef .tc main_v116))) (V (Proc.devRef .tc main_v113)) := by
  after_results_simp <;> rfl

theorem L_v129 (V : VI) :
    after opsL V (Proc.devRef .tc main_v129) = refLsm (V (Proc.devRef .tc main_v128)) := by
  rw [opsL_eq]
  after_results_simp <;> rfl

/-! ## The folds as opaque functions

Each stretch's fold under a name of its own, so that reading the line back is rewriting with the facts above (and with
`…_pass`: a stretch leaves the buffers it does not write) and never unfolds a list of operations. -/

/-- The contents after the edge rows, the two dense maps and the index vectors of layer 1. -/
def fA1 (V : VI) : VI := after opsA1 V
theorem fA1_pass (V : VI) {r : Ref sig .tc} (hr : r ∉ wA1) : fA1 V (no_index (Proc.devRef .tc r)) = V (Proc.devRef .tc r) := opsA1_pass V hr
theorem fA1_v1 (V : VI) : fA1 V (no_index (Proc.devRef .tc main_v1)) = srcRow (V (Proc.devRef .tc main_arg1)) := A1_v1 V
theorem fA1_v3 (V : VI) : fA1 V (no_index (Proc.devRef .tc main_v3)) = dstRow (V (Proc.devRef .tc main_arg1)) := A1_v3 V
theorem fA1_v8 (V : VI) : fA1 V (no_index (Proc.devRef .tc main_v8)) = refLin128 (V (Proc.devRef .tc main_arg0)) (V (Proc.devRef .tc main_arg2)) (V (Proc.devRef .tc main_arg3)) := A1_v8 V
theorem fA1_v13 (V : VI) : fA1 V (no_index (Proc.devRef .tc main_v13)) = refLin128 (V (Proc.devRef .tc main_arg0)) (V (Proc.devRef .tc main_arg4)) (V (Proc.devRef .tc main_arg5)) := A1_v13 V
theorem fA1_v15 (V : VI) : fA1 V (no_index (Proc.devRef .tc main_v15)) = sIdx (V (Proc.devRef .tc main_arg1)) := A1_v15 V
theorem fA1_v16 (V : VI) : fA1 V (no_index (Proc.devRef .tc main_v16)) = dIdx (V (Proc.devRef .tc main_arg1)) := A1_v16 V

/-- The contents after layer 1's gather. -/
def fT1 (V : VI) : VI := after opsT1 V
theorem fT1_pass (V : VI) {r : Ref sig .tc} (hr : r ∉ wT1) : fT1 V (no_index (Proc.devRef .tc r)) = V (Proc.devRef .tc r) := opsT1_pass V hr
theorem fT1_v17 (V : VI) : fT1 V (no_index (Proc.devRef .tc main_v17)) = take128 (V (Proc.devRef .tc main_v8)) (V (Proc.devRef .tc main_v15)) := T1_v17 V

/-- The contents after layer 1's aggregation and the first normalisation up to the scale. -/
def fB1 (V : VI) : VI := after opsB1 V
theorem fB1_pass (V : VI) {r : Ref sig .tc} (hr : r ∉ wB1) : fB1 V (no_index (Proc.devRef .tc r)) = V (Proc.devRef .tc r) := opsB1_pass V hr
theorem fB1_v50 (V : VI) : fB1 V (no_index (Proc.devRef .tc main_v50)) = bnScaled (refComb128 (scat128 (V (Proc.devRef .tc main_v16)) (V (Proc.devRef .tc main_v17))) (cnt (V (Proc.devRef .tc main_v16))) (V (Proc.devRef .tc main_v13))) (mean (refComb128 (scat128 (V (Proc.devRef .tc main_v16)) (V (Proc.devRef .tc main_v17))) (cnt (V (Proc.devRef .tc main_v16))) (V (Proc.devRef .tc main_v13)))) (var (refComb128 (scat128 (V (Proc.devRef .tc main_v16)) (V (Proc.devRef .tc main_v17))) (cnt (V (Proc.devRef .tc main_v16))) (V (Proc.devRef .tc main_v13))) (mean (refComb128 (scat128 (V (Proc.devRef .tc main_v16)) (V (Proc.devRef .tc main_v17))) (cnt (V (Proc.devRef .tc main_v16))) (V (Proc.devRef .tc main_v13))))) (V (Proc.devRef .tc main_arg14)) := B1_v50 V
theorem fB1_v51 (V : VI) : fB1 V (no_index (Proc.devRef .tc main_v51)) = broadcastInDim S1x128 ![1] bcast_S128_S1x128_1 (V (Proc.devRef .tc main_arg15)) := B1_v51 V

/-- The contents after the first normalisation's shift, the two dense maps and the index vectors of layer 2. -/
def fA2 (V : VI) : VI := after opsA2 V
theorem fA2_pass (V : VI) {r : Ref sig .tc} (hr : r ∉ wA2) : fA2 V (no_index (Proc.devRef .tc r)) = V (Proc.devRef .tc r) := opsA2_pass V hr
theorem fA2_v58 (V : VI) : fA2 V (no_index (Proc.devRef .tc main_v58)) = refLin128 (addf (F := Ideal) (V (Proc.devRef .tc main_v50)) (broadcastInDim S50000x128 ![0, 1] bcast_S1x128_S50000x128_0_1 (V (Proc.devRef .tc main_v51)))) (V (Proc.devRef .tc main_arg6)) (V (Proc.devRef .tc main_arg7)) := A2_v58 V
theorem fA2_v63 (V : VI) : fA2 V (no_index (Proc.devRef .tc main_v63)) = refLin128 (addf (F := Ideal) (V (Proc.devRef .tc main_v50)) (broadcastInDim S50000x128 ![0, 1] bcast_S1x128_S50000x128_0_1 (V (Proc.devRef .tc main_v51)))) (V (Proc.devRef .tc main_arg8)) (V (Proc.devRef .tc main_arg9)) := A2_v63 V
theorem fA2_v65 (V : VI) : fA2 V (no_index (Proc.devRef .tc main_v65)) = withLoops (V (Proc.devRef .tc main_v1)) := A2_v65 V
theorem fA2_v66 (V : VI) : fA2 V (no_index (Proc.devRef .tc main_v66)) = withLoops (V (Proc.devRef .tc main_v3)) := A2_v66 V

/-- The contents after layer 2's gather. -/
def fT2 (V : VI) : VI := after opsT2 V
theorem fT2_pass (V : VI) {r : Ref sig .tc} (hr : r ∉ wT2) : fT2 V (no_index (Proc.devRef .tc r)) = V (Proc.devRef .tc r) := opsT2_pass V hr
theorem fT2_v67 (V : VI) : fT2 V (no_index (Proc.devRef .tc main_v67)) = take128 (V (Proc.devRef .tc main_v58)) (V (Proc.devRef .tc main_v65)) := T2_v67 V

/-- The contents after layer 2's aggregation and the second normalisation. -/
def fB2 (V : VI) : VI := after opsB2 V
theorem fB2_pass (V : VI) {r : Ref sig .tc} (hr : r ∉ wB2) : fB2 V (no_index (Proc.devRef .tc r)) = V (Proc.devRef .tc r) := opsB2_pass V hr
theorem fB2_v103 (V : VI) : fB2 V (no_index (Proc.devRef .tc main_v103)) = norm (refComb128 (scat128 (V (Proc.devRef .tc main_v66)) (V (Proc.devRef .tc main_v67))) (cnt (V (Proc.devRef .tc main_v66))) (V (Proc.devRef .tc main_v63))) (V (Proc.devRef .tc main_arg16)) (V (Proc.devRef .tc main_arg17)) := B2_v103 V

/-- The contents after the two dense maps and the index vectors of layer 3. -/
def fA3 (V : VI) : VI := after opsA3 V
theorem fA3_pass (V : VI) {r : Ref sig .tc} (hr : r ∉ wA3) : fA3 V (no_index (Proc.devRef .tc r)) = V (Proc.devRef .tc r) := opsA3_pass V hr
theorem fA3_v108 (V : VI) : fA3 V (no_index (Proc.devRef .tc main_v108)) = refLin64 (V (Proc.devRef .tc main_v103)) (V (Proc.devRef .tc main_arg10)) (V (Proc.devRef .tc main_arg11)) := A3_v108 V
theorem fA3_v113 (V : VI) : fA3 V (no_index (Proc.devRef .tc main_v113)) = refLin64 (V (Proc.devRef .tc main_v103)) (V (Proc.devRef .tc main_arg12)) (V (Proc.devRef .tc main_arg13)) := A3_v113 V
theorem fA3_v115 (V : VI) : fA3 V (no_index (Proc.devRef .tc main_v115)) = withLoops (V (Proc.devRef .tc main_v1)) := A3_v115 V
theorem fA3_v116 (V : VI) : fA3 V (no_index (Proc.devRef .tc main_v116)) = withLoops (V (Proc.devRef .tc main_v3)) := A3_v116 V

/-- The contents after layer 3's gather. -/
def fT3 (V : VI) : VI := after opsT3 V
theorem fT3_pass (V : VI) {r : Ref sig .tc} (hr : r ∉ wT3) : fT3 V (no_index (Proc.devRef .tc r)) = V (Proc.devRef .tc r) := opsT3_pass V hr
theorem fT3_v117 (V : VI) : fT3 V (no_index (Proc.devRef .tc main_v117)) = take64 (V (Proc.devRef .tc main_v108)) (V (Proc.devRef .tc main_v115)) := T3_v117 V

/-- The contents after layer 3's aggregation. -/
def fB3 (V : VI) : VI := after opsB3 V
theorem fB3_pass (V : VI) {r : Ref sig .tc} (hr : r ∉ wB3) : fB3 V (no_index (Proc.devRef .tc r)) = V (Proc.devRef .tc r) := opsB3_pass V hr
theorem fB3_v128 (V : VI) : fB3 V (no_index (Proc.devRef .tc main_v128)) = refComb64 (scat64 (V (Proc.devRef .tc main_v116)) (V (Proc.devRef .tc main_v117))) (cnt (V (Proc.devRef .tc main_v116))) (V (Proc.devRef .tc main_v113)) := B3_v128 V

/-- The contents after the log-softmax. -/
def fL (V : VI) : VI := after opsL V
theorem fL_pass (V : VI) {r : Ref sig .tc} (hr : r ∉ wL) : fL V (no_index (Proc.devRef .tc r)) = V (Proc.devRef .tc r) := opsL_pass V hr
theorem fL_v129 (V : VI) : fL V (no_index (Proc.devRef .tc main_v129)) = refLsm (V (Proc.devRef .tc main_v128)) := L_v129 V

theorem after_ops_f (V : VI) : after ops V = fL (fB3 (fT3 (fA3 (fB2 (fT2 (fA2 (fB1 (fT1 (fA1 (V)))))))))) := after_ops V

/-! ## The line read back -/

/-- The first result's buffer after the line: the network of the arguments' contents. -/
theorem outLogp_eq (V : VI) : after ops V (Proc.devRef .tc main_v129) = outLogp (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops_f]
  simp (disch := decide) only [fA1_pass, fT1_pass, fB1_pass, fA2_pass, fT2_pass, fB2_pass, fA3_pass, fT3_pass, fB3_pass, fL_pass, fA1_v1, fA1_v3, fA1_v8, fA1_v13, fA1_v15, fA1_v16, fT1_v17, fB1_v50, fB1_v51, fA2_v58, fA2_v63, fA2_v65, fA2_v66, fT2_v67, fB2_v103, fA3_v108, fA3_v113, fA3_v115, fA3_v116, fT3_v117, fB3_v128, fL_v129]
  rfl

/-- The second result's buffer after the line. -/
theorem outH_eq (V : VI) : after ops V (Proc.devRef .tc main_v128) = outH (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops_f]
  simp (disch := decide) only [fA1_pass, fT1_pass, fB1_pass, fA2_pass, fT2_pass, fB2_pass, fA3_pass, fT3_pass, fB3_pass, fL_pass, fA1_v1, fA1_v3, fA1_v8, fA1_v13, fA1_v15, fA1_v16, fT1_v17, fB1_v50, fB1_v51, fA2_v58, fA2_v63, fA2_v65, fA2_v66, fT2_v67, fB2_v103, fA3_v108, fA3_v113, fA3_v115, fA3_v116, fT3_v117, fB3_v128, fL_v129]
  rfl

/-- On every device, from any memory with zero counters: every weakly fair execution of the reference's @main terminates
    with the first result the log-softmax of the network's output, the second that output, both as functions of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v129) = outLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v128) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run _ _ _).mono
    (fun _ h c => ⟨(h c main_v129).trans (outLogp_eq (launchContents m c)), (h c main_v128).trans (outH_eq (launchContents m c)),
      (h c main_arg0).trans (arg_pass (launchContents m c) (by decide)),
      (h c main_arg1).trans (arg_pass (launchContents m c) (by decide)),
      (h c main_arg2).trans (arg_pass (launchContents m c) (by decide)),
      (h c main_arg3).trans (arg_pass (launchContents m c) (by decide)),
      (h c main_arg4).trans (arg_pass (launchContents m c) (by decide)),
      (h c main_arg5).trans (arg_pass (launchContents m c) (by decide)),
      (h c main_arg6).trans (arg_pass (launchContents m c) (by decide)),
      (h c main_arg7).trans (arg_pass (launchContents m c) (by decide)),
      (h c main_arg8).trans (arg_pass (launchContents m c) (by decide)),
      (h c main_arg9).trans (arg_pass (launchContents m c) (by decide)),
      (h c main_arg10).trans (arg_pass (launchContents m c) (by decide)),
      (h c main_arg11).trans (arg_pass (launchContents m c) (by decide)),
      (h c main_arg12).trans (arg_pass (launchContents m c) (by decide)),
      (h c main_arg13).trans (arg_pass (launchContents m c) (by decide)),
      (h c main_arg14).trans (arg_pass (launchContents m c) (by decide)),
      (h c main_arg15).trans (arg_pass (launchContents m c) (by decide)),
      (h c main_arg16).trans (arg_pass (launchContents m c) (by decide)),
      (h c main_arg17).trans (arg_pass (launchContents m c) (by decide))⟩)
    (run_fold (F := Ideal) m ρ)

end Cert.ReferenceIdeal.RefRun

end
-- ==== Proof.NetSame.lean ====
/-
  The reference network is the kernel's network: the same host functions around the same stages, layer by layer.
-/
import proofs.«139878_j75204877353213_2_alg».proof.Proof.RefOps
import proofs.«139878_j75204877353213_2_alg».proof.Proof.RefRead
import proofs.«139878_j75204877353213_2_alg».proof.Proof.ChainNet

set_option maxRecDepth 16384

noncomputable section

namespace Cert.NetSame

open Idealize.ShloMosaic
open Cert.ReferenceIdeal
open Cert.KernelIdeal.Chain (kS kD kCnt kTake128 kTake64 kScat128 kScat64 kMean kVar kLayer128 kLayer64 kNorm)

/-! # The reference network and the kernel's network are one function

Both programs run the same host operations between their dense, combining and normalising stages: the edge list
with a self loop per node appended, the gather of source rows, the scatter-add onto destination rows, the in-degree
count, a feature's mean and variance over the nodes. Each program spells them with its own witnesses of the shape
side conditions, which are propositions; so the functions are equal by unfolding. The stages themselves are the
specification's functions on the reference side by reading its operations index by index. -/

/-! ## The shared host functions -/

theorem kS_eq (ei : IVec S2x800000 32) : kS ei = RefRun.sIdx ei := rfl
theorem kD_eq (ei : IVec S2x800000 32) : kD ei = RefRun.dIdx ei := rfl
theorem kCnt_eq (d : IVec S850000 32) : kCnt d = RefRun.cnt d := rfl
theorem kTake128_eq (x : FVec Ideal S50000x128 .f32) (s : IVec S850000 32) : kTake128 x s = RefRun.take128 x s := rfl
theorem kTake64_eq (x : FVec Ideal S50000x64 .f32) (s : IVec S850000 32) : kTake64 x s = RefRun.take64 x s := rfl
theorem kScat128_eq (d : IVec S850000 32) (u : FVec Ideal S850000x128 .f32) : kScat128 d u = RefRun.scat128 d u := rfl
theorem kScat64_eq (d : IVec S850000 32) (u : FVec Ideal S850000x64 .f32) : kScat64 d u = RefRun.scat64 d u := rfl
theorem kMean_eq (h : FVec Ideal S50000x128 .f32) : kMean h = RefRun.mean h := rfl
theorem kVar_eq (h : FVec Ideal S50000x128 .f32) (mu : FVec Ideal S128 .f32) : kVar h mu = RefRun.var h mu := rfl

/-! ## The reference's stages are the specification's functions -/

theorem refLin128_eq (x : FVec Ideal S50000x128 .f32) (W : FVec Ideal S128x128 .f32) (b : FVec Ideal S128 .f32) :
    RefRun.refLin128 x W b = Cert.Spec.lin128 x W b := RefRead.ref_lin128 x W b
theorem refLin64_eq (x : FVec Ideal S50000x128 .f32) (W : FVec Ideal S64x128 .f32) (b : FVec Ideal S64 .f32) :
    RefRun.refLin64 x W b = Cert.Spec.lin64 x W b := RefRead.ref_lin64 x W b
theorem refComb128_eq (agg : FVec Ideal S50000x128 .f32) (cn : FVec Ideal S50000 .f32) (xr : FVec Ideal S50000x128 .f32) :
    RefRun.refComb128 agg cn xr = Cert.Spec.comb128 agg cn xr := RefRead.ref_comb128 agg cn xr
theorem refComb64_eq (agg : FVec Ideal S50000x64 .f32) (cn : FVec Ideal S50000 .f32) (xr : FVec Ideal S50000x64 .f32) :
    RefRun.refComb64 agg cn xr = Cert.Spec.comb64 agg cn xr := RefRead.ref_comb64 agg cn xr
theorem refBn_eq (h : FVec Ideal S50000x128 .f32) (mu vr g be : FVec Ideal S128 .f32) :
    RefRun.refBn h mu vr g be = Cert.Spec.bn h mu vr g be := RefRead.ref_bn h mu vr g be
theorem refLsm_eq (h : FVec Ideal S50000x64 .f32) : RefRun.refLsm h = Cert.Spec.lsm h := RefRead.ref_lsm h

/-! ## Layer by layer -/

/-- One graph convolution (128 → 128): the same gather, scatter-add and count around the same dense maps and the
    same division by the in-degree. -/
theorem layer128_eq (x : FVec Ideal S50000x128 .f32) (ei : IVec S2x800000 32)
    (Wl : FVec Ideal S128x128 .f32) (bl : FVec Ideal S128 .f32) (Wr : FVec Ideal S128x128 .f32) (br : FVec Ideal S128 .f32) :
    RefRun.layer128 x (RefRun.sIdx ei) (RefRun.dIdx ei) Wl bl Wr br = kLayer128 x ei Wl bl Wr br := by
  unfold RefRun.layer128 Cert.KernelIdeal.Chain.kLayer128
  rw [refComb128_eq, refLin128_eq, refLin128_eq, kS_eq, kD_eq, kCnt_eq, kTake128_eq, kScat128_eq]

/-- The last graph convolution (128 → 64). -/
theorem layer64_eq (x : FVec Ideal S50000x128 .f32) (ei : IVec S2x800000 32)
    (Wl : FVec Ideal S64x128 .f32) (bl : FVec Ideal S64 .f32) (Wr : FVec Ideal S64x128 .f32) (br : FVec Ideal S64 .f32) :
    RefRun.layer64 x (RefRun.sIdx ei) (RefRun.dIdx ei) Wl bl Wr br = kLayer64 x ei Wl bl Wr br := by
  unfold RefRun.layer64 Cert.KernelIdeal.Chain.kLayer64
  rw [refComb64_eq, refLin64_eq, refLin64_eq, kS_eq, kD_eq, kCnt_eq, kTake64_eq, kScat64_eq]

/-- The batch normalisation with the array's own statistics. -/
theorem norm_eq (h : FVec Ideal S50000x128 .f32) (g be : FVec Ideal S128 .f32) :
    RefRun.norm h g be = kNorm h g be := by
  unfold RefRun.norm Cert.KernelIdeal.Chain.kNorm
  rw [refBn_eq, kVar_eq, kMean_eq]

/-! ## The network -/

/-- The reference's second result is the three layers with the two normalisations between them. -/
theorem outH_eq (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S64x128 .f32) (a11 : FVec Ideal S64 .f32)
    (a12 : FVec Ideal S64x128 .f32) (a13 : FVec Ideal S64 .f32) (a14 a15 a16 a17 : FVec Ideal S128 .f32) :
    RefRun.outH a0 a1 a2 a3 a4 a5 a6 a7 a8 a9 a10 a11 a12 a13 a14 a15 a16 a17
      = kLayer64 (kNorm (kLayer128 (kNorm (kLayer128 a0 a1 a2 a3 a4 a5) a14 a15) a1 a6 a7 a8 a9) a16 a17) a1 a10 a11 a12 a13 := by
  unfold RefRun.outH RefRun.h1 RefRun.h0
  rw [layer128_eq, norm_eq, layer128_eq, norm_eq, layer64_eq]

/-- The reference's first result is the row-wise log-softmax of that. -/
theorem outLogp_eq (a0 : FVec Ideal S50000x128 .f32) (a1 : IVec S2x800000 32) (a2 : FVec Ideal S128x128 .f32) (a3 : FVec Ideal S128 .f32)
    (a4 : FVec Ideal S128x128 .f32) (a5 : FVec Ideal S128 .f32) (a6 : FVec Ideal S128x128 .f32) (a7 : FVec Ideal S128 .f32)
    (a8 : FVec Ideal S128x128 .f32) (a9 : FVec Ideal S128 .f32) (a10 : FVec Ideal S64x128 .f32) (a11 : FVec Ideal S64 .f32)
    (a12 : FVec Ideal S64x128 .f32) (a13 : FVec Ideal S64 .f32) (a14 a15 a16 a17 : FVec Ideal S128 .f32) :
    RefRun.outLogp a0 a1 a2 a3 a4 a5 a6 a7 a8 a9 a10 a11 a12 a13 a14 a15 a16 a17
      = Cert.Spec.lsm (kLayer64 (kNorm (kLayer128 (kNorm (kLayer128 a0 a1 a2 a3 a4 a5) a14 a15) a1 a6 a7 a8 a9) a16 a17) a1 a10 a11 a12 a13) := by
  unfold RefRun.outLogp
  rw [refLsm_eq, outH_eq]

end Cert.NetSame

end
-- ==== Proof.lean ====
/-
  The certificate: a three-layer mean-aggregating graph convolution network on 50000 nodes (two batch normalisations,
  a final row-wise log-softmax), computed by a blocked program and by a plain one, gives the same two arrays over the
  extended reals.

  Both programs are read as ONE function of the eighteen argument arrays. The blocked program's six blocked regions
  are, entry by entry, the dense layers `x · Wᵀ + b` (after the normalisation's affine step where it is fused in), the
  mean aggregation's last step `agg / cnt + xr`, and the log-softmax; between them it gathers, scatter-adds and takes
  the per-feature mean and variance with the same operations as the plain program. The plain program's dense layers,
  its division by the count and its normalisation are the same functions index by index: a contraction over the 128
  input features is the sum of the products, a quotient is a quotient, and the log-softmax of a row is
  `(h - M) - log Σ exp (h - M)` with `M` the row's maximum on both sides. So the network composed stage by stage is
  the same term on both sides, from arguments that agree.
-/
import proofs.«139878_j75204877353213_2_alg».proof.Defs
import proofs.«139878_j75204877353213_2_alg».proof.Proof.Assemble
import proofs.«139878_j75204877353213_2_alg».proof.Proof.ChainNet
import proofs.«139878_j75204877353213_2_alg».proof.Proof.Chain
import proofs.«139878_j75204877353213_2_alg».proof.Proof.RefList
import proofs.«139878_j75204877353213_2_alg».proof.Proof.RefRun
import proofs.«139878_j75204877353213_2_alg».proof.Proof.NetSame

noncomputable section

namespace Cert.Proof

open Idealize.ShloMosaic Idealize.SL.Sem

/-- The network of the eighteen arguments: three graph convolutions, the first two each followed by a batch
    normalisation with the statistics of its own output. -/
def net : Assemble.Net := fun a0 a1 a2 a3 a4 a5 a6 a7 a8 a9 a10 a11 a12 a13 a14 a15 a16 a17 =>
  Cert.KernelIdeal.Chain.kLayer64 (Cert.KernelIdeal.Chain.kNorm (Cert.KernelIdeal.Chain.kLayer128 (Cert.KernelIdeal.Chain.kNorm (Cert.KernelIdeal.Chain.kLayer128 a0 a1 a2 a3 a4 a5) a14 a15) a1 a6 a7 a8 a9) a16 a17) a1 a10 a11 a12 a13

/-- The reference runs and leaves its arguments unchanged. -/
theorem frame_ri : Cert.frame_ReferenceIdeal := Cert.ReferenceIdeal.RefRun.frame

/-- Both programs end with the network's output and its row-wise log-softmax. -/
theorem algebraic : Cert.algebraic_KernelIdeal_ReferenceIdeal :=
  Assemble.algebraic_of net
    (fun m ρ c => Cert.KernelIdeal.Chain.e15_logp m ρ c) (fun m ρ c => Cert.KernelIdeal.Chain.e15_h m ρ c)
    (fun m' ρ' => Cert.ReferenceIdeal.RefRun.run m' ρ')
    (fun a0 a1 a2 a3 a4 a5 a6 a7 a8 a9 a10 a11 a12 a13 a14 a15 a16 a17 => Cert.NetSame.outH_eq a0 a1 a2 a3 a4 a5 a6 a7 a8 a9 a10 a11 a12 a13 a14 a15 a16 a17)
    (fun a0 a1 a2 a3 a4 a5 a6 a7 a8 a9 a10 a11 a12 a13 a14 a15 a16 a17 => Cert.NetSame.outLogp_eq a0 a1 a2 a3 a4 a5 a6 a7 a8 a9 a10 a11 a12 a13 a14 a15 a16 a17)

theorem claim : Cert.Claim := Assemble.claim_of frame_ri algebraic

end Cert.Proof

end
